-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v123)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v123) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v139) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S400000 : Shape := ⟨1, ![400000]⟩
abbrev S100000x128 : Shape := ⟨2, ![100000, 128]⟩
abbrev S400000x128 : Shape := ⟨2, ![400000, 128]⟩
abbrev S2000000 : Shape := ⟨1, ![2000000]⟩
abbrev S500000 : Shape := ⟨1, ![500000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S400000x128 : S_.BroadcastsInDim S400000x128 (![] : Fin 0 → Fin S400000x128.rank)
  reducesTo_S400000x128_S_d0_1 : S400000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg17 : FVec F S128x128 .f32) (main_arg18 : FVec F S128 .f32) (main_arg19 : FVec F S128x128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128x128 .f32 := Host.absf main_arg17
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg18
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg19
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_v63 main_v67

def fn_part2 {F : FTy → Type} [FloatOps F] (main_arg13 : FVec F S128x128 .f32) (main_arg14 : FVec F S128x128 .f32) (main_arg15 : FVec F S128 .f32) (main_arg16 : FVec F S128x128 .f32) (main_arg17 : FVec F S128x128 .f32) (main_arg18 : FVec F S128 .f32) (main_arg19 : FVec F S128x128 .f32) (main_v33 : IVec S_ 1) : IVec S_ 1 :=
  let main_v34 : FVec F S128x128 .f32 := Host.absf main_arg13
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg14
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg15
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg16
  let main_cst_18 : FVec F S_ .f32 := constant S_ .f32 0x7F800000#32
  let main_v50 : FVec F S128x128 .f32 := broadcastInDim S128x128 ![] bcast_S_S128x128 main_cst_18
  fn_part3 (F := F) main_arg17 main_arg18 main_arg19 main_v48 main_v49 main_v50

def fn_part1 {F : FTy → Type} [FloatOps F] (main_arg10 : FVec F S128x128 .f32) (main_arg11 : FVec F S128x128 .f32) (main_arg12 : FVec F S128 .f32) (main_arg13 : FVec F S128x128 .f32) (main_arg14 : FVec F S128x128 .f32) (main_arg15 : FVec F S128 .f32) (main_arg16 : FVec F S128x128 .f32) (main_arg17 : FVec F S128x128 .f32) (main_arg18 : FVec F S128 .f32) (main_arg19 : FVec F S128x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg10
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg11
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg12
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg13 main_arg14 main_arg15 main_arg16 main_arg17 main_arg18 main_arg19 main_v33

def fn {F : FTy → Type} [FloatOps F] (main_arg0 : IVec S100000 32) (main_arg1 : IVec S400000 32) (main_arg2 : FVec F S100000x128 .f32) (main_arg3 : FVec F S400000x128 .f32) (main_arg4 : IVec S2000000 32) (main_arg5 : IVec S2000000 32) (main_arg6 : IVec S500000 32) (main_arg7 : IVec S500000 32) (main_arg8 : FVec F S128x128 .f32) (main_arg9 : FVec F S128 .f32) (main_arg10 : FVec F S128x128 .f32) (main_arg11 : FVec F S128x128 .f32) (main_arg12 : FVec F S128 .f32) (main_arg13 : FVec F S128x128 .f32) (main_arg14 : FVec F S128x128 .f32) (main_arg15 : FVec F S128 .f32) (main_arg16 : FVec F S128x128 .f32) (main_arg17 : FVec F S128x128 .f32) (main_arg18 : FVec F S128 .f32) (main_arg19 : FVec F S128x128 .f32) : IVec S_ 1 :=
  let main_v0 : FVec F S100000x128 .f32 := Host.absf main_arg2
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S400000x128 .f32 := Host.absf main_arg3
  let main_cst_0 : FVec F S_ .f32 := constant S_ .f32 0x7F800000#32
  let main_v5 : FVec F S400000x128 .f32 := broadcastInDim S400000x128 ![] bcast_S_S400000x128 main_cst_0
  let main_v6 : IVec S400000x128 1 := cmpf .olt main_v4 main_v5
  let main_c_1 : IVec S_ 1 := constantI S_ 1 1#1
  let main_v7 : IVec S_ 1 := (fun x v => Host.reduce IntOp.andi x v reducesTo_S400000x128_S_d0_1 h_S_) main_v6 main_c_1
  let main_v8 : IVec S_ 1 := andi main_v3 main_v7
  let main_v9 : FVec F S128x128 .f32 := Host.absf main_arg8
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg9
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg10 main_arg11 main_arg12 main_arg13 main_arg14 main_arg15 main_arg16 main_arg17 main_arg18 main_arg19 main_v13 main_v16
-- ==== Kernel.lean ====
abbrev S100000 : Shape := ⟨1, ![100000]⟩
abbrev S400000 : Shape := ⟨1, ![400000]⟩
abbrev S100000x128 : Shape := ⟨2, ![100000, 128]⟩
abbrev S400000x128 : Shape := ⟨2, ![400000, 128]⟩
abbrev S2000000 : Shape := ⟨1, ![2000000]⟩
abbrev S500000 : Shape := ⟨1, ![500000]⟩
abbrev S128x128 : Shape := ⟨2, ![128, 128]⟩
abbrev S128 : Shape := ⟨1, ![128]⟩
abbrev S_ : Shape := ⟨0, ![]⟩
abbrev S100000x1 : Shape := ⟨2, ![100000, 1]⟩
abbrev S400000x1 : Shape := ⟨2, ![400000, 1]⟩
abbrev S2000000x1 : Shape := ⟨2, ![2000000, 1]⟩
abbrev S2000000x128 : Shape := ⟨2, ![2000000, 128]⟩
abbrev S401408x128 : Shape := ⟨2, ![401408, 128]⟩
abbrev S4096x128 : Shape := ⟨2, ![4096, 128]⟩
abbrev S1x128 : Shape := ⟨2, ![1, 128]⟩
abbrev S102400x128 : Shape := ⟨2, ![102400, 128]⟩
abbrev S500000x1 : Shape := ⟨2, ![500000, 1]⟩
abbrev S500000x128 : Shape := ⟨2, ![500000, 128]⟩
abbrev S507904x128 : Shape := ⟨2, ![507904, 128]⟩
abbrev S507904 : Shape := ⟨1, ![507904]⟩
abbrev S8192x128 : Shape := ⟨2, ![8192, 128]⟩
abbrev S8192 : Shape := ⟨1, ![8192]⟩

abbrev nBuf : Space → Nat
  | .hbm => 196
  | .vmem => 42
  | .smem => 0
  | _ => 0

abbrev hbmTy0_0 (i : Nat) : BufTy := match i % 128 with
  | 0 => ⟨S100000, .i32⟩
  | 1 => ⟨S400000, .i32⟩
  | 2 => ⟨S100000x128, .f32⟩
  | 3 => ⟨S400000x128, .f32⟩
  | 4 => ⟨S2000000, .i32⟩
  | 5 => ⟨S2000000, .i32⟩
  | 6 => ⟨S500000, .i32⟩
  | 7 => ⟨S500000, .i32⟩
  | 8 => ⟨S128x128, .f32⟩
  | 9 => ⟨S128, .f32⟩
  | 10 => ⟨S128x128, .f32⟩
  | 11 => ⟨S128x128, .f32⟩
  | 12 => ⟨S128, .f32⟩
  | 13 => ⟨S128x128, .f32⟩
  | 14 => ⟨S128x128, .f32⟩
  | 15 => ⟨S128, .f32⟩
  | 16 => ⟨S128x128, .f32⟩
  | 17 => ⟨S128x128, .f32⟩
  | 18 => ⟨S128, .f32⟩
  | 19 => ⟨S128x128, .f32⟩
  | 20 => ⟨S_, .i32⟩
  | 21 => ⟨S100000, .i32⟩
  | 22 => ⟨S100000, .i1⟩
  | 23 => ⟨S_, .i32⟩
  | 24 => ⟨S100000, .i32⟩
  | 25 => ⟨S100000, .i32⟩
  | 26 => ⟨S100000, .i32⟩
  | 27 => ⟨S100000x1, .i32⟩
  | 28 => ⟨S100000x128, .f32⟩
  | 29 => ⟨S_, .i32⟩
  | 30 => ⟨S400000, .i32⟩
  | 31 => ⟨S400000, .i1⟩
  | 32 => ⟨S_, .i32⟩
  | 33 => ⟨S400000, .i32⟩
  | 34 => ⟨S400000, .i32⟩
  | 35 => ⟨S400000, .i32⟩
  | 36 => ⟨S400000x1, .i32⟩
  | 37 => ⟨S400000x128, .f32⟩
  | 38 => ⟨S_, .i32⟩
  | 39 => ⟨S2000000, .i32⟩
  | 40 => ⟨S2000000, .i1⟩
  | 41 => ⟨S_, .i32⟩
  | 42 => ⟨S2000000, .i32⟩
  | 43 => ⟨S2000000, .i32⟩
  | 44 => ⟨S2000000, .i32⟩
  | 45 => ⟨S2000000x1, .i32⟩
  | 46 => ⟨S2000000x128, .f32⟩
  | 47 => ⟨S_, .f32⟩
  | 48 => ⟨S400000x128, .f32⟩
  | 49 => ⟨S2000000x1, .i32⟩
  | 50 => ⟨S400000x128, .f32⟩
  | 51 => ⟨S_, .f32⟩
  | 52 => ⟨S2000000, .f32⟩
  | 53 => ⟨S_, .f32⟩
  | 54 => ⟨S400000, .f32⟩
  | 55 => ⟨S2000000x1, .i32⟩
  | 56 => ⟨S400000, .f32⟩
  | 57 => ⟨S_, .f32⟩
  | 58 => ⟨S400000, .f32⟩
  | 59 => ⟨S400000, .f32⟩
  | 60 => ⟨S400000x1, .f32⟩
  | 61 => ⟨S400000x128, .f32⟩
  | 62 => ⟨S400000x128, .f32⟩
  | 63 => ⟨S_, .i32⟩
  | 64 => ⟨S_, .f32⟩
  | 65 => ⟨S401408x128, .f32⟩
  | 66 => ⟨S_, .i32⟩
  | 67 => ⟨S_, .f32⟩
  | 68 => ⟨S401408x128, .f32⟩
  | 69 => ⟨S401408x128, .f32⟩
  | 70 => ⟨S400000x128, .f32⟩
  | 71 => ⟨S_, .i32⟩
  | 72 => ⟨S2000000, .i32⟩
  | 73 => ⟨S2000000, .i1⟩
  | 74 => ⟨S_, .i32⟩
  | 75 => ⟨S2000000, .i32⟩
  | 76 => ⟨S2000000, .i32⟩
  | 77 => ⟨S2000000, .i32⟩
  | 78 => ⟨S2000000x1, .i32⟩
  | 79 => ⟨S2000000x128, .f32⟩
  | 80 => ⟨S_, .f32⟩
  | 81 => ⟨S100000x128, .f32⟩
  | 82 => ⟨S2000000x1, .i32⟩
  | 83 => ⟨S100000x128, .f32⟩
  | 84 => ⟨S_, .f32⟩
  | 85 => ⟨S2000000, .f32⟩
  | 86 => ⟨S_, .f32⟩
  | 87 => ⟨S100000, .f32⟩
  | 88 => ⟨S2000000x1, .i32⟩
  | 89 => ⟨S100000, .f32⟩
  | 90 => ⟨S_, .f32⟩
  | 91 => ⟨S100000, .f32⟩
  | 92 => ⟨S100000, .f32⟩
  | 93 => ⟨S100000x1, .f32⟩
  | 94 => ⟨S100000x128, .f32⟩
  | 95 => ⟨S100000x128, .f32⟩
  | 96 => ⟨S_, .i32⟩
  | 97 => ⟨S_, .f32⟩
  | 98 => ⟨S102400x128, .f32⟩
  | 99 => ⟨S_, .i32⟩
  | 100 => ⟨S_, .f32⟩
  | 101 => ⟨S102400x128, .f32⟩
  | 102 => ⟨S102400x128, .f32⟩
  | 103 => ⟨S100000x128, .f32⟩
  | 104 => ⟨S_, .i32⟩
  | 105 => ⟨S2000000, .i32⟩
  | 106 => ⟨S2000000, .i1⟩
  | 107 => ⟨S_, .i32⟩
  | 108 => ⟨S2000000, .i32⟩
  | 109 => ⟨S2000000, .i32⟩
  | 110 => ⟨S2000000, .i32⟩
  | 111 => ⟨S2000000x1, .i32⟩
  | 112 => ⟨S2000000x128, .f32⟩
  | 113 => ⟨S_, .f32⟩
  | 114 => ⟨S400000x128, .f32⟩
  | 115 => ⟨S2000000x1, .i32⟩
  | 116 => ⟨S400000x128, .f32⟩
  | 117 => ⟨S_, .f32⟩
  | 118 => ⟨S2000000, .f32⟩
  | 119 => ⟨S_, .f32⟩
  | 120 => ⟨S400000, .f32⟩
  | 121 => ⟨S2000000x1, .i32⟩
  | 122 => ⟨S400000, .f32⟩
  | 123 => ⟨S_, .f32⟩
  | 124 => ⟨S400000, .f32⟩
  | 125 => ⟨S400000, .f32⟩
  | 126 => ⟨S400000x1, .f32⟩
  | 127 => ⟨S400000x128, .f32⟩
  | _ => ⟨S100000, .i32⟩

abbrev hbmTy0_1 (i : Nat) : BufTy := match i % 128 with
  | 0 => ⟨S400000x128, .f32⟩
  | 1 => ⟨S_, .i32⟩
  | 2 => ⟨S_, .f32⟩
  | 3 => ⟨S401408x128, .f32⟩
  | 4 => ⟨S_, .i32⟩
  | 5 => ⟨S_, .f32⟩
  | 6 => ⟨S401408x128, .f32⟩
  | 7 => ⟨S401408x128, .f32⟩
  | 8 => ⟨S400000x128, .f32⟩
  | 9 => ⟨S_, .i32⟩
  | 10 => ⟨S2000000, .i32⟩
  | 11 => ⟨S2000000, .i1⟩
  | 12 => ⟨S_, .i32⟩
  | 13 => ⟨S2000000, .i32⟩
  | 14 => ⟨S2000000, .i32⟩
  | 15 => ⟨S2000000, .i32⟩
  | 16 => ⟨S2000000x1, .i32⟩
  | 17 => ⟨S2000000x128, .f32⟩
  | 18 => ⟨S_, .f32⟩
  | 19 => ⟨S100000x128, .f32⟩
  | 20 => ⟨S2000000x1, .i32⟩
  | 21 => ⟨S100000x128, .f32⟩
  | 22 => ⟨S_, .f32⟩
  | 23 => ⟨S2000000, .f32⟩
  | 24 => ⟨S_, .f32⟩
  | 25 => ⟨S100000, .f32⟩
  | 26 => ⟨S2000000x1, .i32⟩
  | 27 => ⟨S100000, .f32⟩
  | 28 => ⟨S_, .f32⟩
  | 29 => ⟨S100000, .f32⟩
  | 30 => ⟨S100000, .f32⟩
  | 31 => ⟨S100000x1, .f32⟩
  | 32 => ⟨S100000x128, .f32⟩
  | 33 => ⟨S100000x128, .f32⟩
  | 34 => ⟨S_, .i32⟩
  | 35 => ⟨S_, .f32⟩
  | 36 => ⟨S102400x128, .f32⟩
  | 37 => ⟨S_, .i32⟩
  | 38 => ⟨S_, .f32⟩
  | 39 => ⟨S102400x128, .f32⟩
  | 40 => ⟨S102400x128, .f32⟩
  | 41 => ⟨S100000x128, .f32⟩
  | 42 => ⟨S_, .i32⟩
  | 43 => ⟨S500000, .i32⟩
  | 44 => ⟨S500000, .i1⟩
  | 45 => ⟨S_, .i32⟩
  | 46 => ⟨S500000, .i32⟩
  | 47 => ⟨S500000, .i32⟩
  | 48 => ⟨S500000, .i32⟩
  | 49 => ⟨S500000x1, .i32⟩
  | 50 => ⟨S500000x128, .f32⟩
  | 51 => ⟨S_, .i32⟩
  | 52 => ⟨S500000, .i32⟩
  | 53 => ⟨S500000, .i1⟩
  | 54 => ⟨S_, .i32⟩
  | 55 => ⟨S500000, .i32⟩
  | 56 => ⟨S500000, .i32⟩
  | 57 => ⟨S500000, .i32⟩
  | 58 => ⟨S500000x1, .i32⟩
  | 59 => ⟨S500000x128, .f32⟩
  | 60 => ⟨S_, .i32⟩
  | 61 => ⟨S_, .f32⟩
  | 62 => ⟨S507904x128, .f32⟩
  | 63 => ⟨S_, .i32⟩
  | 64 => ⟨S_, .f32⟩
  | 65 => ⟨S507904x128, .f32⟩
  | 66 => ⟨S507904, .f32⟩
  | 67 => ⟨S500000, .f32⟩
  | _ => ⟨S100000, .i32⟩

abbrev hbmTy (i : Nat) : BufTy := match i / 128 with
  | 0 => hbmTy0_0 i
  | 1 => hbmTy0_1 i
  | _ => ⟨S100000, .i32⟩

abbrev bufTy : (tb : Table) → Fin (tcTables nBuf tb) → BufTy
  | .hbm, ⟨i, _⟩ => hbmTy i
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S4096x128, .f32⟩
  | .local _ .vmem, ⟨8, _⟩ => ⟨S4096x128, .f32⟩
  | .local _ .vmem, ⟨9, _⟩ => ⟨S4096x128, .f32⟩
  | .local _ .vmem, ⟨10, _⟩ => ⟨S4096x128, .f32⟩
  | .local _ .vmem, ⟨11, _⟩ => ⟨S4096x128, .f32⟩
  | .local _ .vmem, ⟨12, _⟩ => ⟨S4096x128, .f32⟩
  | .local _ .vmem, ⟨13, _⟩ => ⟨S128x128, .f32⟩
  | .local _ .vmem, ⟨14, _⟩ => ⟨S128, .f32⟩
  | .local _ .vmem, ⟨15, _⟩ => ⟨S128x128, .f32⟩
  | .local _ .vmem, ⟨16, _⟩ => ⟨S4096x128, .f32⟩
  | .local _ .vmem, ⟨17, _⟩ => ⟨S4096x128, .f32⟩
  | .local _ .vmem, ⟨18, _⟩ => ⟨S4096x128, .f32⟩
  | .local _ .vmem, ⟨19, _⟩ => ⟨S4096x128, .f32⟩
  | .local _ .vmem, ⟨20, _⟩ => ⟨S4096x128, .f32⟩
  | .local _ .vmem, ⟨21, _⟩ => ⟨S4096x128, .f32⟩
  | .local _ .vmem, ⟨22, _⟩ => ⟨S128x128, .f32⟩
  | .local _ .vmem, ⟨23, _⟩ => ⟨S128, .f32⟩
  | .local _ .vmem, ⟨24, _⟩ => ⟨S128x128, .f32⟩
  | .local _ .vmem, ⟨25, _⟩ => ⟨S4096x128, .f32⟩
  | .local _ .vmem, ⟨26, _⟩ => ⟨S4096x128, .f32⟩
  | .local _ .vmem, ⟨27, _⟩ => ⟨S4096x128, .f32⟩
  | .local _ .vmem, ⟨28, _⟩ => ⟨S4096x128, .f32⟩
  | .local _ .vmem, ⟨29, _⟩ => ⟨S4096x128, .f32⟩
  | .local _ .vmem, ⟨30, _⟩ => ⟨S4096x128, .f32⟩
  | .local _ .vmem, ⟨31, _⟩ => ⟨S128x128, .f32⟩
  | .local _ .vmem, ⟨32, _⟩ => ⟨S128, .f32⟩
  | .local _ .vmem, ⟨33, _⟩ => ⟨S128x128, .f32⟩
  | .local _ .vmem, ⟨34, _⟩ => ⟨S4096x128, .f32⟩
  | .local _ .vmem, ⟨35, _⟩ => ⟨S4096x128, .f32⟩
  | .local _ .vmem, ⟨36, _⟩ => ⟨S8192x128, .f32⟩
  | .local _ .vmem, ⟨37, _⟩ => ⟨S8192x128, .f32⟩
  | .local _ .vmem, ⟨38, _⟩ => ⟨S8192x128, .f32⟩
  | .local _ .vmem, ⟨39, _⟩ => ⟨S8192x128, .f32⟩
  | .local _ .vmem, ⟨40, _⟩ => ⟨S8192, .f32⟩
  | .local _ .vmem, ⟨41, _⟩ => ⟨S8192, .f32⟩
  | _, _ => ⟨S100000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_c : Ref sig .tc := ⟨.hbm, 20, rfl⟩
abbrev main_v0 : Ref sig .tc := ⟨.hbm, 21, rfl⟩
abbrev main_v1 : Ref sig .tc := ⟨.hbm, 22, rfl⟩
abbrev main_c_0 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_c_1 : Ref sig .tc := ⟨.hbm, 29, rfl⟩
abbrev main_v7 : Ref sig .tc := ⟨.hbm, 30, rfl⟩
abbrev main_v8 : Ref sig .tc := ⟨.hbm, 31, rfl⟩
abbrev main_c_2 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_c_3 : Ref sig .tc := ⟨.hbm, 38, rfl⟩
abbrev main_v14 : Ref sig .tc := ⟨.hbm, 39, rfl⟩
abbrev main_v15 : Ref sig .tc := ⟨.hbm, 40, rfl⟩
abbrev main_c_4 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_cst : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_cst_5 : Ref sig .tc := ⟨.hbm, 51, rfl⟩
abbrev main_v24 : Ref sig .tc := ⟨.hbm, 52, rfl⟩
abbrev main_cst_6 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_cst_7 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_c_8 : Ref sig .tc := ⟨.hbm, 63, rfl⟩
abbrev main_call0_v0 : Ref sig .tc := ⟨.hbm, 64, rfl⟩
abbrev main_v33 : Ref sig .tc := ⟨.hbm, 65, rfl⟩
abbrev main_c_9 : Ref sig .tc := ⟨.hbm, 66, rfl⟩
abbrev main_call1_v0 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_c_10 : Ref sig .tc := ⟨.hbm, 71, rfl⟩
abbrev main_v37 : Ref sig .tc := ⟨.hbm, 72, rfl⟩
abbrev main_v38 : Ref sig .tc := ⟨.hbm, 73, rfl⟩
abbrev main_c_11 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_cst_12 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_cst_13 : Ref sig .tc := ⟨.hbm, 84, rfl⟩
abbrev main_v47 : Ref sig .tc := ⟨.hbm, 85, rfl⟩
abbrev main_cst_14 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_cst_15 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_c_16 : Ref sig .tc := ⟨.hbm, 96, rfl⟩
abbrev main_call2_v0 : Ref sig .tc := ⟨.hbm, 97, rfl⟩
abbrev main_v56 : Ref sig .tc := ⟨.hbm, 98, rfl⟩
abbrev main_c_17 : Ref sig .tc := ⟨.hbm, 99, rfl⟩
abbrev main_call3_v0 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_c_18 : Ref sig .tc := ⟨.hbm, 104, rfl⟩
abbrev main_v60 : Ref sig .tc := ⟨.hbm, 105, rfl⟩
abbrev main_v61 : Ref sig .tc := ⟨.hbm, 106, rfl⟩
abbrev main_c_19 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_cst_20 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_cst_21 : Ref sig .tc := ⟨.hbm, 117, rfl⟩
abbrev main_v70 : Ref sig .tc := ⟨.hbm, 118, rfl⟩
abbrev main_cst_22 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_cst_23 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_c_24 : Ref sig .tc := ⟨.hbm, 129, rfl⟩
abbrev main_call4_v0 : Ref sig .tc := ⟨.hbm, 130, rfl⟩
abbrev main_v79 : Ref sig .tc := ⟨.hbm, 131, rfl⟩
abbrev main_c_25 : Ref sig .tc := ⟨.hbm, 132, rfl⟩
abbrev main_call5_v0 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_c_26 : Ref sig .tc := ⟨.hbm, 137, rfl⟩
abbrev main_v83 : Ref sig .tc := ⟨.hbm, 138, rfl⟩
abbrev main_v84 : Ref sig .tc := ⟨.hbm, 139, rfl⟩
abbrev main_c_27 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_cst_28 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_cst_29 : Ref sig .tc := ⟨.hbm, 150, rfl⟩
abbrev main_v93 : Ref sig .tc := ⟨.hbm, 151, rfl⟩
abbrev main_cst_30 : Ref sig .tc := ⟨.hbm, 152, rfl⟩
abbrev main_v94 : Ref sig .tc := ⟨.hbm, 153, rfl⟩
abbrev main_v95 : Ref sig .tc := ⟨.hbm, 154, rfl⟩
abbrev main_v96 : Ref sig .tc := ⟨.hbm, 155, rfl⟩
abbrev main_cst_31 : Ref sig .tc := ⟨.hbm, 156, rfl⟩
abbrev main_v97 : Ref sig .tc := ⟨.hbm, 157, rfl⟩
abbrev main_v98 : Ref sig .tc := ⟨.hbm, 158, rfl⟩
abbrev main_v99 : Ref sig .tc := ⟨.hbm, 159, rfl⟩
abbrev main_v100 : Ref sig .tc := ⟨.hbm, 160, rfl⟩
abbrev main_v101 : Ref sig .tc := ⟨.hbm, 161, rfl⟩
abbrev main_c_32 : Ref sig .tc := ⟨.hbm, 162, rfl⟩
abbrev main_call6_v0 : Ref sig .tc := ⟨.hbm, 163, rfl⟩
abbrev main_v102 : Ref sig .tc := ⟨.hbm, 164, rfl⟩
abbrev main_c_33 : Ref sig .tc := ⟨.hbm, 165, rfl⟩
abbrev main_call7_v0 : Ref sig .tc := ⟨.hbm, 166, rfl⟩
abbrev main_v103 : Ref sig .tc := ⟨.hbm, 167, rfl⟩
abbrev main_v104 : Ref sig .tc := ⟨.hbm, 168, rfl⟩
abbrev main_v105 : Ref sig .tc := ⟨.hbm, 169, rfl⟩
abbrev main_c_34 : Ref sig .tc := ⟨.hbm, 170, rfl⟩
abbrev main_v106 : Ref sig .tc := ⟨.hbm, 171, rfl⟩
abbrev main_v107 : Ref sig .tc := ⟨.hbm, 172, rfl⟩
abbrev main_c_35 : Ref sig .tc := ⟨.hbm, 173, rfl⟩
abbrev main_v108 : Ref sig .tc := ⟨.hbm, 174, rfl⟩
abbrev main_v109 : Ref sig .tc := ⟨.hbm, 175, rfl⟩
abbrev main_v110 : Ref sig .tc := ⟨.hbm, 176, rfl⟩
abbrev main_v111 : Ref sig .tc := ⟨.hbm, 177, rfl⟩
abbrev main_v112 : Ref sig .tc := ⟨.hbm, 178, rfl⟩
abbrev main_c_36 : Ref sig .tc := ⟨.hbm, 179, rfl⟩
abbrev main_v113 : Ref sig .tc := ⟨.hbm, 180, rfl⟩
abbrev main_v114 : Ref sig .tc := ⟨.hbm, 181, rfl⟩
abbrev main_c_37 : Ref sig .tc := ⟨.hbm, 182, rfl⟩
abbrev main_v115 : Ref sig .tc := ⟨.hbm, 183, rfl⟩
abbrev main_v116 : Ref sig .tc := ⟨.hbm, 184, rfl⟩
abbrev main_v117 : Ref sig .tc := ⟨.hbm, 185, rfl⟩
abbrev main_v118 : Ref sig .tc := ⟨.hbm, 186, rfl⟩
abbrev main_v119 : Ref sig .tc := ⟨.hbm, 187, rfl⟩
abbrev main_c_38 : Ref sig .tc := ⟨.hbm, 188, rfl⟩
abbrev main_call8_v0 : Ref sig .tc := ⟨.hbm, 189, rfl⟩
abbrev main_v120 : Ref sig .tc := ⟨.hbm, 190, rfl⟩
abbrev main_c_39 : Ref sig .tc := ⟨.hbm, 191, rfl⟩
abbrev main_call9_v0 : Ref sig .tc := ⟨.hbm, 192, rfl⟩
abbrev main_v121 : Ref sig .tc := ⟨.hbm, 193, rfl⟩
abbrev main_v122 : Ref sig .tc := ⟨.hbm, 194, rfl⟩
abbrev main_v123 : Ref sig .tc := ⟨.hbm, 195, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg2_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem2_1 : DmaSem sig := 41

abbrev nD : Nat := 1
abbrev τ : Topo := Topo.v7x

variable {F : FTy → Type} [FloatOps F]

abbrev grid0 : Pipeline.Grid := ⟨1, ![98], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4096x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![98], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4096x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4096x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4096x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4096x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4096x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S4096x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![62], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 1 → Nat :=
  let arg0 : BitVec 32 := BitVec.ofNat 32 (i 0).val
  let c0_i32 : BitVec 32 := 0#32
  ![arg0.toNat]

abbrev stage4_0 : Fin 2 → Memref sig .tc .vmem S8192x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S8192x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S8192 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  bcast_S_S400000 : S_.BroadcastsInDim S400000 (![] : Fin 0 → Fin S400000.rank)
  bcast_S400000_S400000x1_0 : S400000.BroadcastsInDim S400000x1 (![0] : Fin 1 → Fin S400000x1.rank)
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S400000x128 : S_.BroadcastsInDim S400000x128 (![] : Fin 0 → Fin S400000x128.rank)
  bcast_S400000x1_S400000x128_0_1 : S400000x1.BroadcastsInDim S400000x128 (![0, 1] : Fin 2 → Fin S400000x128.rank)
  pads_S400000x128_S401408x128_014080_000 : S400000x128.Pads (![0, 0] : Fin 2 → Nat) ![1408, 0] ![0, 0] S401408x128
  h_S_ : 0 < S_.numel
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S128_S128_0 : ∀ a, (![0] : Fin 1 → Nat) a + S128.size a ≤ S128.size a
  h_S128 : 0 < S128.numel
  shapeCasts_S128_S1x128 : S128.ShapeCasts S1x128
  broadcasts_S1x128_S4096x128 : S1x128.Broadcasts S4096x128
  slices_S401408x128_S400000x128_0_0 : S401408x128.Slices ![0, 0] S400000x128
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  pads_S100000x128_S102400x128_024000_000 : S100000x128.Pads (![0, 0] : Fin 2 → Nat) ![2400, 0] ![0, 0] S102400x128
  slices_S102400x128_S100000x128_0_0 : S102400x128.Slices ![0, 0] S100000x128
  bcast_S_S500000 : S_.BroadcastsInDim S500000 (![] : Fin 0 → Fin S500000.rank)
  bcast_S500000_S500000x1_0 : S500000.BroadcastsInDim S500000x1 (![0] : Fin 1 → Fin S500000x1.rank)
  pads_S500000x128_S507904x128_079040_000 : S500000x128.Pads (![0, 0] : Fin 2 → Nat) ![7904, 0] ![0, 0] S507904x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  reduces_S8192x128_S8192 : S8192x128.Reduces [1] S8192
  inb_S8192_S8192_0 : ∀ a, (![0] : Fin 1 → Nat) a + S8192.size a ≤ S8192.size a
  h_S8192 : 0 < S8192.numel
  slices_S507904_S500000_0 : S507904.Slices ![0] S500000
  gather_S100000x128_S100000x1_S100000x128_1_0_n_n_0_1_1128_wf : GatherDims.WF S100000x128 S100000x1 S100000x128 [1] [0] [] [0] [] 1 ![1, 128]
  gather_S400000x128_S400000x1_S400000x128_1_0_n_n_0_1_1128_wf : GatherDims.WF S400000x128 S400000x1 S400000x128 [1] [0] [] [0] [] 1 ![1, 128]
  gather_S100000x128_S2000000x1_S2000000x128_1_0_n_n_0_1_1128_wf : GatherDims.WF S100000x128 S2000000x1 S2000000x128 [1] [0] [] [0] [] 1 ![1, 128]
  scatter_S400000x128_S2000000x1_S2000000x128_1_0_0_1_wf : ScatterDims.WF S400000x128 S2000000x1 S2000000x128 [1] [0] [0] 1
  scatter_S400000_S2000000x1_S2000000_n_0_0_1_wf : ScatterDims.WF S400000 S2000000x1 S2000000 [] [0] [0] 1
  dot_S4096x128_S128x128_S4096x128_1_0_0_1_n_n_wf : DotDims.WF S4096x128 S128x128 S4096x128 [1] [0] [0] [1] [] []
  gather_S400000x128_S2000000x1_S2000000x128_1_0_n_n_0_1_1128_wf : GatherDims.WF S400000x128 S2000000x1 S2000000x128 [1] [0] [] [0] [] 1 ![1, 128]
  scatter_S100000x128_S2000000x1_S2000000x128_1_0_0_1_wf : ScatterDims.WF S100000x128 S2000000x1 S2000000x128 [1] [0] [0] 1
  scatter_S100000_S2000000x1_S2000000_n_0_0_1_wf : ScatterDims.WF S100000 S2000000x1 S2000000 [] [0] [0] 1
  gather_S100000x128_S500000x1_S500000x128_1_0_n_n_0_1_1128_wf : GatherDims.WF S100000x128 S500000x1 S500000x128 [1] [0] [] [0] [] 1 ![1, 128]
  gather_S400000x128_S500000x1_S500000x128_1_0_n_n_0_1_1128_wf : GatherDims.WF S400000x128 S500000x1 S500000x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S401408x128.size a
  hwx0_0 : ∀ i : grid0.Coords, EltTy.bits .f32 = 32 ∨ (Rect.block (s := S401408x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S401408x128.size a
  hwx0_1 : ∀ i : grid0.Coords, EltTy.bits .f32 = 32 ∨ (Rect.block (s := S401408x128) S4096x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x128.size a ≤ S401408x128.size a
  hwx0_5 : ∀ i : grid0.Coords, EltTy.bits .f32 = 32 ∨ (Rect.block (s := S401408x128) S4096x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x128.size a ≤ S102400x128.size a
  hwx1_0 : ∀ i : grid1.Coords, EltTy.bits .f32 = 32 ∨ (Rect.block (s := S102400x128) S4096x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x128.size a ≤ S102400x128.size a
  hwx1_1 : ∀ i : grid1.Coords, EltTy.bits .f32 = 32 ∨ (Rect.block (s := S102400x128) S4096x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4096x128.size a ≤ S102400x128.size a
  hwx1_5 : ∀ i : grid1.Coords, EltTy.bits .f32 = 32 ∨ (Rect.block (s := S102400x128) S4096x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x128.size a ≤ S401408x128.size a
  hwx2_0 : ∀ i : grid2.Coords, EltTy.bits .f32 = 32 ∨ (Rect.block (s := S401408x128) S4096x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4096x128.size a ≤ S401408x128.size a
  hwx2_1 : ∀ i : grid2.Coords, EltTy.bits .f32 = 32 ∨ (Rect.block (s := S401408x128) S4096x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4096x128.size a ≤ S401408x128.size a
  hwx2_5 : ∀ i : grid2.Coords, EltTy.bits .f32 = 32 ∨ (Rect.block (s := S401408x128) S4096x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4096x128.size a ≤ S102400x128.size a
  hwx3_0 : ∀ i : grid3.Coords, EltTy.bits .f32 = 32 ∨ (Rect.block (s := S102400x128) S4096x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4096x128.size a ≤ S102400x128.size a
  hwx3_1 : ∀ i : grid3.Coords, EltTy.bits .f32 = 32 ∨ (Rect.block (s := S102400x128) S4096x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128.size a ≤ S128.size a
  hwx3_3 : ∀ i : grid3.Coords, EltTy.bits .f32 = 32 ∨ (Rect.block (s := S128) S128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S4096x128.size a ≤ S102400x128.size a
  hwx3_5 : ∀ i : grid3.Coords, EltTy.bits .f32 = 32 ∨ (Rect.block (s := S102400x128) S4096x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8192x128.size a ≤ S507904x128.size a
  hwx4_0 : ∀ i : grid4.Coords, EltTy.bits .f32 = 32 ∨ (Rect.block (s := S507904x128) S8192x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S8192x128.size a ≤ S507904x128.size a
  hwx4_1 : ∀ i : grid4.Coords, EltTy.bits .f32 = 32 ∨ (Rect.block (s := S507904x128) S8192x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S8192.size a ≤ S507904.size a
  hwx4_2 : ∀ i : grid4.Coords, EltTy.bits .f32 = 32 ∨ (Rect.block (s := S507904) S8192.size (cc4_transform_2 i) (hinb4_2 i)).WholeWords (EltTy.packing .f32)

variable [Facts₀]

def gather_S100000x128_S100000x1_S100000x128_1_0_n_n_0_1_1128 : GatherDims S100000x128 S100000x1 S100000x128 where
  offsetDims := [1]
  collapsedSliceDims := [0]
  operandBatchingDims := []
  startIndicesBatchingDims := []
  startIndexMap := [0]
  indexVectorDim := 1
  sliceSizes := ![1, 128]
  wf := gather_S100000x128_S100000x1_S100000x128_1_0_n_n_0_1_1128_wf
def gather_S400000x128_S400000x1_S400000x128_1_0_n_n_0_1_1128 : GatherDims S400000x128 S400000x1 S400000x128 where
  offsetDims := [1]
  collapsedSliceDims := [0]
  operandBatchingDims := []
  startIndicesBatchingDims := []
  startIndexMap := [0]
  indexVectorDim := 1
  sliceSizes := ![1, 128]
  wf := gather_S400000x128_S400000x1_S400000x128_1_0_n_n_0_1_1128_wf
def gather_S100000x128_S2000000x1_S2000000x128_1_0_n_n_0_1_1128 : GatherDims S100000x128 S2000000x1 S2000000x128 where
  offsetDims := [1]
  collapsedSliceDims := [0]
  operandBatchingDims := []
  startIndicesBatchingDims := []
  startIndexMap := [0]
  indexVectorDim := 1
  sliceSizes := ![1, 128]
  wf := gather_S100000x128_S2000000x1_S2000000x128_1_0_n_n_0_1_1128_wf
def scatter_S400000x128_S2000000x1_S2000000x128_1_0_0_1 : ScatterDims S400000x128 S2000000x1 S2000000x128 where
  updateWindowDims := [1]
  insertedWindowDims := [0]
  scatterDimsToOperandDims := [0]
  indexVectorDim := 1
  wf := scatter_S400000x128_S2000000x1_S2000000x128_1_0_0_1_wf
def scatter_S400000_S2000000x1_S2000000_n_0_0_1 : ScatterDims S400000 S2000000x1 S2000000 where
  updateWindowDims := []
  insertedWindowDims := [0]
  scatterDimsToOperandDims := [0]
  indexVectorDim := 1
  wf := scatter_S400000_S2000000x1_S2000000_n_0_0_1_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def gather_S400000x128_S2000000x1_S2000000x128_1_0_n_n_0_1_1128 : GatherDims S400000x128 S2000000x1 S2000000x128 where
  offsetDims := [1]
  collapsedSliceDims := [0]
  operandBatchingDims := []
  startIndicesBatchingDims := []
  startIndexMap := [0]
  indexVectorDim := 1
  sliceSizes := ![1, 128]
  wf := gather_S400000x128_S2000000x1_S2000000x128_1_0_n_n_0_1_1128_wf
def scatter_S100000x128_S2000000x1_S2000000x128_1_0_0_1 : ScatterDims S100000x128 S2000000x1 S2000000x128 where
  updateWindowDims := [1]
  insertedWindowDims := [0]
  scatterDimsToOperandDims := [0]
  indexVectorDim := 1
  wf := scatter_S100000x128_S2000000x1_S2000000x128_1_0_0_1_wf
def scatter_S100000_S2000000x1_S2000000_n_0_0_1 : ScatterDims S100000 S2000000x1 S2000000 where
  updateWindowDims := []
  insertedWindowDims := [0]
  scatterDimsToOperandDims := [0]
  indexVectorDim := 1
  wf := scatter_S100000_S2000000x1_S2000000_n_0_0_1_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def gather_S400000x128_S500000x1_S500000x128_1_0_n_n_0_1_1128 : GatherDims S400000x128 S500000x1 S500000x128 where
  offsetDims := [1]
  collapsedSliceDims := [0]
  operandBatchingDims := []
  startIndicesBatchingDims := []
  startIndexMap := [0]
  indexVectorDim := 1
  sliceSizes := ![1, 128]
  wf := gather_S400000x128_S500000x1_S500000x128_1_0_n_n_0_1_1128_wf

abbrev win0_0 : Pipeline.Window sig grid0 :=
  Pipeline.Window.ofSpec (Memref.whole main_v33) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v34) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg8) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg9) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg10) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v35) S4096x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v56) S4096x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v57) S4096x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg11) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg12) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg13) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v58) S4096x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v79) S4096x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v80) S4096x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg14) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg15) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg16) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v81) S4096x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v102) S4096x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v103) S4096x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg17) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg18) S128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg19) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v104) S4096x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v120) S8192x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v121) S8192x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v122) S8192.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S100000 : Shape := ⟨1, ![100000]⟩
abbrev S400000 : Shape := ⟨1, ![400000]⟩
abbrev S100000x128 : Shape := ⟨2, ![100000, 128]⟩
abbrev S400000x128 : Shape := ⟨2, ![400000, 128]⟩
abbrev S2000000 : Shape := ⟨1, ![2000000]⟩
abbrev S500000 : Shape := ⟨1, ![500000]⟩
abbrev S128x128 : Shape := ⟨2, ![128, 128]⟩
abbrev S128 : Shape := ⟨1, ![128]⟩
abbrev S_ : Shape := ⟨0, ![]⟩
abbrev S100000x1 : Shape := ⟨2, ![100000, 1]⟩
abbrev S400000x1 : Shape := ⟨2, ![400000, 1]⟩
abbrev S2000000x1 : Shape := ⟨2, ![2000000, 1]⟩
abbrev S2000000x128 : Shape := ⟨2, ![2000000, 128]⟩
abbrev S1x128 : Shape := ⟨2, ![1, 128]⟩
abbrev S500000x1 : Shape := ⟨2, ![500000, 1]⟩
abbrev S500000x128 : Shape := ⟨2, ![500000, 128]⟩

abbrev nBuf : Space → Nat
  | .hbm => 197
  | .vmem => 0
  | .smem => 0
  | _ => 0

abbrev hbmTy0_0 (i : Nat) : BufTy := match i % 128 with
  | 0 => ⟨S100000, .i32⟩
  | 1 => ⟨S400000, .i32⟩
  | 2 => ⟨S100000x128, .f32⟩
  | 3 => ⟨S400000x128, .f32⟩
  | 4 => ⟨S2000000, .i32⟩
  | 5 => ⟨S2000000, .i32⟩
  | 6 => ⟨S500000, .i32⟩
  | 7 => ⟨S500000, .i32⟩
  | 8 => ⟨S128x128, .f32⟩
  | 9 => ⟨S128, .f32⟩
  | 10 => ⟨S128x128, .f32⟩
  | 11 => ⟨S128x128, .f32⟩
  | 12 => ⟨S128, .f32⟩
  | 13 => ⟨S128x128, .f32⟩
  | 14 => ⟨S128x128, .f32⟩
  | 15 => ⟨S128, .f32⟩
  | 16 => ⟨S128x128, .f32⟩
  | 17 => ⟨S128x128, .f32⟩
  | 18 => ⟨S128, .f32⟩
  | 19 => ⟨S128x128, .f32⟩
  | 20 => ⟨S_, .i32⟩
  | 21 => ⟨S100000, .i32⟩
  | 22 => ⟨S100000, .i1⟩
  | 23 => ⟨S_, .i32⟩
  | 24 => ⟨S100000, .i32⟩
  | 25 => ⟨S100000, .i32⟩
  | 26 => ⟨S100000, .i32⟩
  | 27 => ⟨S100000x1, .i32⟩
  | 28 => ⟨S100000x128, .f32⟩
  | 29 => ⟨S_, .i32⟩
  | 30 => ⟨S400000, .i32⟩
  | 31 => ⟨S400000, .i1⟩
  | 32 => ⟨S_, .i32⟩
  | 33 => ⟨S400000, .i32⟩
  | 34 => ⟨S400000, .i32⟩
  | 35 => ⟨S400000, .i32⟩
  | 36 => ⟨S400000x1, .i32⟩
  | 37 => ⟨S400000x128, .f32⟩
  | 38 => ⟨S_, .i32⟩
  | 39 => ⟨S2000000, .i32⟩
  | 40 => ⟨S2000000, .i1⟩
  | 41 => ⟨S_, .i32⟩
  | 42 => ⟨S2000000, .i32⟩
  | 43 => ⟨S2000000, .i32⟩
  | 44 => ⟨S2000000, .i32⟩
  | 45 => ⟨S2000000x1, .i32⟩
  | 46 => ⟨S2000000x128, .f32⟩
  | 47 => ⟨S_, .f32⟩
  | 48 => ⟨S400000x128, .f32⟩
  | 49 => ⟨S2000000x1, .i32⟩
  | 50 => ⟨S400000x128, .f32⟩
  | 51 => ⟨S_, .f32⟩
  | 52 => ⟨S2000000, .f32⟩
  | 53 => ⟨S_, .f32⟩
  | 54 => ⟨S400000, .f32⟩
  | 55 => ⟨S2000000x1, .i32⟩
  | 56 => ⟨S400000, .f32⟩
  | 57 => ⟨S_, .f32⟩
  | 58 => ⟨S400000, .f32⟩
  | 59 => ⟨S400000, .f32⟩
  | 60 => ⟨S400000x1, .f32⟩
  | 61 => ⟨S400000x128, .f32⟩
  | 62 => ⟨S400000x128, .f32⟩
  | 63 => ⟨S128x128, .f32⟩
  | 64 => ⟨S400000x128, .f32⟩
  | 65 => ⟨S1x128, .f32⟩
  | 66 => ⟨S400000x128, .f32⟩
  | 67 => ⟨S400000x128, .f32⟩
  | 68 => ⟨S128x128, .f32⟩
  | 69 => ⟨S400000x128, .f32⟩
  | 70 => ⟨S400000x128, .f32⟩
  | 71 => ⟨S_, .f32⟩
  | 72 => ⟨S400000x128, .f32⟩
  | 73 => ⟨S400000x128, .f32⟩
  | 74 => ⟨S_, .i32⟩
  | 75 => ⟨S2000000, .i32⟩
  | 76 => ⟨S2000000, .i1⟩
  | 77 => ⟨S_, .i32⟩
  | 78 => ⟨S2000000, .i32⟩
  | 79 => ⟨S2000000, .i32⟩
  | 80 => ⟨S2000000, .i32⟩
  | 81 => ⟨S2000000x1, .i32⟩
  | 82 => ⟨S2000000x128, .f32⟩
  | 83 => ⟨S_, .f32⟩
  | 84 => ⟨S100000x128, .f32⟩
  | 85 => ⟨S2000000x1, .i32⟩
  | 86 => ⟨S100000x128, .f32⟩
  | 87 => ⟨S_, .f32⟩
  | 88 => ⟨S2000000, .f32⟩
  | 89 => ⟨S_, .f32⟩
  | 90 => ⟨S100000, .f32⟩
  | 91 => ⟨S2000000x1, .i32⟩
  | 92 => ⟨S100000, .f32⟩
  | 93 => ⟨S_, .f32⟩
  | 94 => ⟨S100000, .f32⟩
  | 95 => ⟨S100000, .f32⟩
  | 96 => ⟨S100000x1, .f32⟩
  | 97 => ⟨S100000x128, .f32⟩
  | 98 => ⟨S100000x128, .f32⟩
  | 99 => ⟨S128x128, .f32⟩
  | 100 => ⟨S100000x128, .f32⟩
  | 101 => ⟨S1x128, .f32⟩
  | 102 => ⟨S100000x128, .f32⟩
  | 103 => ⟨S100000x128, .f32⟩
  | 104 => ⟨S128x128, .f32⟩
  | 105 => ⟨S100000x128, .f32⟩
  | 106 => ⟨S100000x128, .f32⟩
  | 107 => ⟨S_, .f32⟩
  | 108 => ⟨S100000x128, .f32⟩
  | 109 => ⟨S100000x128, .f32⟩
  | 110 => ⟨S_, .i32⟩
  | 111 => ⟨S2000000, .i32⟩
  | 112 => ⟨S2000000, .i1⟩
  | 113 => ⟨S_, .i32⟩
  | 114 => ⟨S2000000, .i32⟩
  | 115 => ⟨S2000000, .i32⟩
  | 116 => ⟨S2000000, .i32⟩
  | 117 => ⟨S2000000x1, .i32⟩
  | 118 => ⟨S2000000x128, .f32⟩
  | 119 => ⟨S_, .f32⟩
  | 120 => ⟨S400000x128, .f32⟩
  | 121 => ⟨S2000000x1, .i32⟩
  | 122 => ⟨S400000x128, .f32⟩
  | 123 => ⟨S_, .f32⟩
  | 124 => ⟨S2000000, .f32⟩
  | 125 => ⟨S_, .f32⟩
  | 126 => ⟨S400000, .f32⟩
  | 127 => ⟨S2000000x1, .i32⟩
  | _ => ⟨S100000, .i32⟩

abbrev hbmTy0_1 (i : Nat) : BufTy := match i % 128 with
  | 0 => ⟨S400000, .f32⟩
  | 1 => ⟨S_, .f32⟩
  | 2 => ⟨S400000, .f32⟩
  | 3 => ⟨S400000, .f32⟩
  | 4 => ⟨S400000x1, .f32⟩
  | 5 => ⟨S400000x128, .f32⟩
  | 6 => ⟨S400000x128, .f32⟩
  | 7 => ⟨S128x128, .f32⟩
  | 8 => ⟨S400000x128, .f32⟩
  | 9 => ⟨S1x128, .f32⟩
  | 10 => ⟨S400000x128, .f32⟩
  | 11 => ⟨S400000x128, .f32⟩
  | 12 => ⟨S128x128, .f32⟩
  | 13 => ⟨S400000x128, .f32⟩
  | 14 => ⟨S400000x128, .f32⟩
  | 15 => ⟨S_, .i32⟩
  | 16 => ⟨S2000000, .i32⟩
  | 17 => ⟨S2000000, .i1⟩
  | 18 => ⟨S_, .i32⟩
  | 19 => ⟨S2000000, .i32⟩
  | 20 => ⟨S2000000, .i32⟩
  | 21 => ⟨S2000000, .i32⟩
  | 22 => ⟨S2000000x1, .i32⟩
  | 23 => ⟨S2000000x128, .f32⟩
  | 24 => ⟨S_, .f32⟩
  | 25 => ⟨S100000x128, .f32⟩
  | 26 => ⟨S2000000x1, .i32⟩
  | 27 => ⟨S100000x128, .f32⟩
  | 28 => ⟨S_, .f32⟩
  | 29 => ⟨S2000000, .f32⟩
  | 30 => ⟨S_, .f32⟩
  | 31 => ⟨S100000, .f32⟩
  | 32 => ⟨S2000000x1, .i32⟩
  | 33 => ⟨S100000, .f32⟩
  | 34 => ⟨S_, .f32⟩
  | 35 => ⟨S100000, .f32⟩
  | 36 => ⟨S100000, .f32⟩
  | 37 => ⟨S100000x1, .f32⟩
  | 38 => ⟨S100000x128, .f32⟩
  | 39 => ⟨S100000x128, .f32⟩
  | 40 => ⟨S128x128, .f32⟩
  | 41 => ⟨S100000x128, .f32⟩
  | 42 => ⟨S1x128, .f32⟩
  | 43 => ⟨S100000x128, .f32⟩
  | 44 => ⟨S100000x128, .f32⟩
  | 45 => ⟨S128x128, .f32⟩
  | 46 => ⟨S100000x128, .f32⟩
  | 47 => ⟨S100000x128, .f32⟩
  | 48 => ⟨S_, .i32⟩
  | 49 => ⟨S500000, .i32⟩
  | 50 => ⟨S500000, .i1⟩
  | 51 => ⟨S_, .i32⟩
  | 52 => ⟨S500000, .i32⟩
  | 53 => ⟨S500000, .i32⟩
  | 54 => ⟨S500000, .i32⟩
  | 55 => ⟨S500000x1, .i32⟩
  | 56 => ⟨S500000x128, .f32⟩
  | 57 => ⟨S_, .i32⟩
  | 58 => ⟨S500000, .i32⟩
  | 59 => ⟨S500000, .i1⟩
  | 60 => ⟨S_, .i32⟩
  | 61 => ⟨S500000, .i32⟩
  | 62 => ⟨S500000, .i32⟩
  | 63 => ⟨S500000, .i32⟩
  | 64 => ⟨S500000x1, .i32⟩
  | 65 => ⟨S500000x128, .f32⟩
  | 66 => ⟨S500000x128, .f32⟩
  | 67 => ⟨S_, .f32⟩
  | 68 => ⟨S500000, .f32⟩
  | _ => ⟨S100000, .i32⟩

abbrev hbmTy (i : Nat) : BufTy := match i / 128 with
  | 0 => hbmTy0_0 i
  | 1 => hbmTy0_1 i
  | _ => ⟨S100000, .i32⟩

abbrev bufTy : (tb : Table) → Fin (tcTables nBuf tb) → BufTy
  | .hbm, ⟨i, _⟩ => hbmTy i
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_c : Ref sig .tc := ⟨.hbm, 20, rfl⟩
abbrev main_v0 : Ref sig .tc := ⟨.hbm, 21, rfl⟩
abbrev main_v1 : Ref sig .tc := ⟨.hbm, 22, rfl⟩
abbrev main_c_0 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_c_1 : Ref sig .tc := ⟨.hbm, 29, rfl⟩
abbrev main_v7 : Ref sig .tc := ⟨.hbm, 30, rfl⟩
abbrev main_v8 : Ref sig .tc := ⟨.hbm, 31, rfl⟩
abbrev main_c_2 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_c_3 : Ref sig .tc := ⟨.hbm, 38, rfl⟩
abbrev main_v14 : Ref sig .tc := ⟨.hbm, 39, rfl⟩
abbrev main_v15 : Ref sig .tc := ⟨.hbm, 40, rfl⟩
abbrev main_c_4 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_cst : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_cst_5 : Ref sig .tc := ⟨.hbm, 51, rfl⟩
abbrev main_v24 : Ref sig .tc := ⟨.hbm, 52, rfl⟩
abbrev main_cst_6 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_cst_7 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_call0_cst : Ref sig .tc := ⟨.hbm, 71, rfl⟩
abbrev main_call0_v0 : Ref sig .tc := ⟨.hbm, 72, rfl⟩
abbrev main_v41 : Ref sig .tc := ⟨.hbm, 73, rfl⟩
abbrev main_c_8 : Ref sig .tc := ⟨.hbm, 74, rfl⟩
abbrev main_v42 : Ref sig .tc := ⟨.hbm, 75, rfl⟩
abbrev main_v43 : Ref sig .tc := ⟨.hbm, 76, rfl⟩
abbrev main_c_9 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_cst_10 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_cst_11 : Ref sig .tc := ⟨.hbm, 87, rfl⟩
abbrev main_v52 : Ref sig .tc := ⟨.hbm, 88, rfl⟩
abbrev main_cst_12 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_cst_13 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_call1_cst : Ref sig .tc := ⟨.hbm, 107, rfl⟩
abbrev main_call1_v0 : Ref sig .tc := ⟨.hbm, 108, rfl⟩
abbrev main_v69 : Ref sig .tc := ⟨.hbm, 109, rfl⟩
abbrev main_c_14 : Ref sig .tc := ⟨.hbm, 110, rfl⟩
abbrev main_v70 : Ref sig .tc := ⟨.hbm, 111, rfl⟩
abbrev main_v71 : Ref sig .tc := ⟨.hbm, 112, rfl⟩
abbrev main_c_15 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_cst_16 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_cst_17 : Ref sig .tc := ⟨.hbm, 123, rfl⟩
abbrev main_v80 : Ref sig .tc := ⟨.hbm, 124, rfl⟩
abbrev main_cst_18 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_cst_19 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_c_20 : Ref sig .tc := ⟨.hbm, 143, rfl⟩
abbrev main_v97 : Ref sig .tc := ⟨.hbm, 144, rfl⟩
abbrev main_v98 : Ref sig .tc := ⟨.hbm, 145, rfl⟩
abbrev main_c_21 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_cst_22 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_cst_23 : Ref sig .tc := ⟨.hbm, 156, rfl⟩
abbrev main_v107 : Ref sig .tc := ⟨.hbm, 157, rfl⟩
abbrev main_cst_24 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_cst_25 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_c_26 : Ref sig .tc := ⟨.hbm, 176, rfl⟩
abbrev main_v124 : Ref sig .tc := ⟨.hbm, 177, rfl⟩
abbrev main_v125 : Ref sig .tc := ⟨.hbm, 178, rfl⟩
abbrev main_c_27 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_c_28 : Ref sig .tc := ⟨.hbm, 185, rfl⟩
abbrev main_v131 : Ref sig .tc := ⟨.hbm, 186, rfl⟩
abbrev main_v132 : Ref sig .tc := ⟨.hbm, 187, rfl⟩
abbrev main_c_29 : Ref sig .tc := ⟨.hbm, 188, rfl⟩
abbrev main_v133 : Ref sig .tc := ⟨.hbm, 189, rfl⟩
abbrev main_v134 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_cst_30 : Ref sig .tc := ⟨.hbm, 195, rfl⟩
abbrev main_v139 : Ref sig .tc := ⟨.hbm, 196, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  bcast_S_S400000 : S_.BroadcastsInDim S400000 (![] : Fin 0 → Fin S400000.rank)
  bcast_S400000_S400000x1_0 : S400000.BroadcastsInDim S400000x1 (![0] : Fin 1 → Fin S400000x1.rank)
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S400000x128 : S_.BroadcastsInDim S400000x128 (![] : Fin 0 → Fin S400000x128.rank)
  bcast_S400000x1_S400000x128_0_1 : S400000x1.BroadcastsInDim S400000x128 (![0, 1] : Fin 2 → Fin S400000x128.rank)
  transposes_S128x128_S128x128_1_0 : S128x128.Transposes [1, 0] S128x128
  bcast_S128_S1x128_1 : S128.BroadcastsInDim S1x128 (![1] : Fin 1 → Fin S1x128.rank)
  bcast_S1x128_S400000x128_0_1 : S1x128.BroadcastsInDim S400000x128 (![0, 1] : Fin 2 → Fin S400000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S1x128_S100000x128_0_1 : S1x128.BroadcastsInDim S100000x128 (![0, 1] : Fin 2 → Fin S100000x128.rank)
  bcast_S_S500000 : S_.BroadcastsInDim S500000 (![] : Fin 0 → Fin S500000.rank)
  bcast_S500000_S500000x1_0 : S500000.BroadcastsInDim S500000x1 (![0] : Fin 1 → Fin S500000x1.rank)
  reducesTo_S500000x128_S500000_d1 : S500000x128.ReducesTo [1] S500000
  h_S_ : 0 < S_.numel
  gather_S100000x128_S100000x1_S100000x128_1_0_n_n_0_1_1128_wf : GatherDims.WF S100000x128 S100000x1 S100000x128 [1] [0] [] [0] [] 1 ![1, 128]
  gather_S400000x128_S400000x1_S400000x128_1_0_n_n_0_1_1128_wf : GatherDims.WF S400000x128 S400000x1 S400000x128 [1] [0] [] [0] [] 1 ![1, 128]
  gather_S100000x128_S2000000x1_S2000000x128_1_0_n_n_0_1_1128_wf : GatherDims.WF S100000x128 S2000000x1 S2000000x128 [1] [0] [] [0] [] 1 ![1, 128]
  scatter_S400000x128_S2000000x1_S2000000x128_1_0_0_1_wf : ScatterDims.WF S400000x128 S2000000x1 S2000000x128 [1] [0] [0] 1
  scatter_S400000_S2000000x1_S2000000_n_0_0_1_wf : ScatterDims.WF S400000 S2000000x1 S2000000 [] [0] [0] 1
  dot_S400000x128_S128x128_S400000x128_1_0_0_1_n_n_wf : DotDims.WF S400000x128 S128x128 S400000x128 [1] [0] [0] [1] [] []
  gather_S400000x128_S2000000x1_S2000000x128_1_0_n_n_0_1_1128_wf : GatherDims.WF S400000x128 S2000000x1 S2000000x128 [1] [0] [] [0] [] 1 ![1, 128]
  scatter_S100000x128_S2000000x1_S2000000x128_1_0_0_1_wf : ScatterDims.WF S100000x128 S2000000x1 S2000000x128 [1] [0] [0] 1
  scatter_S100000_S2000000x1_S2000000_n_0_0_1_wf : ScatterDims.WF S100000 S2000000x1 S2000000 [] [0] [0] 1
  dot_S100000x128_S128x128_S100000x128_1_0_0_1_n_n_wf : DotDims.WF S100000x128 S128x128 S100000x128 [1] [0] [0] [1] [] []
  gather_S100000x128_S500000x1_S500000x128_1_0_n_n_0_1_1128_wf : GatherDims.WF S100000x128 S500000x1 S500000x128 [1] [0] [] [0] [] 1 ![1, 128]
  gather_S400000x128_S500000x1_S500000x128_1_0_n_n_0_1_1128_wf : GatherDims.WF S400000x128 S500000x1 S500000x128 [1] [0] [] [0] [] 1 ![1, 128]

variable [Facts₀]

def gather_S100000x128_S100000x1_S100000x128_1_0_n_n_0_1_1128 : GatherDims S100000x128 S100000x1 S100000x128 where
  offsetDims := [1]
  collapsedSliceDims := [0]
  operandBatchingDims := []
  startIndicesBatchingDims := []
  startIndexMap := [0]
  indexVectorDim := 1
  sliceSizes := ![1, 128]
  wf := gather_S100000x128_S100000x1_S100000x128_1_0_n_n_0_1_1128_wf
def gather_S400000x128_S400000x1_S400000x128_1_0_n_n_0_1_1128 : GatherDims S400000x128 S400000x1 S400000x128 where
  offsetDims := [1]
  collapsedSliceDims := [0]
  operandBatchingDims := []
  startIndicesBatchingDims := []
  startIndexMap := [0]
  indexVectorDim := 1
  sliceSizes := ![1, 128]
  wf := gather_S400000x128_S400000x1_S400000x128_1_0_n_n_0_1_1128_wf
def gather_S100000x128_S2000000x1_S2000000x128_1_0_n_n_0_1_1128 : GatherDims S100000x128 S2000000x1 S2000000x128 where
  offsetDims := [1]
  collapsedSliceDims := [0]
  operandBatchingDims := []
  startIndicesBatchingDims := []
  startIndexMap := [0]
  indexVectorDim := 1
  sliceSizes := ![1, 128]
  wf := gather_S100000x128_S2000000x1_S2000000x128_1_0_n_n_0_1_1128_wf
def scatter_S400000x128_S2000000x1_S2000000x128_1_0_0_1 : ScatterDims S400000x128 S2000000x1 S2000000x128 where
  updateWindowDims := [1]
  insertedWindowDims := [0]
  scatterDimsToOperandDims := [0]
  indexVectorDim := 1
  wf := scatter_S400000x128_S2000000x1_S2000000x128_1_0_0_1_wf
def scatter_S400000_S2000000x1_S2000000_n_0_0_1 : ScatterDims S400000 S2000000x1 S2000000 where
  updateWindowDims := []
  insertedWindowDims := [0]
  scatterDimsToOperandDims := [0]
  indexVectorDim := 1
  wf := scatter_S400000_S2000000x1_S2000000_n_0_0_1_wf
def dot_S400000x128_S128x128_S400000x128_1_0_0_1_n_n : DotDims S400000x128 S128x128 S400000x128 where
  lhsContracting := [1]
  rhsContracting := [0]
  lhsNonContracting := [0]
  rhsNonContracting := [1]
  lhsBatch := []
  rhsBatch := []
  wf := dot_S400000x128_S128x128_S400000x128_1_0_0_1_n_n_wf
def gather_S400000x128_S2000000x1_S2000000x128_1_0_n_n_0_1_1128 : GatherDims S400000x128 S2000000x1 S2000000x128 where
  offsetDims := [1]
  collapsedSliceDims := [0]
  operandBatchingDims := []
  startIndicesBatchingDims := []
  startIndexMap := [0]
  indexVectorDim := 1
  sliceSizes := ![1, 128]
  wf := gather_S400000x128_S2000000x1_S2000000x128_1_0_n_n_0_1_1128_wf
def scatter_S100000x128_S2000000x1_S2000000x128_1_0_0_1 : ScatterDims S100000x128 S2000000x1 S2000000x128 where
  updateWindowDims := [1]
  insertedWindowDims := [0]
  scatterDimsToOperandDims := [0]
  indexVectorDim := 1
  wf := scatter_S100000x128_S2000000x1_S2000000x128_1_0_0_1_wf
def scatter_S100000_S2000000x1_S2000000_n_0_0_1 : ScatterDims S100000 S2000000x1 S2000000 where
  updateWindowDims := []
  insertedWindowDims := [0]
  scatterDimsToOperandDims := [0]
  indexVectorDim := 1
  wf := scatter_S100000_S2000000x1_S2000000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def gather_S400000x128_S500000x1_S500000x128_1_0_n_n_0_1_1128 : GatherDims S400000x128 S500000x1 S500000x128 where
  offsetDims := [1]
  collapsedSliceDims := [0]
  operandBatchingDims := []
  startIndicesBatchingDims := []
  startIndexMap := [0]
  indexVectorDim := 1
  sliceSizes := ![1, 128]
  wf := gather_S400000x128_S500000x1_S500000x128_1_0_n_n_0_1_1128_wf

class Facts : Prop extends Facts₀ where

variable [Facts]
-- ==== Proof.KernelRun.lean ====
/-
  The idealized kernel program's run, with every buffer named.

  The program is five kernel regions among stretches of host operations.  Its buffers' contents at the end are the
  last of a chain of valuations: each host stretch folds its operations over the valuation before it, each region
  replaces its windows' arrays by what its write-backs leave.  Every weakly fair execution terminates, nothing
  faulting, and in the final memory every buffer that no region scopes holds what that last valuation says — the
  result buffer and the argument arrays among them.  (The frame statement keeps only the arguments of this; here the
  whole valuation is kept, so that the result can be read off it.)
-/
import proofs.«155691_j72499047956494_1_alg».proof.Proof.Gen.KernelIdeal.Frame

set_option maxRecDepth 16384

noncomputable section

namespace Cert.Sage.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with every unscoped buffer of every
    core at the last valuation of the chain. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W26 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W26 m ρ c b)
    (hfin := fun c s' => by
      iintro ⟨⟨Hh, -⟩, HSI⟩
      unfold StableHlo.held
      imodintro
      iapply (pointsTo_read_all (Pipeline.ucRefs τ sig) (fun b => (((c : Thread nD τ)).1, b)) (W26 m ρ c) s')
      isplitl [Hh] <;> iassumption)
    (hQ := fun s h => h)

end Cert.Sage.KernelRun

end
-- ==== Proof.LibHostBoth.lean ====
/-
  Reading one buffer after a straight line of host operations.

  The contents of the buffers after a line of operations are a fold over the line: each operation replaces its
  result buffer by its function's value of its operand buffers and leaves every other buffer alone. So what ONE buffer
  holds after a literal line is a computation: walk the line backwards from that buffer, at each operation either
  taking its function's value (the buffer is its result) or passing through it (it is not), and do the same for the
  operands met on the way. `host_read` does this for a goal that mentions `StableHlo.after ops V (Proc.devRef .tc b)`
  for literal lists `ops` and literal references `b`, on both sides of an equation at once: one rewriting pass that
  visits every shared operand once, then a loop over what the pass cannot reach — the operands of a concatenation sit
  inside a list of pairs (shape, contents), under which the pass does not rewrite —, then the removal of the identity
  casts with which an outlined function's operations carry values to and from their buffers' own types. What is left
  is an equation between terms of the pure operations over `V` at the line's own inputs. Stated for two programs at
  once — `after opsR WR (Proc.devRef .tc bR) = after opsK WK (Proc.devRef .tc bK)` over two signatures, with hypotheses
  that `WR` and `WK` agree at the lines' inputs — the goal after `host_read` closes by rewriting with those
  hypotheses and `rfl`, when the two lines are the same operations. (On a line made only of an outlined function's
  operations the last of the three steps, removing the casts, can cost far more than the rest: there the first step
  alone, `after_results_simp`, leaves both sides with the same casts in the same places, which is enough.)
  `cut_list` evaluates the prefixes and suffixes (`List.take`, `List.drop`) of a literal list.
-/
import Idealize.ShloMosaic.Lib.StableHlo.Run

namespace Cert.LibHostBoth

open Idealize.ShloMosaic Idealize.ShloMosaic.StableHlo

/-- The loop: one operation's result at one reference per step, anywhere in the goal. -/
macro "results_loop" : tactic =>
  `(tactic| (repeat (first
      | rw [nullary_result] | rw [unary_result] | rw [binary_result] | rw [ternary_result] | rw [quaternary_result]
      | rw [reshape_result]
      | (rw [nullary_result_ne]; rotate_left; decide)
      | (rw [unary_result_ne]; rotate_left; decide)
      | (rw [binary_result_ne]; rotate_left; decide)
      | (rw [ternary_result_ne]; rotate_left; decide)
      | (rw [quaternary_result_ne]; rotate_left; decide)
      | (rw [reshape_result_ne]; rotate_left; decide))))

/-- The pass, the loop, the casts. -/
macro "host_read" : tactic =>
  `(tactic| ((try after_results_simp); results_loop;
             (try simp only [StableHlo.TRef.toBuf, StableHlo.TRef.ofBuf, cast_eq])))

/-- Prefixes and suffixes of a literal list. -/
macro "cut_list" : tactic =>
  `(tactic| simp only [List.take_succ_cons, List.take_zero, List.drop_succ_cons, List.drop_zero, List.take_nil, List.drop_nil])

end Cert.LibHostBoth
-- ==== Proof.Stretch0.lean ====
/-
  The first stretch of host operations of the kernel program, read buffer by buffer.

  Before the first kernel region the program looks the node features up in the two embedding tables (a gather of whole
  rows at indices wrapped when negative), gathers the source features along the edges, sums them per destination node
  (a scatter-add into zeros), counts the edges per destination, and divides the sums by the counts (at least one): the
  mean of the neighbours' features.  The reference program performs the same operations on the same arguments.  Each
  lemma reads one buffer after the stretch, entered with ANY contents that hold the arguments, as the reference's value
  of the same quantity as a function of the arguments: both are the same composition of the same pure operations.
  The stretch ends by appending 1408 zero rows below the mean and below the track features (the pad), so that the
  rows fill a whole number of blocks of 4096.
-/
import proofs.«155691_j72499047956494_1_alg».proof.Proof.Gen.KernelIdeal.Frame
import proofs.«155691_j72499047956494_1_alg».proof.Proof.Gen.ReferenceIdeal.Read
import proofs.«155691_j72499047956494_1_alg».proof.Proof.LibHostBoth

set_option maxRecDepth 16384

noncomputable section

namespace Cert.Sage.Stretch

open Idealize.ShloMosaic Idealize.ShloMosaic.StableHlo Cert.LibHostBoth
open Cert.KernelIdeal Cert.KernelIdeal.Gen

/-- The playlist features: the embedding table's rows at the node ids. -/
theorem s0_v6 (WK : Valuation τ sig (Elt Ideal)) (a0 : (⟨S100000, .i32⟩ : BufTy).Contents (Elt Ideal)) (a2 : (⟨S100000x128, .f32⟩ : BufTy).Contents (Elt Ideal))
    (h0 : WK (Proc.devRef .tc main_arg0) = a0)
    (h1 : WK (Proc.devRef .tc main_arg2) = a2) :
    after (hostOps0_3 (F := Ideal)) (after (hostOps0_2 (F := Ideal)) (after (hostOps0_1 (F := Ideal)) (after (hostOps0 (F := Ideal)) (WK)))) (Proc.devRef .tc main_v6) = Cert.ReferenceIdeal.Read.val_main_v6 (F := Ideal) a0 a2 := by
  simp only [hostOps0, hostOps0_1, hostOps0_2, hostOps0_3]
  host_read
  rw [h0, h1]
  simp only [Cert.ReferenceIdeal.Read.val_main_v6, Cert.ReferenceIdeal.Read.val_main_v5, Cert.ReferenceIdeal.Read.val_main_v4, Cert.ReferenceIdeal.Read.val_main_v1, Cert.ReferenceIdeal.Read.val_main_v0, Cert.ReferenceIdeal.Read.val_main_c, Cert.ReferenceIdeal.Read.val_main_v3, Cert.ReferenceIdeal.Read.val_main_v2, Cert.ReferenceIdeal.Read.val_main_c_0]
  first | done | rfl

/-- The track features. -/
theorem s0_v13 (WK : Valuation τ sig (Elt Ideal)) (a1 : (⟨S400000, .i32⟩ : BufTy).Contents (Elt Ideal)) (a3 : (⟨S400000x128, .f32⟩ : BufTy).Contents (Elt Ideal))
    (h0 : WK (Proc.devRef .tc main_arg1) = a1)
    (h1 : WK (Proc.devRef .tc main_arg3) = a3) :
    after (hostOps0_3 (F := Ideal)) (after (hostOps0_2 (F := Ideal)) (after (hostOps0_1 (F := Ideal)) (after (hostOps0 (F := Ideal)) (WK)))) (Proc.devRef .tc main_v13) = Cert.ReferenceIdeal.Read.val_main_v13 (F := Ideal) a1 a3 := by
  simp only [hostOps0, hostOps0_1, hostOps0_2, hostOps0_3]
  host_read
  rw [h0, h1]
  simp only [Cert.ReferenceIdeal.Read.val_main_v13, Cert.ReferenceIdeal.Read.val_main_v12, Cert.ReferenceIdeal.Read.val_main_v11, Cert.ReferenceIdeal.Read.val_main_v8, Cert.ReferenceIdeal.Read.val_main_v7, Cert.ReferenceIdeal.Read.val_main_c_1, Cert.ReferenceIdeal.Read.val_main_v10, Cert.ReferenceIdeal.Read.val_main_v9, Cert.ReferenceIdeal.Read.val_main_c_2]
  first | done | rfl

/-- The mean of the playlist features over each track's incoming edges. -/
theorem s0_v32 (WK : Valuation τ sig (Elt Ideal)) (a0 : (⟨S100000, .i32⟩ : BufTy).Contents (Elt Ideal)) (a2 : (⟨S100000x128, .f32⟩ : BufTy).Contents (Elt Ideal)) (a4 : (⟨S2000000, .i32⟩ : BufTy).Contents (Elt Ideal)) (a5 : (⟨S2000000, .i32⟩ : BufTy).Contents (Elt Ideal))
    (h0 : WK (Proc.devRef .tc main_arg0) = a0)
    (h1 : WK (Proc.devRef .tc main_arg2) = a2)
    (h2 : WK (Proc.devRef .tc main_arg4) = a4)
    (h3 : WK (Proc.devRef .tc main_arg5) = a5) :
    after (hostOps0_3 (F := Ideal)) (after (hostOps0_2 (F := Ideal)) (after (hostOps0_1 (F := Ideal)) (after (hostOps0 (F := Ideal)) (WK)))) (Proc.devRef .tc main_v32) = Cert.ReferenceIdeal.Read.val_main_v32 (F := Ideal) a0 a2 a4 a5 := by
  simp only [hostOps0, hostOps0_1, hostOps0_2, hostOps0_3]
  host_read
  rw [h0, h1, h2, h3]
  simp only [Cert.ReferenceIdeal.Read.val_main_v32, Cert.ReferenceIdeal.Read.val_main_v23, Cert.ReferenceIdeal.Read.val_main_v21, Cert.ReferenceIdeal.Read.val_main_cst, Cert.ReferenceIdeal.Read.val_main_v22, Cert.ReferenceIdeal.Read.val_main_v20, Cert.ReferenceIdeal.Read.val_main_v6, Cert.ReferenceIdeal.Read.val_main_v5, Cert.ReferenceIdeal.Read.val_main_v4, Cert.ReferenceIdeal.Read.val_main_v1, Cert.ReferenceIdeal.Read.val_main_v0, Cert.ReferenceIdeal.Read.val_main_c, Cert.ReferenceIdeal.Read.val_main_v3, Cert.ReferenceIdeal.Read.val_main_v2, Cert.ReferenceIdeal.Read.val_main_c_0, Cert.ReferenceIdeal.Read.val_main_v19, Cert.ReferenceIdeal.Read.val_main_v18, Cert.ReferenceIdeal.Read.val_main_v15, Cert.ReferenceIdeal.Read.val_main_v14, Cert.ReferenceIdeal.Read.val_main_c_3, Cert.ReferenceIdeal.Read.val_main_v17, Cert.ReferenceIdeal.Read.val_main_v16, Cert.ReferenceIdeal.Read.val_main_c_4, Cert.ReferenceIdeal.Read.val_main_v31, Cert.ReferenceIdeal.Read.val_main_v30, Cert.ReferenceIdeal.Read.val_main_v29, Cert.ReferenceIdeal.Read.val_main_v27, Cert.ReferenceIdeal.Read.val_main_v25, Cert.ReferenceIdeal.Read.val_main_cst_6, Cert.ReferenceIdeal.Read.val_main_v26, Cert.ReferenceIdeal.Read.val_main_v24, Cert.ReferenceIdeal.Read.val_main_cst_5, Cert.ReferenceIdeal.Read.val_main_v28, Cert.ReferenceIdeal.Read.val_main_cst_7]
  first | done | rfl

/-- Argument 4 is not written by the stretch. -/
theorem s0_arg4 (WK : Valuation τ sig (Elt Ideal))
     :
    after (hostOps0_3 (F := Ideal)) (after (hostOps0_2 (F := Ideal)) (after (hostOps0_1 (F := Ideal)) (after (hostOps0 (F := Ideal)) (WK)))) (Proc.devRef .tc main_arg4) = WK (Proc.devRef .tc main_arg4) := by
  simp only [hostOps0, hostOps0_1, hostOps0_2, hostOps0_3]
  host_read
  first | done | rfl

/-- Argument 5 is not written by the stretch. -/
theorem s0_arg5 (WK : Valuation τ sig (Elt Ideal))
     :
    after (hostOps0_3 (F := Ideal)) (after (hostOps0_2 (F := Ideal)) (after (hostOps0_1 (F := Ideal)) (after (hostOps0 (F := Ideal)) (WK)))) (Proc.devRef .tc main_arg5) = WK (Proc.devRef .tc main_arg5) := by
  simp only [hostOps0, hostOps0_1, hostOps0_2, hostOps0_3]
  host_read
  first | done | rfl

/-- Argument 6 is not written by the stretch. -/
theorem s0_arg6 (WK : Valuation τ sig (Elt Ideal))
     :
    after (hostOps0_3 (F := Ideal)) (after (hostOps0_2 (F := Ideal)) (after (hostOps0_1 (F := Ideal)) (after (hostOps0 (F := Ideal)) (WK)))) (Proc.devRef .tc main_arg6) = WK (Proc.devRef .tc main_arg6) := by
  simp only [hostOps0, hostOps0_1, hostOps0_2, hostOps0_3]
  host_read
  first | done | rfl

/-- Argument 7 is not written by the stretch. -/
theorem s0_arg7 (WK : Valuation τ sig (Elt Ideal))
     :
    after (hostOps0_3 (F := Ideal)) (after (hostOps0_2 (F := Ideal)) (after (hostOps0_1 (F := Ideal)) (after (hostOps0 (F := Ideal)) (WK)))) (Proc.devRef .tc main_arg7) = WK (Proc.devRef .tc main_arg7) := by
  simp only [hostOps0, hostOps0_1, hostOps0_2, hostOps0_3]
  host_read
  first | done | rfl

/-- Argument 8 is not written by the stretch. -/
theorem s0_arg8 (WK : Valuation τ sig (Elt Ideal))
     :
    after (hostOps0_3 (F := Ideal)) (after (hostOps0_2 (F := Ideal)) (after (hostOps0_1 (F := Ideal)) (after (hostOps0 (F := Ideal)) (WK)))) (Proc.devRef .tc main_arg8) = WK (Proc.devRef .tc main_arg8) := by
  simp only [hostOps0, hostOps0_1, hostOps0_2, hostOps0_3]
  host_read
  first | done | rfl

/-- Argument 9 is not written by the stretch. -/
theorem s0_arg9 (WK : Valuation τ sig (Elt Ideal))
     :
    after (hostOps0_3 (F := Ideal)) (after (hostOps0_2 (F := Ideal)) (after (hostOps0_1 (F := Ideal)) (after (hostOps0 (F := Ideal)) (WK)))) (Proc.devRef .tc main_arg9) = WK (Proc.devRef .tc main_arg9) := by
  simp only [hostOps0, hostOps0_1, hostOps0_2, hostOps0_3]
  host_read
  first | done | rfl

/-- Argument 10 is not written by the stretch. -/
theorem s0_arg10 (WK : Valuation τ sig (Elt Ideal))
     :
    after (hostOps0_3 (F := Ideal)) (after (hostOps0_2 (F := Ideal)) (after (hostOps0_1 (F := Ideal)) (after (hostOps0 (F := Ideal)) (WK)))) (Proc.devRef .tc main_arg10) = WK (Proc.devRef .tc main_arg10) := by
  simp only [hostOps0, hostOps0_1, hostOps0_2, hostOps0_3]
  host_read
  first | done | rfl

/-- Argument 11 is not written by the stretch. -/
theorem s0_arg11 (WK : Valuation τ sig (Elt Ideal))
     :
    after (hostOps0_3 (F := Ideal)) (after (hostOps0_2 (F := Ideal)) (after (hostOps0_1 (F := Ideal)) (after (hostOps0 (F := Ideal)) (WK)))) (Proc.devRef .tc main_arg11) = WK (Proc.devRef .tc main_arg11) := by
  simp only [hostOps0, hostOps0_1, hostOps0_2, hostOps0_3]
  host_read
  first | done | rfl

/-- Argument 12 is not written by the stretch. -/
theorem s0_arg12 (WK : Valuation τ sig (Elt Ideal))
     :
    after (hostOps0_3 (F := Ideal)) (after (hostOps0_2 (F := Ideal)) (after (hostOps0_1 (F := Ideal)) (after (hostOps0 (F := Ideal)) (WK)))) (Proc.devRef .tc main_arg12) = WK (Proc.devRef .tc main_arg12) := by
  simp only [hostOps0, hostOps0_1, hostOps0_2, hostOps0_3]
  host_read
  first | done | rfl

/-- Argument 13 is not written by the stretch. -/
theorem s0_arg13 (WK : Valuation τ sig (Elt Ideal))
     :
    after (hostOps0_3 (F := Ideal)) (after (hostOps0_2 (F := Ideal)) (after (hostOps0_1 (F := Ideal)) (after (hostOps0 (F := Ideal)) (WK)))) (Proc.devRef .tc main_arg13) = WK (Proc.devRef .tc main_arg13) := by
  simp only [hostOps0, hostOps0_1, hostOps0_2, hostOps0_3]
  host_read
  first | done | rfl

/-- Argument 14 is not written by the stretch. -/
theorem s0_arg14 (WK : Valuation τ sig (Elt Ideal))
     :
    after (hostOps0_3 (F := Ideal)) (after (hostOps0_2 (F := Ideal)) (after (hostOps0_1 (F := Ideal)) (after (hostOps0 (F := Ideal)) (WK)))) (Proc.devRef .tc main_arg14) = WK (Proc.devRef .tc main_arg14) := by
  simp only [hostOps0, hostOps0_1, hostOps0_2, hostOps0_3]
  host_read
  first | done | rfl

/-- Argument 15 is not written by the stretch. -/
theorem s0_arg15 (WK : Valuation τ sig (Elt Ideal))
     :
    after (hostOps0_3 (F := Ideal)) (after (hostOps0_2 (F := Ideal)) (after (hostOps0_1 (F := Ideal)) (after (hostOps0 (F := Ideal)) (WK)))) (Proc.devRef .tc main_arg15) = WK (Proc.devRef .tc main_arg15) := by
  simp only [hostOps0, hostOps0_1, hostOps0_2, hostOps0_3]
  host_read
  first | done | rfl

/-- Argument 16 is not written by the stretch. -/
theorem s0_arg16 (WK : Valuation τ sig (Elt Ideal))
     :
    after (hostOps0_3 (F := Ideal)) (after (hostOps0_2 (F := Ideal)) (after (hostOps0_1 (F := Ideal)) (after (hostOps0 (F := Ideal)) (WK)))) (Proc.devRef .tc main_arg16) = WK (Proc.devRef .tc main_arg16) := by
  simp only [hostOps0, hostOps0_1, hostOps0_2, hostOps0_3]
  host_read
  first | done | rfl

/-- Argument 17 is not written by the stretch. -/
theorem s0_arg17 (WK : Valuation τ sig (Elt Ideal))
     :
    after (hostOps0_3 (F := Ideal)) (after (hostOps0_2 (F := Ideal)) (after (hostOps0_1 (F := Ideal)) (after (hostOps0 (F := Ideal)) (WK)))) (Proc.devRef .tc main_arg17) = WK (Proc.devRef .tc main_arg17) := by
  simp only [hostOps0, hostOps0_1, hostOps0_2, hostOps0_3]
  host_read
  first | done | rfl

/-- Argument 18 is not written by the stretch. -/
theorem s0_arg18 (WK : Valuation τ sig (Elt Ideal))
     :
    after (hostOps0_3 (F := Ideal)) (after (hostOps0_2 (F := Ideal)) (after (hostOps0_1 (F := Ideal)) (after (hostOps0 (F := Ideal)) (WK)))) (Proc.devRef .tc main_arg18) = WK (Proc.devRef .tc main_arg18) := by
  simp only [hostOps0, hostOps0_1, hostOps0_2, hostOps0_3]
  host_read
  first | done | rfl

/-- Argument 19 is not written by the stretch. -/
theorem s0_arg19 (WK : Valuation τ sig (Elt Ideal))
     :
    after (hostOps0_3 (F := Ideal)) (after (hostOps0_2 (F := Ideal)) (after (hostOps0_1 (F := Ideal)) (after (hostOps0 (F := Ideal)) (WK)))) (Proc.devRef .tc main_arg19) = WK (Proc.devRef .tc main_arg19) := by
  simp only [hostOps0, hostOps0_1, hostOps0_2, hostOps0_3]
  host_read
  first | done | rfl

end Cert.Sage.Stretch

end
-- ==== Proof.Stretch1.lean ====
/-
  The second stretch of host operations of the kernel program (between the first and the second kernel region).

  It keeps the first 400000 rows of the first region's result (the track features after layer one), then forms the mean
  of the track features over each playlist's edges (gather along the edges, scatter-add per playlist, count, divide),
  and appends 2400 zero rows below that mean and below the playlist features.  Each lemma reads one buffer after the
  stretch, entered with any contents, in terms of the contents at entry and of the reference's value of the same
  quantity as a function of the arguments.
-/
import proofs.«155691_j72499047956494_1_alg».proof.Proof.Gen.KernelIdeal.Frame
import proofs.«155691_j72499047956494_1_alg».proof.Proof.Gen.ReferenceIdeal.Read
import proofs.«155691_j72499047956494_1_alg».proof.Proof.LibHostBoth

set_option maxRecDepth 16384

noncomputable section

namespace Cert.Sage.Stretch

open Idealize.ShloMosaic Idealize.ShloMosaic.StableHlo Cert.LibHostBoth
open Cert.KernelIdeal Cert.KernelIdeal.Gen

/-- The first 400000 rows of the first region's result. -/
theorem s1_v36 (WK : Valuation τ sig (Elt Ideal))
     :
    after (hostOps1_3 (F := Ideal)) (after (hostOps1_2 (F := Ideal)) (after (hostOps1_1 (F := Ideal)) (after (hostOps1 (F := Ideal)) (WK)))) (Proc.devRef .tc main_v36) = extractStridedSlice S400000x128 ![0, 0] (WK (Proc.devRef .tc main_v35) : (⟨S401408x128, .f32⟩ : BufTy).Contents (Elt Ideal)) slices_S401408x128_S400000x128_0_0 := by
  simp only [hostOps1, hostOps1_1, hostOps1_2, hostOps1_3]
  host_read
  first | done | rfl

/-- The mean of the track features over each playlist's edges. -/
theorem s1_v55 (WK : Valuation τ sig (Elt Ideal)) (a1 : (⟨S400000, .i32⟩ : BufTy).Contents (Elt Ideal)) (a3 : (⟨S400000x128, .f32⟩ : BufTy).Contents (Elt Ideal)) (a4 : (⟨S2000000, .i32⟩ : BufTy).Contents (Elt Ideal)) (a5 : (⟨S2000000, .i32⟩ : BufTy).Contents (Elt Ideal))
    (h0 : WK (Proc.devRef .tc main_v13) = Cert.ReferenceIdeal.Read.val_main_v13 (F := Ideal) a1 a3)
    (h1 : WK (Proc.devRef .tc main_arg4) = a4)
    (h2 : WK (Proc.devRef .tc main_arg5) = a5) :
    after (hostOps1_3 (F := Ideal)) (after (hostOps1_2 (F := Ideal)) (after (hostOps1_1 (F := Ideal)) (after (hostOps1 (F := Ideal)) (WK)))) (Proc.devRef .tc main_v55) = Cert.ReferenceIdeal.Read.val_main_v60 (F := Ideal) a1 a3 a4 a5 := by
  simp only [hostOps1, hostOps1_1, hostOps1_2, hostOps1_3]
  host_read
  rw [h0, h1, h2]
  simp only [Cert.ReferenceIdeal.Read.val_main_v60, Cert.ReferenceIdeal.Read.val_main_v51, Cert.ReferenceIdeal.Read.val_main_v49, Cert.ReferenceIdeal.Read.val_main_cst_10, Cert.ReferenceIdeal.Read.val_main_v50, Cert.ReferenceIdeal.Read.val_main_v48, Cert.ReferenceIdeal.Read.val_main_v47, Cert.ReferenceIdeal.Read.val_main_v46, Cert.ReferenceIdeal.Read.val_main_v43, Cert.ReferenceIdeal.Read.val_main_v42, Cert.ReferenceIdeal.Read.val_main_c_8, Cert.ReferenceIdeal.Read.val_main_v45, Cert.ReferenceIdeal.Read.val_main_v44, Cert.ReferenceIdeal.Read.val_main_c_9, Cert.ReferenceIdeal.Read.val_main_v59, Cert.ReferenceIdeal.Read.val_main_v58, Cert.ReferenceIdeal.Read.val_main_v57, Cert.ReferenceIdeal.Read.val_main_v55, Cert.ReferenceIdeal.Read.val_main_v53, Cert.ReferenceIdeal.Read.val_main_cst_12, Cert.ReferenceIdeal.Read.val_main_v54, Cert.ReferenceIdeal.Read.val_main_v52, Cert.ReferenceIdeal.Read.val_main_cst_11, Cert.ReferenceIdeal.Read.val_main_v56, Cert.ReferenceIdeal.Read.val_main_cst_13]
  first | done | rfl

/-- Argument 4 is not written by the stretch. -/
theorem s1_arg4 (WK : Valuation τ sig (Elt Ideal))
     :
    after (hostOps1_3 (F := Ideal)) (after (hostOps1_2 (F := Ideal)) (after (hostOps1_1 (F := Ideal)) (after (hostOps1 (F := Ideal)) (WK)))) (Proc.devRef .tc main_arg4) = WK (Proc.devRef .tc main_arg4) := by
  simp only [hostOps1, hostOps1_1, hostOps1_2, hostOps1_3]
  host_read
  first | done | rfl

/-- Argument 5 is not written by the stretch. -/
theorem s1_arg5 (WK : Valuation τ sig (Elt Ideal))
     :
    after (hostOps1_3 (F := Ideal)) (after (hostOps1_2 (F := Ideal)) (after (hostOps1_1 (F := Ideal)) (after (hostOps1 (F := Ideal)) (WK)))) (Proc.devRef .tc main_arg5) = WK (Proc.devRef .tc main_arg5) := by
  simp only [hostOps1, hostOps1_1, hostOps1_2, hostOps1_3]
  host_read
  first | done | rfl

/-- Argument 6 is not written by the stretch. -/
theorem s1_arg6 (WK : Valuation τ sig (Elt Ideal))
     :
    after (hostOps1_3 (F := Ideal)) (after (hostOps1_2 (F := Ideal)) (after (hostOps1_1 (F := Ideal)) (after (hostOps1 (F := Ideal)) (WK)))) (Proc.devRef .tc main_arg6) = WK (Proc.devRef .tc main_arg6) := by
  simp only [hostOps1, hostOps1_1, hostOps1_2, hostOps1_3]
  host_read
  first | done | rfl

/-- Argument 7 is not written by the stretch. -/
theorem s1_arg7 (WK : Valuation τ sig (Elt Ideal))
     :
    after (hostOps1_3 (F := Ideal)) (after (hostOps1_2 (F := Ideal)) (after (hostOps1_1 (F := Ideal)) (after (hostOps1 (F := Ideal)) (WK)))) (Proc.devRef .tc main_arg7) = WK (Proc.devRef .tc main_arg7) := by
  simp only [hostOps1, hostOps1_1, hostOps1_2, hostOps1_3]
  host_read
  first | done | rfl

/-- Argument 11 is not written by the stretch. -/
theorem s1_arg11 (WK : Valuation τ sig (Elt Ideal))
     :
    after (hostOps1_3 (F := Ideal)) (after (hostOps1_2 (F := Ideal)) (after (hostOps1_1 (F := Ideal)) (after (hostOps1 (F := Ideal)) (WK)))) (Proc.devRef .tc main_arg11) = WK (Proc.devRef .tc main_arg11) := by
  simp only [hostOps1, hostOps1_1, hostOps1_2, hostOps1_3]
  host_read
  first | done | rfl

/-- Argument 12 is not written by the stretch. -/
theorem s1_arg12 (WK : Valuation τ sig (Elt Ideal))
     :
    after (hostOps1_3 (F := Ideal)) (after (hostOps1_2 (F := Ideal)) (after (hostOps1_1 (F := Ideal)) (after (hostOps1 (F := Ideal)) (WK)))) (Proc.devRef .tc main_arg12) = WK (Proc.devRef .tc main_arg12) := by
  simp only [hostOps1, hostOps1_1, hostOps1_2, hostOps1_3]
  host_read
  first | done | rfl

/-- Argument 13 is not written by the stretch. -/
theorem s1_arg13 (WK : Valuation τ sig (Elt Ideal))
     :
    after (hostOps1_3 (F := Ideal)) (after (hostOps1_2 (F := Ideal)) (after (hostOps1_1 (F := Ideal)) (after (hostOps1 (F := Ideal)) (WK)))) (Proc.devRef .tc main_arg13) = WK (Proc.devRef .tc main_arg13) := by
  simp only [hostOps1, hostOps1_1, hostOps1_2, hostOps1_3]
  host_read
  first | done | rfl

/-- Argument 14 is not written by the stretch. -/
theorem s1_arg14 (WK : Valuation τ sig (Elt Ideal))
     :
    after (hostOps1_3 (F := Ideal)) (after (hostOps1_2 (F := Ideal)) (after (hostOps1_1 (F := Ideal)) (after (hostOps1 (F := Ideal)) (WK)))) (Proc.devRef .tc main_arg14) = WK (Proc.devRef .tc main_arg14) := by
  simp only [hostOps1, hostOps1_1, hostOps1_2, hostOps1_3]
  host_read
  first | done | rfl

/-- Argument 15 is not written by the stretch. -/
theorem s1_arg15 (WK : Valuation τ sig (Elt Ideal))
     :
    after (hostOps1_3 (F := Ideal)) (after (hostOps1_2 (F := Ideal)) (after (hostOps1_1 (F := Ideal)) (after (hostOps1 (F := Ideal)) (WK)))) (Proc.devRef .tc main_arg15) = WK (Proc.devRef .tc main_arg15) := by
  simp only [hostOps1, hostOps1_1, hostOps1_2, hostOps1_3]
  host_read
  first | done | rfl

/-- Argument 16 is not written by the stretch. -/
theorem s1_arg16 (WK : Valuation τ sig (Elt Ideal))
     :
    after (hostOps1_3 (F := Ideal)) (after (hostOps1_2 (F := Ideal)) (after (hostOps1_1 (F := Ideal)) (after (hostOps1 (F := Ideal)) (WK)))) (Proc.devRef .tc main_arg16) = WK (Proc.devRef .tc main_arg16) := by
  simp only [hostOps1, hostOps1_1, hostOps1_2, hostOps1_3]
  host_read
  first | done | rfl

/-- Argument 17 is not written by the stretch. -/
theorem s1_arg17 (WK : Valuation τ sig (Elt Ideal))
     :
    after (hostOps1_3 (F := Ideal)) (after (hostOps1_2 (F := Ideal)) (after (hostOps1_1 (F := Ideal)) (after (hostOps1 (F := Ideal)) (WK)))) (Proc.devRef .tc main_arg17) = WK (Proc.devRef .tc main_arg17) := by
  simp only [hostOps1, hostOps1_1, hostOps1_2, hostOps1_3]
  host_read
  first | done | rfl

/-- Argument 18 is not written by the stretch. -/
theorem s1_arg18 (WK : Valuation τ sig (Elt Ideal))
     :
    after (hostOps1_3 (F := Ideal)) (after (hostOps1_2 (F := Ideal)) (after (hostOps1_1 (F := Ideal)) (after (hostOps1 (F := Ideal)) (WK)))) (Proc.devRef .tc main_arg18) = WK (Proc.devRef .tc main_arg18) := by
  simp only [hostOps1, hostOps1_1, hostOps1_2, hostOps1_3]
  host_read
  first | done | rfl

/-- Argument 19 is not written by the stretch. -/
theorem s1_arg19 (WK : Valuation τ sig (Elt Ideal))
     :
    after (hostOps1_3 (F := Ideal)) (after (hostOps1_2 (F := Ideal)) (after (hostOps1_1 (F := Ideal)) (after (hostOps1 (F := Ideal)) (WK)))) (Proc.devRef .tc main_arg19) = WK (Proc.devRef .tc main_arg19) := by
  simp only [hostOps1, hostOps1_1, hostOps1_2, hostOps1_3]
  host_read
  first | done | rfl

/-- The buffer is not written by the stretch. -/
theorem s1_v6 (WK : Valuation τ sig (Elt Ideal))
     :
    after (hostOps1_3 (F := Ideal)) (after (hostOps1_2 (F := Ideal)) (after (hostOps1_1 (F := Ideal)) (after (hostOps1 (F := Ideal)) (WK)))) (Proc.devRef .tc main_v6) = WK (Proc.devRef .tc main_v6) := by
  simp only [hostOps1, hostOps1_1, hostOps1_2, hostOps1_3]
  host_read
  first | done | rfl

end Cert.Sage.Stretch

end
-- ==== Proof.Stretch2.lean ====
/-
  The third stretch of host operations of the kernel program (between the second and the third kernel region).

  It keeps the first 100000 rows of the second region's result (the playlist features after layer one), forms the
  mean of those over each track's edges, and appends 1408 zero rows below that mean and below the track features
  after layer one.
-/
import proofs.«155691_j72499047956494_1_alg».proof.Proof.Gen.KernelIdeal.Frame
import proofs.«155691_j72499047956494_1_alg».proof.Proof.Gen.ReferenceIdeal.Read
import proofs.«155691_j72499047956494_1_alg».proof.Proof.LibHostBoth

set_option maxRecDepth 16384

noncomputable section

namespace Cert.Sage.Stretch

open Idealize.ShloMosaic Idealize.ShloMosaic.StableHlo Cert.LibHostBoth
open Cert.KernelIdeal Cert.KernelIdeal.Gen

/-- The first 100000 rows of the second region's result. -/
theorem s2_v59 (WK : Valuation τ sig (Elt Ideal))
     :
    after (hostOps2_3 (F := Ideal)) (after (hostOps2_2 (F := Ideal)) (after (hostOps2_1 (F := Ideal)) (after (hostOps2 (F := Ideal)) (WK)))) (Proc.devRef .tc main_v59) = extractStridedSlice S100000x128 ![0, 0] (WK (Proc.devRef .tc main_v58) : (⟨S102400x128, .f32⟩ : BufTy).Contents (Elt Ideal)) slices_S102400x128_S100000x128_0_0 := by
  simp only [hostOps2, hostOps2_1, hostOps2_2, hostOps2_3]
  host_read
  first | done | rfl

/-- The mean of the layer-one playlist features over each track's edges. -/
theorem s2_v78 (WK : Valuation τ sig (Elt Ideal)) (a0 : (⟨S100000, .i32⟩ : BufTy).Contents (Elt Ideal)) (a1 : (⟨S400000, .i32⟩ : BufTy).Contents (Elt Ideal)) (a2 : (⟨S100000x128, .f32⟩ : BufTy).Contents (Elt Ideal)) (a3 : (⟨S400000x128, .f32⟩ : BufTy).Contents (Elt Ideal)) (a4 : (⟨S2000000, .i32⟩ : BufTy).Contents (Elt Ideal)) (a5 : (⟨S2000000, .i32⟩ : BufTy).Contents (Elt Ideal)) (a11 : (⟨S128x128, .f32⟩ : BufTy).Contents (Elt Ideal)) (a12 : (⟨S128, .f32⟩ : BufTy).Contents (Elt Ideal)) (a13 : (⟨S128x128, .f32⟩ : BufTy).Contents (Elt Ideal))
    (h0 : extractStridedSlice S100000x128 ![0, 0] (WK (Proc.devRef .tc main_v58) : (⟨S102400x128, .f32⟩ : BufTy).Contents (Elt Ideal)) slices_S102400x128_S100000x128_0_0 = Cert.ReferenceIdeal.Read.val_main_v69 (F := Ideal) a0 a1 a2 a3 a4 a5 a11 a12 a13)
    (h1 : WK (Proc.devRef .tc main_arg4) = a4)
    (h2 : WK (Proc.devRef .tc main_arg5) = a5) :
    after (hostOps2_3 (F := Ideal)) (after (hostOps2_2 (F := Ideal)) (after (hostOps2_1 (F := Ideal)) (after (hostOps2 (F := Ideal)) (WK)))) (Proc.devRef .tc main_v78) = Cert.ReferenceIdeal.Read.val_main_v88 (F := Ideal) a0 a1 a2 a3 a4 a5 a11 a12 a13 := by
  simp only [hostOps2, hostOps2_1, hostOps2_2, hostOps2_3]
  host_read
  rw [h0, h1, h2]
  simp only [Cert.ReferenceIdeal.Read.val_main_v88, Cert.ReferenceIdeal.Read.val_main_v79, Cert.ReferenceIdeal.Read.val_main_v77, Cert.ReferenceIdeal.Read.val_main_cst_16, Cert.ReferenceIdeal.Read.val_main_v78, Cert.ReferenceIdeal.Read.val_main_v76, Cert.ReferenceIdeal.Read.val_main_v75, Cert.ReferenceIdeal.Read.val_main_v74, Cert.ReferenceIdeal.Read.val_main_v71, Cert.ReferenceIdeal.Read.val_main_v70, Cert.ReferenceIdeal.Read.val_main_c_14, Cert.ReferenceIdeal.Read.val_main_v73, Cert.ReferenceIdeal.Read.val_main_v72, Cert.ReferenceIdeal.Read.val_main_c_15, Cert.ReferenceIdeal.Read.val_main_v87, Cert.ReferenceIdeal.Read.val_main_v86, Cert.ReferenceIdeal.Read.val_main_v85, Cert.ReferenceIdeal.Read.val_main_v83, Cert.ReferenceIdeal.Read.val_main_v81, Cert.ReferenceIdeal.Read.val_main_cst_18, Cert.ReferenceIdeal.Read.val_main_v82, Cert.ReferenceIdeal.Read.val_main_v80, Cert.ReferenceIdeal.Read.val_main_cst_17, Cert.ReferenceIdeal.Read.val_main_v84, Cert.ReferenceIdeal.Read.val_main_cst_19]
  first | done | rfl

/-- The layer-one track features are not written by the stretch. -/
theorem s2_v36 (WK : Valuation τ sig (Elt Ideal))
     :
    after (hostOps2_3 (F := Ideal)) (after (hostOps2_2 (F := Ideal)) (after (hostOps2_1 (F := Ideal)) (after (hostOps2 (F := Ideal)) (WK)))) (Proc.devRef .tc main_v36) = WK (Proc.devRef .tc main_v36) := by
  simp only [hostOps2, hostOps2_1, hostOps2_2, hostOps2_3]
  host_read
  first | done | rfl

/-- Argument 4 is not written by the stretch. -/
theorem s2_arg4 (WK : Valuation τ sig (Elt Ideal))
     :
    after (hostOps2_3 (F := Ideal)) (after (hostOps2_2 (F := Ideal)) (after (hostOps2_1 (F := Ideal)) (after (hostOps2 (F := Ideal)) (WK)))) (Proc.devRef .tc main_arg4) = WK (Proc.devRef .tc main_arg4) := by
  simp only [hostOps2, hostOps2_1, hostOps2_2, hostOps2_3]
  host_read
  first | done | rfl

/-- Argument 5 is not written by the stretch. -/
theorem s2_arg5 (WK : Valuation τ sig (Elt Ideal))
     :
    after (hostOps2_3 (F := Ideal)) (after (hostOps2_2 (F := Ideal)) (after (hostOps2_1 (F := Ideal)) (after (hostOps2 (F := Ideal)) (WK)))) (Proc.devRef .tc main_arg5) = WK (Proc.devRef .tc main_arg5) := by
  simp only [hostOps2, hostOps2_1, hostOps2_2, hostOps2_3]
  host_read
  first | done | rfl

/-- Argument 6 is not written by the stretch. -/
theorem s2_arg6 (WK : Valuation τ sig (Elt Ideal))
     :
    after (hostOps2_3 (F := Ideal)) (after (hostOps2_2 (F := Ideal)) (after (hostOps2_1 (F := Ideal)) (after (hostOps2 (F := Ideal)) (WK)))) (Proc.devRef .tc main_arg6) = WK (Proc.devRef .tc main_arg6) := by
  simp only [hostOps2, hostOps2_1, hostOps2_2, hostOps2_3]
  host_read
  first | done | rfl

/-- Argument 7 is not written by the stretch. -/
theorem s2_arg7 (WK : Valuation τ sig (Elt Ideal))
     :
    after (hostOps2_3 (F := Ideal)) (after (hostOps2_2 (F := Ideal)) (after (hostOps2_1 (F := Ideal)) (after (hostOps2 (F := Ideal)) (WK)))) (Proc.devRef .tc main_arg7) = WK (Proc.devRef .tc main_arg7) := by
  simp only [hostOps2, hostOps2_1, hostOps2_2, hostOps2_3]
  host_read
  first | done | rfl

/-- Argument 14 is not written by the stretch. -/
theorem s2_arg14 (WK : Valuation τ sig (Elt Ideal))
     :
    after (hostOps2_3 (F := Ideal)) (after (hostOps2_2 (F := Ideal)) (after (hostOps2_1 (F := Ideal)) (after (hostOps2 (F := Ideal)) (WK)))) (Proc.devRef .tc main_arg14) = WK (Proc.devRef .tc main_arg14) := by
  simp only [hostOps2, hostOps2_1, hostOps2_2, hostOps2_3]
  host_read
  first | done | rfl

/-- Argument 15 is not written by the stretch. -/
theorem s2_arg15 (WK : Valuation τ sig (Elt Ideal))
     :
    after (hostOps2_3 (F := Ideal)) (after (hostOps2_2 (F := Ideal)) (after (hostOps2_1 (F := Ideal)) (after (hostOps2 (F := Ideal)) (WK)))) (Proc.devRef .tc main_arg15) = WK (Proc.devRef .tc main_arg15) := by
  simp only [hostOps2, hostOps2_1, hostOps2_2, hostOps2_3]
  host_read
  first | done | rfl

/-- Argument 16 is not written by the stretch. -/
theorem s2_arg16 (WK : Valuation τ sig (Elt Ideal))
     :
    after (hostOps2_3 (F := Ideal)) (after (hostOps2_2 (F := Ideal)) (after (hostOps2_1 (F := Ideal)) (after (hostOps2 (F := Ideal)) (WK)))) (Proc.devRef .tc main_arg16) = WK (Proc.devRef .tc main_arg16) := by
  simp only [hostOps2, hostOps2_1, hostOps2_2, hostOps2_3]
  host_read
  first | done | rfl

/-- Argument 17 is not written by the stretch. -/
theorem s2_arg17 (WK : Valuation τ sig (Elt Ideal))
     :
    after (hostOps2_3 (F := Ideal)) (after (hostOps2_2 (F := Ideal)) (after (hostOps2_1 (F := Ideal)) (after (hostOps2 (F := Ideal)) (WK)))) (Proc.devRef .tc main_arg17) = WK (Proc.devRef .tc main_arg17) := by
  simp only [hostOps2, hostOps2_1, hostOps2_2, hostOps2_3]
  host_read
  first | done | rfl

/-- Argument 18 is not written by the stretch. -/
theorem s2_arg18 (WK : Valuation τ sig (Elt Ideal))
     :
    after (hostOps2_3 (F := Ideal)) (after (hostOps2_2 (F := Ideal)) (after (hostOps2_1 (F := Ideal)) (after (hostOps2 (F := Ideal)) (WK)))) (Proc.devRef .tc main_arg18) = WK (Proc.devRef .tc main_arg18) := by
  simp only [hostOps2, hostOps2_1, hostOps2_2, hostOps2_3]
  host_read
  first | done | rfl

/-- Argument 19 is not written by the stretch. -/
theorem s2_arg19 (WK : Valuation τ sig (Elt Ideal))
     :
    after (hostOps2_3 (F := Ideal)) (after (hostOps2_2 (F := Ideal)) (after (hostOps2_1 (F := Ideal)) (after (hostOps2 (F := Ideal)) (WK)))) (Proc.devRef .tc main_arg19) = WK (Proc.devRef .tc main_arg19) := by
  simp only [hostOps2, hostOps2_1, hostOps2_2, hostOps2_3]
  host_read
  first | done | rfl

end Cert.Sage.Stretch

end
-- ==== Proof.Stretch3.lean ====
/-
  The fourth stretch of host operations of the kernel program (between the third and the fourth kernel region).

  It keeps the first 400000 rows of the third region's result (the track features after layer two), forms the mean
  of the layer-one track features over each playlist's edges, and appends 2400 zero rows below that mean and below the
  layer-one playlist features.
-/
import proofs.«155691_j72499047956494_1_alg».proof.Proof.Gen.KernelIdeal.Frame
import proofs.«155691_j72499047956494_1_alg».proof.Proof.Gen.ReferenceIdeal.Read
import proofs.«155691_j72499047956494_1_alg».proof.Proof.LibHostBoth

set_option maxRecDepth 16384

noncomputable section

namespace Cert.Sage.Stretch

open Idealize.ShloMosaic Idealize.ShloMosaic.StableHlo Cert.LibHostBoth
open Cert.KernelIdeal Cert.KernelIdeal.Gen

/-- The first 400000 rows of the third region's result. -/
theorem s3_v82 (WK : Valuation τ sig (Elt Ideal))
     :
    after (hostOps3_3 (F := Ideal)) (after (hostOps3_2 (F := Ideal)) (after (hostOps3_1 (F := Ideal)) (after (hostOps3 (F := Ideal)) (WK)))) (Proc.devRef .tc main_v82) = extractStridedSlice S400000x128 ![0, 0] (WK (Proc.devRef .tc main_v81) : (⟨S401408x128, .f32⟩ : BufTy).Contents (Elt Ideal)) slices_S401408x128_S400000x128_0_0 := by
  simp only [hostOps3, hostOps3_1, hostOps3_2, hostOps3_3]
  host_read
  first | done | rfl

/-- The mean of the layer-one track features over each playlist's edges. -/
theorem s3_v101 (WK : Valuation τ sig (Elt Ideal)) (a0 : (⟨S100000, .i32⟩ : BufTy).Contents (Elt Ideal)) (a1 : (⟨S400000, .i32⟩ : BufTy).Contents (Elt Ideal)) (a2 : (⟨S100000x128, .f32⟩ : BufTy).Contents (Elt Ideal)) (a3 : (⟨S400000x128, .f32⟩ : BufTy).Contents (Elt Ideal)) (a4 : (⟨S2000000, .i32⟩ : BufTy).Contents (Elt Ideal)) (a5 : (⟨S2000000, .i32⟩ : BufTy).Contents (Elt Ideal)) (a8 : (⟨S128x128, .f32⟩ : BufTy).Contents (Elt Ideal)) (a9 : (⟨S128, .f32⟩ : BufTy).Contents (Elt Ideal)) (a10 : (⟨S128x128, .f32⟩ : BufTy).Contents (Elt Ideal))
    (h0 : WK (Proc.devRef .tc main_v36) = Cert.ReferenceIdeal.Read.val_main_v41 (F := Ideal) a0 a1 a2 a3 a4 a5 a8 a9 a10)
    (h1 : WK (Proc.devRef .tc main_arg4) = a4)
    (h2 : WK (Proc.devRef .tc main_arg5) = a5) :
    after (hostOps3_3 (F := Ideal)) (after (hostOps3_2 (F := Ideal)) (after (hostOps3_1 (F := Ideal)) (after (hostOps3 (F := Ideal)) (WK)))) (Proc.devRef .tc main_v101) = Cert.ReferenceIdeal.Read.val_main_v115 (F := Ideal) a0 a1 a2 a3 a4 a5 a8 a9 a10 := by
  simp only [hostOps3, hostOps3_1, hostOps3_2, hostOps3_3]
  host_read
  rw [h0, h1, h2]
  simp only [Cert.ReferenceIdeal.Read.val_main_v115, Cert.ReferenceIdeal.Read.val_main_v106, Cert.ReferenceIdeal.Read.val_main_v104, Cert.ReferenceIdeal.Read.val_main_cst_22, Cert.ReferenceIdeal.Read.val_main_v105, Cert.ReferenceIdeal.Read.val_main_v103, Cert.ReferenceIdeal.Read.val_main_v102, Cert.ReferenceIdeal.Read.val_main_v101, Cert.ReferenceIdeal.Read.val_main_v98, Cert.ReferenceIdeal.Read.val_main_v97, Cert.ReferenceIdeal.Read.val_main_c_20, Cert.ReferenceIdeal.Read.val_main_v100, Cert.ReferenceIdeal.Read.val_main_v99, Cert.ReferenceIdeal.Read.val_main_c_21, Cert.ReferenceIdeal.Read.val_main_v114, Cert.ReferenceIdeal.Read.val_main_v113, Cert.ReferenceIdeal.Read.val_main_v112, Cert.ReferenceIdeal.Read.val_main_v110, Cert.ReferenceIdeal.Read.val_main_v108, Cert.ReferenceIdeal.Read.val_main_cst_24, Cert.ReferenceIdeal.Read.val_main_v109, Cert.ReferenceIdeal.Read.val_main_v107, Cert.ReferenceIdeal.Read.val_main_cst_23, Cert.ReferenceIdeal.Read.val_main_v111, Cert.ReferenceIdeal.Read.val_main_cst_25]
  first | done | rfl

/-- Argument 6 is not written by the stretch. -/
theorem s3_arg6 (WK : Valuation τ sig (Elt Ideal))
     :
    after (hostOps3_3 (F := Ideal)) (after (hostOps3_2 (F := Ideal)) (after (hostOps3_1 (F := Ideal)) (after (hostOps3 (F := Ideal)) (WK)))) (Proc.devRef .tc main_arg6) = WK (Proc.devRef .tc main_arg6) := by
  simp only [hostOps3, hostOps3_1, hostOps3_2, hostOps3_3]
  host_read
  first | done | rfl

/-- Argument 7 is not written by the stretch. -/
theorem s3_arg7 (WK : Valuation τ sig (Elt Ideal))
     :
    after (hostOps3_3 (F := Ideal)) (after (hostOps3_2 (F := Ideal)) (after (hostOps3_1 (F := Ideal)) (after (hostOps3 (F := Ideal)) (WK)))) (Proc.devRef .tc main_arg7) = WK (Proc.devRef .tc main_arg7) := by
  simp only [hostOps3, hostOps3_1, hostOps3_2, hostOps3_3]
  host_read
  first | done | rfl

/-- Argument 17 is not written by the stretch. -/
theorem s3_arg17 (WK : Valuation τ sig (Elt Ideal))
     :
    after (hostOps3_3 (F := Ideal)) (after (hostOps3_2 (F := Ideal)) (after (hostOps3_1 (F := Ideal)) (after (hostOps3 (F := Ideal)) (WK)))) (Proc.devRef .tc main_arg17) = WK (Proc.devRef .tc main_arg17) := by
  simp only [hostOps3, hostOps3_1, hostOps3_2, hostOps3_3]
  host_read
  first | done | rfl

/-- Argument 18 is not written by the stretch. -/
theorem s3_arg18 (WK : Valuation τ sig (Elt Ideal))
     :
    after (hostOps3_3 (F := Ideal)) (after (hostOps3_2 (F := Ideal)) (after (hostOps3_1 (F := Ideal)) (after (hostOps3 (F := Ideal)) (WK)))) (Proc.devRef .tc main_arg18) = WK (Proc.devRef .tc main_arg18) := by
  simp only [hostOps3, hostOps3_1, hostOps3_2, hostOps3_3]
  host_read
  first | done | rfl

/-- Argument 19 is not written by the stretch. -/
theorem s3_arg19 (WK : Valuation τ sig (Elt Ideal))
     :
    after (hostOps3_3 (F := Ideal)) (after (hostOps3_2 (F := Ideal)) (after (hostOps3_1 (F := Ideal)) (after (hostOps3 (F := Ideal)) (WK)))) (Proc.devRef .tc main_arg19) = WK (Proc.devRef .tc main_arg19) := by
  simp only [hostOps3, hostOps3_1, hostOps3_2, hostOps3_3]
  host_read
  first | done | rfl

/-- The buffer is not written by the stretch. -/
theorem s3_v59 (WK : Valuation τ sig (Elt Ideal))
     :
    after (hostOps3_3 (F := Ideal)) (after (hostOps3_2 (F := Ideal)) (after (hostOps3_1 (F := Ideal)) (after (hostOps3 (F := Ideal)) (WK)))) (Proc.devRef .tc main_v59) = WK (Proc.devRef .tc main_v59) := by
  simp only [hostOps3, hostOps3_1, hostOps3_2, hostOps3_3]
  host_read
  first | done | rfl

end Cert.Sage.Stretch

end
-- ==== Proof.Stretch4.lean ====
/-
  The fifth stretch of host operations of the kernel program (between the fourth and the fifth kernel region), and the
  last operation of the program.

  It keeps the first 100000 rows of the fourth region's result (the playlist features after layer two), looks up the
  label edges' playlist rows in them and the label edges' track rows in the layer-two track features, and appends 7904
  zero rows below each.  After the last region the program keeps the first 500000 entries of its result.
-/
import proofs.«155691_j72499047956494_1_alg».proof.Proof.Gen.KernelIdeal.Frame
import proofs.«155691_j72499047956494_1_alg».proof.Proof.Gen.ReferenceIdeal.Read
import proofs.«155691_j72499047956494_1_alg».proof.Proof.LibHostBoth

set_option maxRecDepth 16384

noncomputable section

namespace Cert.Sage.Stretch

open Idealize.ShloMosaic Idealize.ShloMosaic.StableHlo Cert.LibHostBoth
open Cert.KernelIdeal Cert.KernelIdeal.Gen

/-- The label edges' playlist rows. -/
theorem s4_v112 (WK : Valuation τ sig (Elt Ideal)) (a0 : (⟨S100000, .i32⟩ : BufTy).Contents (Elt Ideal)) (a1 : (⟨S400000, .i32⟩ : BufTy).Contents (Elt Ideal)) (a2 : (⟨S100000x128, .f32⟩ : BufTy).Contents (Elt Ideal)) (a3 : (⟨S400000x128, .f32⟩ : BufTy).Contents (Elt Ideal)) (a4 : (⟨S2000000, .i32⟩ : BufTy).Contents (Elt Ideal)) (a5 : (⟨S2000000, .i32⟩ : BufTy).Contents (Elt Ideal)) (a6 : (⟨S500000, .i32⟩ : BufTy).Contents (Elt Ideal)) (a8 : (⟨S128x128, .f32⟩ : BufTy).Contents (Elt Ideal)) (a9 : (⟨S128, .f32⟩ : BufTy).Contents (Elt Ideal)) (a10 : (⟨S128x128, .f32⟩ : BufTy).Contents (Elt Ideal)) (a11 : (⟨S128x128, .f32⟩ : BufTy).Contents (Elt Ideal)) (a12 : (⟨S128, .f32⟩ : BufTy).Contents (Elt Ideal)) (a13 : (⟨S128x128, .f32⟩ : BufTy).Contents (Elt Ideal)) (a17 : (⟨S128x128, .f32⟩ : BufTy).Contents (Elt Ideal)) (a18 : (⟨S128, .f32⟩ : BufTy).Contents (Elt Ideal)) (a19 : (⟨S128x128, .f32⟩ : BufTy).Contents (Elt Ideal))
    (h0 : extractStridedSlice S100000x128 ![0, 0] (WK (Proc.devRef .tc main_v104) : (⟨S102400x128, .f32⟩ : BufTy).Contents (Elt Ideal)) slices_S102400x128_S100000x128_0_0 = Cert.ReferenceIdeal.Read.val_main_v123 (F := Ideal) a0 a1 a2 a3 a4 a5 a8 a9 a10 a11 a12 a13 a17 a18 a19)
    (h1 : WK (Proc.devRef .tc main_arg6) = a6) :
    after (hostOps4_3 (F := Ideal)) (after (hostOps4_2 (F := Ideal)) (after (hostOps4_1 (F := Ideal)) (after (hostOps4 (F := Ideal)) (WK)))) (Proc.devRef .tc main_v112) = Cert.ReferenceIdeal.Read.val_main_v130 (F := Ideal) a0 a1 a2 a3 a4 a5 a6 a8 a9 a10 a11 a12 a13 a17 a18 a19 := by
  simp only [hostOps4, hostOps4_1, hostOps4_2, hostOps4_3]
  host_read
  rw [h0, h1]
  simp only [Cert.ReferenceIdeal.Read.val_main_v130, Cert.ReferenceIdeal.Read.val_main_v129, Cert.ReferenceIdeal.Read.val_main_v128, Cert.ReferenceIdeal.Read.val_main_v125, Cert.ReferenceIdeal.Read.val_main_v124, Cert.ReferenceIdeal.Read.val_main_c_26, Cert.ReferenceIdeal.Read.val_main_v127, Cert.ReferenceIdeal.Read.val_main_v126, Cert.ReferenceIdeal.Read.val_main_c_27]
  first | done | rfl

/-- The label edges' track rows. -/
theorem s4_v119 (WK : Valuation τ sig (Elt Ideal)) (a0 : (⟨S100000, .i32⟩ : BufTy).Contents (Elt Ideal)) (a1 : (⟨S400000, .i32⟩ : BufTy).Contents (Elt Ideal)) (a2 : (⟨S100000x128, .f32⟩ : BufTy).Contents (Elt Ideal)) (a3 : (⟨S400000x128, .f32⟩ : BufTy).Contents (Elt Ideal)) (a4 : (⟨S2000000, .i32⟩ : BufTy).Contents (Elt Ideal)) (a5 : (⟨S2000000, .i32⟩ : BufTy).Contents (Elt Ideal)) (a7 : (⟨S500000, .i32⟩ : BufTy).Contents (Elt Ideal)) (a8 : (⟨S128x128, .f32⟩ : BufTy).Contents (Elt Ideal)) (a9 : (⟨S128, .f32⟩ : BufTy).Contents (Elt Ideal)) (a10 : (⟨S128x128, .f32⟩ : BufTy).Contents (Elt Ideal)) (a11 : (⟨S128x128, .f32⟩ : BufTy).Contents (Elt Ideal)) (a12 : (⟨S128, .f32⟩ : BufTy).Contents (Elt Ideal)) (a13 : (⟨S128x128, .f32⟩ : BufTy).Contents (Elt Ideal)) (a14 : (⟨S128x128, .f32⟩ : BufTy).Contents (Elt Ideal)) (a15 : (⟨S128, .f32⟩ : BufTy).Contents (Elt Ideal)) (a16 : (⟨S128x128, .f32⟩ : BufTy).Contents (Elt Ideal))
    (h0 : WK (Proc.devRef .tc main_v82) = Cert.ReferenceIdeal.Read.val_main_v96 (F := Ideal) a0 a1 a2 a3 a4 a5 a8 a9 a10 a11 a12 a13 a14 a15 a16)
    (h1 : WK (Proc.devRef .tc main_arg7) = a7) :
    after (hostOps4_3 (F := Ideal)) (after (hostOps4_2 (F := Ideal)) (after (hostOps4_1 (F := Ideal)) (after (hostOps4 (F := Ideal)) (WK)))) (Proc.devRef .tc main_v119) = Cert.ReferenceIdeal.Read.val_main_v137 (F := Ideal) a0 a1 a2 a3 a4 a5 a7 a8 a9 a10 a11 a12 a13 a14 a15 a16 := by
  simp only [hostOps4, hostOps4_1, hostOps4_2, hostOps4_3]
  host_read
  rw [h0, h1]
  simp only [Cert.ReferenceIdeal.Read.val_main_v137, Cert.ReferenceIdeal.Read.val_main_v136, Cert.ReferenceIdeal.Read.val_main_v135, Cert.ReferenceIdeal.Read.val_main_v132, Cert.ReferenceIdeal.Read.val_main_v131, Cert.ReferenceIdeal.Read.val_main_c_28, Cert.ReferenceIdeal.Read.val_main_v134, Cert.ReferenceIdeal.Read.val_main_v133, Cert.ReferenceIdeal.Read.val_main_c_29]
  first | done | rfl

/-- The program's result: the first 500000 entries of the last region's result. -/
theorem s5_v123 (WK : Valuation τ sig (Elt Ideal))
     :
    after (hostOps5 (F := Ideal)) WK (Proc.devRef .tc main_v123) = extractStridedSlice S500000 ![0] (WK (Proc.devRef .tc main_v122) : (⟨S507904, .f32⟩ : BufTy).Contents (Elt Ideal)) slices_S507904_S500000_0 := by
  simp only [hostOps5]
  host_read
  first | done | rfl

end Cert.Sage.Stretch

end
-- ==== Proof.Pads.lean ====
/-
  The pads at the end of each host stretch of the kernel program.

  Each of the first five stretches ends with two short calls that append zero rows below a buffer (the padding value is
  the integer zero converted to a float).  Entered with any contents, the padded buffer afterwards holds the pad of what
  the source buffer held at entry, and the source buffer is unchanged.
-/
import proofs.«155691_j72499047956494_1_alg».proof.Proof.Gen.KernelIdeal.Frame
import proofs.«155691_j72499047956494_1_alg».proof.Proof.LibHostBoth
import Idealize.ShloMosaic.PureOps.Ideal

set_option maxRecDepth 16384

noncomputable section

namespace Cert.Sage.Pads

open Idealize.ShloMosaic Idealize.ShloMosaic.StableHlo Cert.LibHostBoth
open Cert.KernelIdeal Cert.KernelIdeal.Gen

/-- Stretch 0: the integer zero that the first pad converts is the last constant of the long stretch. -/
theorem c0 (WK : Valuation τ sig (Elt Ideal)) :
    after (hostOps0 (F := Ideal)) WK (Proc.devRef .tc main_c_8) = constantI S_ 32 0#32 := by
  simp only [hostOps0]
  host_read
  first | done | rfl
/-- Stretch 0: the padded buffer is the pad of its source as the pad stretches find it. -/
theorem q0_a (W' : Valuation τ sig (Elt Ideal))
    (hc : W' (Proc.devRef .tc main_c_8) = constantI S_ 32 0#32) :
    after (hostOps0_3 (F := Ideal)) (after (hostOps0_2 (F := Ideal)) (after (hostOps0_1 (F := Ideal)) W')) (Proc.devRef .tc main_v33) = pad S401408x128 ![0, 0] ![1408, 0] ![0, 0] (W' (Proc.devRef .tc main_v32) : (⟨S400000x128, .f32⟩ : BufTy).Contents (Elt Ideal)) (sitofp (F := Ideal) .f32 (constantI S_ 32 0#32)) pads_S400000x128_S401408x128_014080_000 h_S_ := by
  simp only [hostOps0_1, hostOps0_2, hostOps0_3]
  host_read
  rw [hc]
/-- Stretch 0: the pad stretches do not write the source. -/
theorem k0_a (W' : Valuation τ sig (Elt Ideal)) :
    after (hostOps0_3 (F := Ideal)) (after (hostOps0_2 (F := Ideal)) (after (hostOps0_1 (F := Ideal)) W')) (Proc.devRef .tc main_v32) = W' (Proc.devRef .tc main_v32) := by
  simp only [hostOps0_1, hostOps0_2, hostOps0_3]
  host_read
  first | done | rfl

/-- Stretch 0: the padded buffer is the pad of its source as the pad stretches find it. -/
theorem q0_b (W' : Valuation τ sig (Elt Ideal)) :
    after (hostOps0_3 (F := Ideal)) (after (hostOps0_2 (F := Ideal)) (after (hostOps0_1 (F := Ideal)) W')) (Proc.devRef .tc main_v34) = pad S401408x128 ![0, 0] ![1408, 0] ![0, 0] (W' (Proc.devRef .tc main_v13) : (⟨S400000x128, .f32⟩ : BufTy).Contents (Elt Ideal)) (sitofp (F := Ideal) .f32 (constantI S_ 32 0#32)) pads_S400000x128_S401408x128_014080_000 h_S_ := by
  simp only [hostOps0_1, hostOps0_2, hostOps0_3]
  host_read
  first | done | rfl
/-- Stretch 0: the pad stretches do not write the source. -/
theorem k0_b (W' : Valuation τ sig (Elt Ideal)) :
    after (hostOps0_3 (F := Ideal)) (after (hostOps0_2 (F := Ideal)) (after (hostOps0_1 (F := Ideal)) W')) (Proc.devRef .tc main_v13) = W' (Proc.devRef .tc main_v13) := by
  simp only [hostOps0_1, hostOps0_2, hostOps0_3]
  host_read
  first | done | rfl

/-- Stretch 1: the integer zero that the first pad converts is the last constant of the long stretch. -/
theorem c1 (WK : Valuation τ sig (Elt Ideal)) :
    after (hostOps1 (F := Ideal)) WK (Proc.devRef .tc main_c_16) = constantI S_ 32 0#32 := by
  simp only [hostOps1]
  host_read
  first | done | rfl
/-- Stretch 1: the padded buffer is the pad of its source as the pad stretches find it. -/
theorem q1_a (W' : Valuation τ sig (Elt Ideal))
    (hc : W' (Proc.devRef .tc main_c_16) = constantI S_ 32 0#32) :
    after (hostOps1_3 (F := Ideal)) (after (hostOps1_2 (F := Ideal)) (after (hostOps1_1 (F := Ideal)) W')) (Proc.devRef .tc main_v56) = pad S102400x128 ![0, 0] ![2400, 0] ![0, 0] (W' (Proc.devRef .tc main_v55) : (⟨S100000x128, .f32⟩ : BufTy).Contents (Elt Ideal)) (sitofp (F := Ideal) .f32 (constantI S_ 32 0#32)) pads_S100000x128_S102400x128_024000_000 h_S_ := by
  simp only [hostOps1_1, hostOps1_2, hostOps1_3]
  host_read
  rw [hc]
/-- Stretch 1: the pad stretches do not write the source. -/
theorem k1_a (W' : Valuation τ sig (Elt Ideal)) :
    after (hostOps1_3 (F := Ideal)) (after (hostOps1_2 (F := Ideal)) (after (hostOps1_1 (F := Ideal)) W')) (Proc.devRef .tc main_v55) = W' (Proc.devRef .tc main_v55) := by
  simp only [hostOps1_1, hostOps1_2, hostOps1_3]
  host_read
  first | done | rfl

/-- Stretch 1: the padded buffer is the pad of its source as the pad stretches find it. -/
theorem q1_b (W' : Valuation τ sig (Elt Ideal)) :
    after (hostOps1_3 (F := Ideal)) (after (hostOps1_2 (F := Ideal)) (after (hostOps1_1 (F := Ideal)) W')) (Proc.devRef .tc main_v57) = pad S102400x128 ![0, 0] ![2400, 0] ![0, 0] (W' (Proc.devRef .tc main_v6) : (⟨S100000x128, .f32⟩ : BufTy).Contents (Elt Ideal)) (sitofp (F := Ideal) .f32 (constantI S_ 32 0#32)) pads_S100000x128_S102400x128_024000_000 h_S_ := by
  simp only [hostOps1_1, hostOps1_2, hostOps1_3]
  host_read
  first | done | rfl
/-- Stretch 1: the pad stretches do not write the source. -/
theorem k1_b (W' : Valuation τ sig (Elt Ideal)) :
    after (hostOps1_3 (F := Ideal)) (after (hostOps1_2 (F := Ideal)) (after (hostOps1_1 (F := Ideal)) W')) (Proc.devRef .tc main_v6) = W' (Proc.devRef .tc main_v6) := by
  simp only [hostOps1_1, hostOps1_2, hostOps1_3]
  host_read
  first | done | rfl

/-- Stretch 2: the integer zero that the first pad converts is the last constant of the long stretch. -/
theorem c2 (WK : Valuation τ sig (Elt Ideal)) :
    after (hostOps2 (F := Ideal)) WK (Proc.devRef .tc main_c_24) = constantI S_ 32 0#32 := by
  simp only [hostOps2]
  host_read
  first | done | rfl
/-- Stretch 2: the padded buffer is the pad of its source as the pad stretches find it. -/
theorem q2_a (W' : Valuation τ sig (Elt Ideal))
    (hc : W' (Proc.devRef .tc main_c_24) = constantI S_ 32 0#32) :
    after (hostOps2_3 (F := Ideal)) (after (hostOps2_2 (F := Ideal)) (after (hostOps2_1 (F := Ideal)) W')) (Proc.devRef .tc main_v79) = pad S401408x128 ![0, 0] ![1408, 0] ![0, 0] (W' (Proc.devRef .tc main_v78) : (⟨S400000x128, .f32⟩ : BufTy).Contents (Elt Ideal)) (sitofp (F := Ideal) .f32 (constantI S_ 32 0#32)) pads_S400000x128_S401408x128_014080_000 h_S_ := by
  simp only [hostOps2_1, hostOps2_2, hostOps2_3]
  host_read
  rw [hc]
/-- Stretch 2: the pad stretches do not write the source. -/
theorem k2_a (W' : Valuation τ sig (Elt Ideal)) :
    after (hostOps2_3 (F := Ideal)) (after (hostOps2_2 (F := Ideal)) (after (hostOps2_1 (F := Ideal)) W')) (Proc.devRef .tc main_v78) = W' (Proc.devRef .tc main_v78) := by
  simp only [hostOps2_1, hostOps2_2, hostOps2_3]
  host_read
  first | done | rfl

/-- Stretch 2: the padded buffer is the pad of its source as the pad stretches find it. -/
theorem q2_b (W' : Valuation τ sig (Elt Ideal)) :
    after (hostOps2_3 (F := Ideal)) (after (hostOps2_2 (F := Ideal)) (after (hostOps2_1 (F := Ideal)) W')) (Proc.devRef .tc main_v80) = pad S401408x128 ![0, 0] ![1408, 0] ![0, 0] (W' (Proc.devRef .tc main_v36) : (⟨S400000x128, .f32⟩ : BufTy).Contents (Elt Ideal)) (sitofp (F := Ideal) .f32 (constantI S_ 32 0#32)) pads_S400000x128_S401408x128_014080_000 h_S_ := by
  simp only [hostOps2_1, hostOps2_2, hostOps2_3]
  host_read
  first | done | rfl
/-- Stretch 2: the pad stretches do not write the source. -/
theorem k2_b (W' : Valuation τ sig (Elt Ideal)) :
    after (hostOps2_3 (F := Ideal)) (after (hostOps2_2 (F := Ideal)) (after (hostOps2_1 (F := Ideal)) W')) (Proc.devRef .tc main_v36) = W' (Proc.devRef .tc main_v36) := by
  simp only [hostOps2_1, hostOps2_2, hostOps2_3]
  host_read
  first | done | rfl

/-- Stretch 3: the integer zero that the first pad converts is the last constant of the long stretch. -/
theorem c3 (WK : Valuation τ sig (Elt Ideal)) :
    after (hostOps3 (F := Ideal)) WK (Proc.devRef .tc main_c_32) = constantI S_ 32 0#32 := by
  simp only [hostOps3]
  host_read
  first | done | rfl
/-- Stretch 3: the padded buffer is the pad of its source as the pad stretches find it. -/
theorem q3_a (W' : Valuation τ sig (Elt Ideal))
    (hc : W' (Proc.devRef .tc main_c_32) = constantI S_ 32 0#32) :
    after (hostOps3_3 (F := Ideal)) (after (hostOps3_2 (F := Ideal)) (after (hostOps3_1 (F := Ideal)) W')) (Proc.devRef .tc main_v102) = pad S102400x128 ![0, 0] ![2400, 0] ![0, 0] (W' (Proc.devRef .tc main_v101) : (⟨S100000x128, .f32⟩ : BufTy).Contents (Elt Ideal)) (sitofp (F := Ideal) .f32 (constantI S_ 32 0#32)) pads_S100000x128_S102400x128_024000_000 h_S_ := by
  simp only [hostOps3_1, hostOps3_2, hostOps3_3]
  host_read
  rw [hc]
/-- Stretch 3: the pad stretches do not write the source. -/
theorem k3_a (W' : Valuation τ sig (Elt Ideal)) :
    after (hostOps3_3 (F := Ideal)) (after (hostOps3_2 (F := Ideal)) (after (hostOps3_1 (F := Ideal)) W')) (Proc.devRef .tc main_v101) = W' (Proc.devRef .tc main_v101) := by
  simp only [hostOps3_1, hostOps3_2, hostOps3_3]
  host_read
  first | done | rfl

/-- Stretch 3: the padded buffer is the pad of its source as the pad stretches find it. -/
theorem q3_b (W' : Valuation τ sig (Elt Ideal)) :
    after (hostOps3_3 (F := Ideal)) (after (hostOps3_2 (F := Ideal)) (after (hostOps3_1 (F := Ideal)) W')) (Proc.devRef .tc main_v103) = pad S102400x128 ![0, 0] ![2400, 0] ![0, 0] (W' (Proc.devRef .tc main_v59) : (⟨S100000x128, .f32⟩ : BufTy).Contents (Elt Ideal)) (sitofp (F := Ideal) .f32 (constantI S_ 32 0#32)) pads_S100000x128_S102400x128_024000_000 h_S_ := by
  simp only [hostOps3_1, hostOps3_2, hostOps3_3]
  host_read
  first | done | rfl
/-- Stretch 3: the pad stretches do not write the source. -/
theorem k3_b (W' : Valuation τ sig (Elt Ideal)) :
    after (hostOps3_3 (F := Ideal)) (after (hostOps3_2 (F := Ideal)) (after (hostOps3_1 (F := Ideal)) W')) (Proc.devRef .tc main_v59) = W' (Proc.devRef .tc main_v59) := by
  simp only [hostOps3_1, hostOps3_2, hostOps3_3]
  host_read
  first | done | rfl

/-- Stretch 4: the integer zero that the first pad converts is the last constant of the long stretch. -/
theorem c4 (WK : Valuation τ sig (Elt Ideal)) :
    after (hostOps4 (F := Ideal)) WK (Proc.devRef .tc main_c_38) = constantI S_ 32 0#32 := by
  simp only [hostOps4]
  host_read
  first | done | rfl
/-- Stretch 4: the padded buffer is the pad of its source as the pad stretches find it. -/
theorem q4_a (W' : Valuation τ sig (Elt Ideal))
    (hc : W' (Proc.devRef .tc main_c_38) = constantI S_ 32 0#32) :
    after (hostOps4_3 (F := Ideal)) (after (hostOps4_2 (F := Ideal)) (after (hostOps4_1 (F := Ideal)) W')) (Proc.devRef .tc main_v120) = pad S507904x128 ![0, 0] ![7904, 0] ![0, 0] (W' (Proc.devRef .tc main_v112) : (⟨S500000x128, .f32⟩ : BufTy).Contents (Elt Ideal)) (sitofp (F := Ideal) .f32 (constantI S_ 32 0#32)) pads_S500000x128_S507904x128_079040_000 h_S_ := by
  simp only [hostOps4_1, hostOps4_2, hostOps4_3]
  host_read
  rw [hc]
/-- Stretch 4: the pad stretches do not write the source. -/
theorem k4_a (W' : Valuation τ sig (Elt Ideal)) :
    after (hostOps4_3 (F := Ideal)) (after (hostOps4_2 (F := Ideal)) (after (hostOps4_1 (F := Ideal)) W')) (Proc.devRef .tc main_v112) = W' (Proc.devRef .tc main_v112) := by
  simp only [hostOps4_1, hostOps4_2, hostOps4_3]
  host_read
  first | done | rfl

/-- Stretch 4: the padded buffer is the pad of its source as the pad stretches find it. -/
theorem q4_b (W' : Valuation τ sig (Elt Ideal)) :
    after (hostOps4_3 (F := Ideal)) (after (hostOps4_2 (F := Ideal)) (after (hostOps4_1 (F := Ideal)) W')) (Proc.devRef .tc main_v121) = pad S507904x128 ![0, 0] ![7904, 0] ![0, 0] (W' (Proc.devRef .tc main_v119) : (⟨S500000x128, .f32⟩ : BufTy).Contents (Elt Ideal)) (sitofp (F := Ideal) .f32 (constantI S_ 32 0#32)) pads_S500000x128_S507904x128_079040_000 h_S_ := by
  simp only [hostOps4_1, hostOps4_2, hostOps4_3]
  host_read
  first | done | rfl
/-- Stretch 4: the pad stretches do not write the source. -/
theorem k4_b (W' : Valuation τ sig (Elt Ideal)) :
    after (hostOps4_3 (F := Ideal)) (after (hostOps4_2 (F := Ideal)) (after (hostOps4_1 (F := Ideal)) W')) (Proc.devRef .tc main_v119) = W' (Proc.devRef .tc main_v119) := by
  simp only [hostOps4_1, hostOps4_2, hostOps4_3]
  host_read
  first | done | rfl

end Cert.Sage.Pads

end
-- ==== Proof.LibMatOps.lean ====
/-
  Array functions over the extended reals, for any sizes, each stated at an index through its two coordinates: the
  matrix product entry by entry (mm), one row added to every row (addRow), the sums down each column of the entries
  (colSum) and of their squares (colSumSq) as one row, a scale and a shift applied column by column (affine), and the
  positive part (relu).  The lemmas named `_apply` read each at the index built from two literal coordinates, by
  definition.  A tiled kernel's closed form (a dense layer with a bias row, a column-sum accumulator, a column-wise
  normalisation) can be stated as one of these functions of its whole input arrays.
-/
import Idealize.ShloMosaic.Lib.ValueIdx
import Idealize.ShloMosaic.PureOps.Ideal

noncomputable section

open scoped BigOperators

namespace Cert.Spec

open Idealize.ShloMosaic Idealize.ShloMosaic.ValueIdx

variable {n k d : ℕ}

/-- An n × d array of extended reals. -/
abbrev Mat (n d : ℕ) : Type := (⟨2, ![n, d]⟩ : Shape).Idx → EReal

/-- The matrix product: entry (p, j) is the sum over q of X (p, q) · W (q, j). -/
def mm (X : Mat n k) (W : Mat k d) : Mat n d := fun i => ∑ q : Fin k, X (ix2 (i 0) q) * W (ix2 q (i 1))

theorem mm_apply (X : Mat n k) (W : Mat k d) (p : Fin n) (j : Fin d) :
    mm X W (ix2 p j) = ∑ q : Fin k, X (ix2 p q) * W (ix2 q j) := rfl

/-- The one row B added to every row of Y. -/
def addRow (Y : Mat n d) (B : Mat 1 d) : Mat n d := fun i => Y i + B (ix2 (0 : Fin 1) (i 1))

theorem addRow_apply (Y : Mat n d) (B : Mat 1 d) (p : Fin n) (j : Fin d) :
    addRow Y B (ix2 p j) = Y (ix2 p j) + B (ix2 (0 : Fin 1) j) := rfl

/-- The sum down each column, as one row. -/
def colSum (X : Mat n d) : Mat 1 d := fun i => ∑ p : Fin n, X (ix2 p (i 1))

theorem colSum_apply (X : Mat n d) (z : Fin 1) (j : Fin d) : colSum X (ix2 z j) = ∑ p : Fin n, X (ix2 p j) := rfl

/-- The sum of the squares down each column, as one row. -/
def colSumSq (X : Mat n d) : Mat 1 d := fun i => ∑ p : Fin n, X (ix2 p (i 1)) * X (ix2 p (i 1))

theorem colSumSq_apply (X : Mat n d) (z : Fin 1) (j : Fin d) :
    colSumSq X (ix2 z j) = ∑ p : Fin n, X (ix2 p j) * X (ix2 p j) := rfl

/-- Column j scaled by S j and shifted by T j. -/
def affine (X : Mat n d) (S T : Mat 1 d) : Mat n d :=
  fun i => X i * S (ix2 (0 : Fin 1) (i 1)) + T (ix2 (0 : Fin 1) (i 1))

theorem affine_apply (X : Mat n d) (S T : Mat 1 d) (p : Fin n) (j : Fin d) :
    affine X S T (ix2 p j) = X (ix2 p j) * S (ix2 (0 : Fin 1) j) + T (ix2 (0 : Fin 1) j) := rfl

/-- The positive part, entry by entry. -/
def relu (Y : Mat n d) : Mat n d := fun i => max (Y i) 0

theorem relu_apply (Y : Mat n d) (p : Fin n) (j : Fin d) : relu Y (ix2 p j) = max (Y (ix2 p j)) 0 := rfl

end Cert.Spec

end
-- ==== Proof.SageSpec.lean ====
/-
  The mathematics of one layer of the two-layer neighbourhood-averaging network, for any sizes, over the extended reals.

  A layer takes the mean A of the neighbours' feature rows and the node's own feature rows X (both n rows of k
  features), two weight matrices Wl, Wr (k × d, already transposed so that they multiply on the right) and one bias
  row B, and returns, row by row,   A · Wl + B + X · Wr   (`lin`), optionally followed by the positive part
  (`dense true`).  The sum is grouped as ((A · Wl + B) + X · Wr).  Row p of the result reads row p of A and row p of
  X only (`dense_rows`): this is what lets the rows be computed in blocks, and lets rows appended below A and X be
  ignored when only the first rows of the result are kept.

  The classifier at the end is the row-wise inner product of two n × k arrays: entry p is the sum over q of
  P (p, q) · T (p, q) (`rowDot`); entry p reads row p of each only (`rowDot_rows`).
-/
import Idealize.ShloMosaic.Lib.ValueIdx
import Idealize.ShloMosaic.PureOps.Ideal
import proofs.«155691_j72499047956494_1_alg».proof.Proof.LibMatOps

noncomputable section

open scoped BigOperators

namespace Cert.Sage

open Idealize.ShloMosaic Idealize.ShloMosaic.ValueIdx Cert.Spec

variable {n n' k d : ℕ}

/-- A vector of n extended reals. -/
abbrev Vec1 (n : ℕ) : Type := (⟨1, ![n]⟩ : Shape).Idx → EReal

/-- (A · Wl + B) + X · Wr, entry by entry. -/
def lin (A X : Mat n k) (Wl Wr : Mat k d) (B : Mat 1 d) : Mat n d :=
  fun i => addRow (mm A Wl) B i + mm X Wr i

theorem lin_apply (A X : Mat n k) (Wl Wr : Mat k d) (B : Mat 1 d) (p : Fin n) (j : Fin d) :
    lin A X Wl Wr B (ix2 p j)
      = ((∑ q : Fin k, A (ix2 p q) * Wl (ix2 q j)) + B (ix2 (0 : Fin 1) j)) + ∑ q : Fin k, X (ix2 p q) * Wr (ix2 q j) := rfl

/-- The layer: `lin`, followed by the positive part when `act` is true. -/
def dense (act : Bool) (A X : Mat n k) (Wl Wr : Mat k d) (B : Mat 1 d) : Mat n d :=
  if act then relu (lin A X Wl Wr B) else lin A X Wl Wr B

theorem dense_true (A X : Mat n k) (Wl Wr : Mat k d) (B : Mat 1 d) : dense true A X Wl Wr B = relu (lin A X Wl Wr B) := rfl
theorem dense_false (A X : Mat n k) (Wl Wr : Mat k d) (B : Mat 1 d) : dense false A X Wl Wr B = lin A X Wl Wr B := rfl

/-- Row p of `lin` reads row p of A and of X only. -/
theorem lin_rows (A X : Mat n k) (A' X' : Mat n' k) (Wl Wr : Mat k d) (B : Mat 1 d) (p : Fin n) (p' : Fin n') (j : Fin d)
    (hA : ∀ q : Fin k, A (ix2 p q) = A' (ix2 p' q)) (hX : ∀ q : Fin k, X (ix2 p q) = X' (ix2 p' q)) :
    lin A X Wl Wr B (ix2 p j) = lin A' X' Wl Wr B (ix2 p' j) := by
  rw [lin_apply, lin_apply]
  congr 1
  · congr 1
    exact Finset.sum_congr rfl fun q _ => by rw [hA q]
  · exact Finset.sum_congr rfl fun q _ => by rw [hX q]

/-- Row p of the layer reads row p of A and of X only. -/
theorem dense_rows (act : Bool) (A X : Mat n k) (A' X' : Mat n' k) (Wl Wr : Mat k d) (B : Mat 1 d) (p : Fin n) (p' : Fin n')
    (j : Fin d) (hA : ∀ q : Fin k, A (ix2 p q) = A' (ix2 p' q)) (hX : ∀ q : Fin k, X (ix2 p q) = X' (ix2 p' q)) :
    dense act A X Wl Wr B (ix2 p j) = dense act A' X' Wl Wr B (ix2 p' j) := by
  cases act
  · exact lin_rows A X A' X' Wl Wr B p p' j hA hX
  · show max (lin A X Wl Wr B (ix2 p j)) 0 = max (lin A' X' Wl Wr B (ix2 p' j)) 0
    rw [lin_rows A X A' X' Wl Wr B p p' j hA hX]

/-- The row-wise inner product of two n × k arrays. -/
def rowDot (P T : Mat n k) : Vec1 n := fun i => ∑ q : Fin k, P (ix2 (i 0) q) * T (ix2 (i 0) q)

theorem rowDot_apply (P T : Mat n k) (p : Fin n) : rowDot P T (ix1 p) = ∑ q : Fin k, P (ix2 p q) * T (ix2 p q) := rfl

/-- Entry p of the row-wise inner product reads row p of each array only. -/
theorem rowDot_rows (P T : Mat n k) (P' T' : Mat n' k) (p : Fin n) (p' : Fin n')
    (hP : ∀ q : Fin k, P (ix2 p q) = P' (ix2 p' q)) (hT : ∀ q : Fin k, T (ix2 p q) = T' (ix2 p' q)) :
    rowDot P T (ix1 p) = rowDot P' T' (ix1 p') := by
  rw [rowDot_apply, rowDot_apply]
  exact Finset.sum_congr rfl fun q _ => by rw [hP q, hT q]

end Cert.Sage

end
-- ==== Proof.LibDense.lean ====
/-
  A plain matrix product read at an entry.

  For dimension numbers that contract the left operand's columns against the right operand's rows —
  rows × inner times inner × columns, no batch axis — the contraction index is its one coordinate, and
  the sum over it of the operands' products at entry `(p, c)` is `∑ q, lhs (p, q) · rhs (q, c)`.  Read at
  the exact extended reals, a matrix-unit product into a zero accumulator and a host `dot_general` are
  both that sum, whatever their precision or schedule, and whatever the number of rows.
-/
import Idealize.ShloMosaic.Lib.ValueIdx
import Idealize.ShloMosaic.PureOps.Ideal.Laws

noncomputable section

open scoped BigOperators

namespace Cert.LibDense

open Idealize.ShloMosaic Idealize.ShloMosaic.ValueIdx

variable {n k d : ℕ}

/-- The sum over a one-axis contraction index, re-indexed by the axis's coordinate, for a product whose
    operand indices at output `(p, c)` and contraction coordinate `q` are `(p, q)` and `(q, c)`. -/
theorem sum_contr_eq {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (lhs : FVec Ideal ⟨2, ![n, k]⟩ φ₁) (rhs : FVec Ideal ⟨2, ![k, d]⟩ φ₂) (p : Fin n) (c : Fin d) :
    (∑ q : D.contr.Idx, lhs (D.lhsIdx (ix2 p c) q) * rhs (D.rhsIdx (ix2 p c) q) : EReal)
      = ∑ q : Fin k, lhs (ix2 p q) * rhs (ix2 q c) := by
  rw [← Equiv.sum_comp (contrEquiv1 D k hr hs).symm]
  refine Finset.sum_congr rfl fun q _ => ?_
  have hk := contrEquiv1_symm_val D k hr hs q
  have el : D.lhsIdx (ix2 p c) ((contrEquiv1 D k hr hs).symm q) = ix2 p q := funext fun a => Fin.ext (by
    match a with
    | ⟨0, _⟩ => exact hl0 _ _
    | ⟨1, _⟩ => exact (hl1 _ _).trans hk)
  have er : D.rhsIdx (ix2 p c) ((contrEquiv1 D k hr hs).symm q) = ix2 q c := funext fun a => Fin.ext (by
    match a with
    | ⟨0, _⟩ => exact (hr0 _ _).trans hk
    | ⟨1, _⟩ => exact hr1 _ _)
  rw [el, er]

/-- A matrix-unit product into the zero accumulator, at entry `(p, c)`. -/
theorem matmul_zero_apply {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (prec : Option ContractPrecision) (lhs : FVec Ideal ⟨2, ![n, k]⟩ φ₁) (rhs : FVec Ideal ⟨2, ![k, d]⟩ φ₂)
    (p : Fin n) (c : Fin d) :
    FloatOps.matmul D prec lhs rhs (constant (F := Ideal) ⟨2, ![n, d]⟩ .f32 0x00000000#32) (ix2 p c)
      = ∑ q : Fin k, lhs (ix2 p q) * rhs (ix2 q c) := by
  rw [Ideal.matmul_constant_zero_apply]
  exact sum_contr_eq D hr hs hl0 hl1 hr0 hr1 lhs rhs p c

/-- A host `dot_general`, at entry `(p, c)`. -/
theorem dotGeneral_apply {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (prec : Option ContractPrecision) (sched : HostSchedule)
    (lhs : FVec Ideal ⟨2, ![n, k]⟩ φ₁) (rhs : FVec Ideal ⟨2, ![k, d]⟩ φ₂) (p : Fin n) (c : Fin d) :
    FloatOps.dotGeneral D prec sched lhs rhs (ix2 p c) = ∑ q : Fin k, lhs (ix2 p q) * rhs (ix2 q c) := by
  rw [Ideal.dotGeneral_apply]
  exact sum_contr_eq D hr hs hl0 hl1 hr0 hr1 lhs rhs p c

end Cert.LibDense

end
-- ==== Proof.LibPlainDot.lean ====
/-
  Plain matrix products, whatever name their dimension numbers are printed under.

  A program prints the dimension numbers of each of its matrix products as a record of its own; for rows × inner
  times inner × columns with no batch axis that record is the library's `DotDims.plain n k d` but for its proof
  field. For any record equal to it, a matrix-unit product into the zero accumulator and a host `dot_general`
  are, at entry (p, c) and over the exact extended reals, the sum over q of lhs (p, q) · rhs (q, c).
-/
import Idealize.ShloMosaic.Lib.ValueIdx
import Idealize.ShloMosaic.PureOps.Ideal.Laws
import proofs.«155691_j72499047956494_1_alg».proof.Proof.LibDense

noncomputable section

open scoped BigOperators

namespace Cert.LibPlainDot

open Idealize.ShloMosaic Idealize.ShloMosaic.ValueIdx

variable {n k d : ℕ}

theorem plain_rank : (DotDims.plain n k d).contr.rank = 1 := rfl
theorem plain_size : (DotDims.plain n k d).contr.size ⟨0, by rw [plain_rank]; omega⟩ = k := rfl

theorem plain_lhs0 (i : (⟨2, ![n, d]⟩ : Shape).Idx) (q : (DotDims.plain n k d).contr.Idx) :
    ((DotDims.plain n k d).lhsIdx i q 0).val = (i 0).val := by
  unfold DotDims.lhsIdx
  rw [dif_neg (show ¬(0 : Fin 2) ∈ (DotDims.plain n k d).lhsBatch from List.not_mem_nil),
    dif_pos (show (0 : Fin 2) ∈ (DotDims.plain n k d).lhsNonContracting from List.mem_cons_self)]
  rfl
theorem plain_lhs1 (i : (⟨2, ![n, d]⟩ : Shape).Idx) (q : (DotDims.plain n k d).contr.Idx) :
    ((DotDims.plain n k d).lhsIdx i q 1).val = (q ⟨0, by rw [plain_rank]; omega⟩).val :=
  (DotDims.plain n k d).lhsIdx_val_of_single rfl i q
theorem plain_rhs0 (i : (⟨2, ![n, d]⟩ : Shape).Idx) (q : (DotDims.plain n k d).contr.Idx) :
    ((DotDims.plain n k d).rhsIdx i q 0).val = (q ⟨0, by rw [plain_rank]; omega⟩).val :=
  (DotDims.plain n k d).rhsIdx_val_of_single rfl i q
theorem plain_rhs1 (i : (⟨2, ![n, d]⟩ : Shape).Idx) (q : (DotDims.plain n k d).contr.Idx) :
    ((DotDims.plain n k d).rhsIdx i q 1).val = (i 1).val := by
  unfold DotDims.rhsIdx
  rw [dif_neg (show ¬(1 : Fin 2) ∈ (DotDims.plain n k d).rhsBatch from List.not_mem_nil),
    dif_pos (show (1 : Fin 2) ∈ (DotDims.plain n k d).rhsNonContracting from List.mem_cons_self)]
  rfl

/-- A matrix-unit product into the zero accumulator under dimension numbers that are the plain ones, at (p, c). -/
theorem matmul_zero_apply {φ₁ φ₂ : FTy} (D : DotDims ⟨2, ![n, k]⟩ ⟨2, ![k, d]⟩ ⟨2, ![n, d]⟩) (hD : D = DotDims.plain n k d)
    (prec : Option ContractPrecision) (lhs : FVec Ideal ⟨2, ![n, k]⟩ φ₁) (rhs : FVec Ideal ⟨2, ![k, d]⟩ φ₂)
    (p : Fin n) (c : Fin d) :
    FloatOps.matmul D prec lhs rhs (constant (F := Ideal) ⟨2, ![n, d]⟩ .f32 0x00000000#32) (ix2 p c)
      = ∑ q : Fin k, lhs (ix2 p q) * rhs (ix2 q c) := by
  subst hD
  exact Cert.LibDense.matmul_zero_apply (DotDims.plain n k d) plain_rank plain_size plain_lhs0 plain_lhs1 plain_rhs0 plain_rhs1
    prec lhs rhs p c

/-- A host `dot_general` under dimension numbers that are the plain ones, at (p, c). -/
theorem dotGeneral_apply {φ₁ φ₂ : FTy} (D : DotDims ⟨2, ![n, k]⟩ ⟨2, ![k, d]⟩ ⟨2, ![n, d]⟩) (hD : D = DotDims.plain n k d)
    (prec : Option ContractPrecision) (sched : HostSchedule)
    (lhs : FVec Ideal ⟨2, ![n, k]⟩ φ₁) (rhs : FVec Ideal ⟨2, ![k, d]⟩ φ₂) (p : Fin n) (c : Fin d) :
    FloatOps.dotGeneral D prec sched lhs rhs (ix2 p c) = ∑ q : Fin k, lhs (ix2 p q) * rhs (ix2 q c) := by
  subst hD
  exact Cert.LibDense.dotGeneral_apply (DotDims.plain n k d) plain_rank plain_size plain_lhs0 plain_lhs1 plain_rhs0 plain_rhs1
    prec sched lhs rhs p c

end Cert.LibPlainDot

end
-- ==== Proof.LibGcn.lean ====
/-
  Graph-convolution layers over the extended reals, for any sizes.

  One layer of a graph convolution multiplies a feature matrix Y by the adjacency matrix A, keeps the positive part,
  and multiplies by the next layer's weights W:  layer A Y W = (A · Y)⁺ · W.  The last layer stops at (A · Y)⁺.
  Read at the exact extended reals, where a change of float format is the identity:
    * a matrix-unit product into the zero accumulator and a host `dot_general`, under dimension numbers that are the
      plain ones (rows × inner times inner × columns), are the matrix product `mm` as whole arrays;
    * the maximum with a splat of the zero word, and with a rank-0 zero constant broadcast in dimension, is `relu`;
    * so a kernel body  truncf (matmul (truncf (max (matmul A Y 0) 0)) W 0)  is `layer A Y W`, and the host's
      max (dot_general A (dot_general Z W)) 0  is `relu (mm A (mm Z W))`.
  Entry (p, j) of `layer A Y W` and of `relu (mm A Y)` reads row p of A only: a block of rows of A gives the same rows
  of the result (`layer_rows`, `last_rows`).
-/
import Idealize.ShloMosaic.Lib.ValueIdx
import Idealize.ShloMosaic.Lib.Pipeline.Value
import Idealize.ShloMosaic.PureOps.Ideal.Laws
import proofs.«155691_j72499047956494_1_alg».proof.Proof.LibPlainDot
import proofs.«155691_j72499047956494_1_alg».proof.Proof.LibMatOps

noncomputable section

open scoped BigOperators

namespace Cert.LibGcn

open Idealize.ShloMosaic Idealize.ShloMosaic.ValueIdx Cert.Spec

variable {r n h e N : ℕ}

/-- (A · Y)⁺ · W. -/
def layer (A : Mat r n) (Y : Mat n h) (W : Mat h e) : Mat r e := mm (relu (mm A Y)) W

/-- A change of float format is the identity on the extended reals. -/
theorem truncf_eq {s : Shape} {φ ψ : FTy} (x : FVec Ideal s φ) (hlt : ψ.bits < φ.bits) :
    (truncf ψ x hlt : FVec Ideal s ψ) = x := rfl

/-- A matrix-unit product into the zero accumulator is the matrix product. -/
theorem matmul_zero_eq_mm {φ₁ φ₂ : FTy} (D : DotDims ⟨2, ![r, n]⟩ ⟨2, ![n, h]⟩ ⟨2, ![r, h]⟩) (hD : D = DotDims.plain r n h)
    (prec : Option ContractPrecision) (A : FVec Ideal ⟨2, ![r, n]⟩ φ₁) (Y : FVec Ideal ⟨2, ![n, h]⟩ φ₂) :
    matmul D prec A Y (constant (F := Ideal) ⟨2, ![r, h]⟩ .f32 0x00000000#32) = mm A Y := by
  funext i
  obtain ⟨p, c, rfl⟩ : ∃ (p : Fin r) (c : Fin h), i = ix2 p c := ⟨i 0, i 1, eq_ix2 i⟩
  exact (Cert.LibPlainDot.matmul_zero_apply D hD prec A Y p c).trans (mm_apply A Y p c).symm

/-- A host `dot_general` is the matrix product. -/
theorem dotGeneral_eq_mm {φ₁ φ₂ : FTy} (D : DotDims ⟨2, ![r, n]⟩ ⟨2, ![n, h]⟩ ⟨2, ![r, h]⟩) (hD : D = DotDims.plain r n h)
    (prec : Option ContractPrecision) (A : FVec Ideal ⟨2, ![r, n]⟩ φ₁) (Y : FVec Ideal ⟨2, ![n, h]⟩ φ₂) :
    Host.dotGeneral D prec A Y = mm A Y := by
  funext i
  obtain ⟨p, c, rfl⟩ : ∃ (p : Fin r) (c : Fin h), i = ix2 p c := ⟨i 0, i 1, eq_ix2 i⟩
  exact (Cert.LibPlainDot.dotGeneral_apply D hD prec .single A Y p c).trans (mm_apply A Y p c).symm

/-- The maximum with a splat of the zero word is the positive part. -/
theorem max_splat_zero (X : FVec Ideal ⟨2, ![r, h]⟩ .f32) :
    maximumf X (broadcast ⟨2, ![r, h]⟩ (Scalar.ofBits .f32 0x00000000#32 : Ideal .f32)) = relu X := by
  funext i
  show max (X i) (Ideal.ofBits .f32 0x00000000#32) = max (X i) 0
  rw [Ideal.ofBits_zero_f32]

/-- The maximum with a zero constant of any shape broadcast in dimension is the positive part. -/
theorem max_bcast_zero {s0 : Shape} (dims : Fin s0.rank → Fin (⟨2, ![r, h]⟩ : Shape).rank)
    (hb : s0.BroadcastsInDim ⟨2, ![r, h]⟩ dims) (X : FVec Ideal ⟨2, ![r, h]⟩ .f32) :
    maximumf X (broadcastInDim ⟨2, ![r, h]⟩ dims hb (constant (F := Ideal) s0 .f32 0x00000000#32)) = relu X := by
  funext i
  show max (X i) (broadcastInDim ⟨2, ![r, h]⟩ dims hb (constant (F := Ideal) s0 .f32 0x00000000#32) i) = max (X i) 0
  unfold broadcastInDim
  show max (X i) (Ideal.ofBits .f32 0x00000000#32) = max (X i) 0
  rw [Ideal.ofBits_zero_f32]

/-- The fused body of a middle layer: two matrix-unit products around the positive part. -/
theorem body_layer (D1 : DotDims ⟨2, ![r, n]⟩ ⟨2, ![n, h]⟩ ⟨2, ![r, h]⟩) (hD1 : D1 = DotDims.plain r n h)
    (D2 : DotDims ⟨2, ![r, h]⟩ ⟨2, ![h, e]⟩ ⟨2, ![r, e]⟩) (hD2 : D2 = DotDims.plain r h e)
    {φ₁ φ₂ φ₃ : FTy} (A : FVec Ideal ⟨2, ![r, n]⟩ φ₁) (Y : FVec Ideal ⟨2, ![n, h]⟩ φ₂) (W : FVec Ideal ⟨2, ![h, e]⟩ φ₃) :
    matmul D2 none (maximumf (matmul D1 none A Y (constant (F := Ideal) ⟨2, ![r, h]⟩ .f32 0x00000000#32))
        (broadcast ⟨2, ![r, h]⟩ (Scalar.ofBits .f32 0x00000000#32 : Ideal .f32))) W
      (constant (F := Ideal) ⟨2, ![r, e]⟩ .f32 0x00000000#32) = layer A Y W := by
  rw [matmul_zero_eq_mm D1 hD1, max_splat_zero]
  exact matmul_zero_eq_mm D2 hD2 none (relu (mm A Y)) W

/-- The body of the last layer: one matrix-unit product and the positive part. -/
theorem body_last (D1 : DotDims ⟨2, ![r, n]⟩ ⟨2, ![n, h]⟩ ⟨2, ![r, h]⟩) (hD1 : D1 = DotDims.plain r n h)
    {φ₁ φ₂ : FTy} (A : FVec Ideal ⟨2, ![r, n]⟩ φ₁) (Y : FVec Ideal ⟨2, ![n, h]⟩ φ₂) :
    maximumf (matmul D1 none A Y (constant (F := Ideal) ⟨2, ![r, h]⟩ .f32 0x00000000#32))
        (broadcast ⟨2, ![r, h]⟩ (Scalar.ofBits .f32 0x00000000#32 : Ideal .f32)) = relu (mm A Y) := by
  rw [matmul_zero_eq_mm D1 hD1, max_splat_zero]

/-- One host layer: the product with the weights, the product with the adjacency matrix, the positive part. -/
theorem host_layer {s0 : Shape} (DW : DotDims ⟨2, ![N, h]⟩ ⟨2, ![h, e]⟩ ⟨2, ![N, e]⟩) (hDW : DW = DotDims.plain N h e)
    (DA : DotDims ⟨2, ![r, N]⟩ ⟨2, ![N, e]⟩ ⟨2, ![r, e]⟩) (hDA : DA = DotDims.plain r N e)
    (dims : Fin s0.rank → Fin (⟨2, ![r, e]⟩ : Shape).rank) (hb : s0.BroadcastsInDim ⟨2, ![r, e]⟩ dims)
    (A : FVec Ideal ⟨2, ![r, N]⟩ .f32) (Z : FVec Ideal ⟨2, ![N, h]⟩ .f32) (W : FVec Ideal ⟨2, ![h, e]⟩ .f32) :
    maximumf (Host.dotGeneral DA none A (Host.dotGeneral DW none Z W))
        (broadcastInDim ⟨2, ![r, e]⟩ dims hb (constant (F := Ideal) s0 .f32 0x00000000#32)) = relu (mm A (mm Z W)) := by
  rw [dotGeneral_eq_mm DW hDW, dotGeneral_eq_mm DA hDA]
  exact max_bcast_zero dims hb _

/-- Row p of the matrix product reads row p of the left factor only. -/
theorem mm_rows (A' : Mat r n) (A : Mat N n) (Y : Mat n h) (p : Fin r) (p' : Fin N) (j : Fin h)
    (hA : ∀ s : Fin n, A' (ix2 p s) = A (ix2 p' s)) : mm A' Y (ix2 p j) = mm A Y (ix2 p' j) := by
  rw [mm_apply, mm_apply]
  exact Finset.sum_congr rfl fun s _ => by rw [hA s]

/-- Row p of a layer's result reads row p of the adjacency block only. -/
theorem layer_rows (A' : Mat r n) (A : Mat N n) (Y : Mat n h) (W : Mat h e) (p : Fin r) (p' : Fin N) (j : Fin e)
    (hA : ∀ s : Fin n, A' (ix2 p s) = A (ix2 p' s)) : layer A' Y W (ix2 p j) = layer A Y W (ix2 p' j) := by
  unfold layer
  rw [mm_apply, mm_apply]
  refine Finset.sum_congr rfl fun q _ => ?_
  rw [relu_apply, relu_apply, mm_rows A' A Y p p' q hA]

/-- The same for the last layer. -/
theorem last_rows (A' : Mat r n) (A : Mat N n) (Y : Mat n h) (p : Fin r) (p' : Fin N) (j : Fin h)
    (hA : ∀ s : Fin n, A' (ix2 p s) = A (ix2 p' s)) : relu (mm A' Y) (ix2 p j) = relu (mm A Y) (ix2 p' j) := by
  rw [relu_apply, relu_apply, mm_rows A' A Y p p' j hA]

end Cert.LibGcn

end
-- ==== Proof.LibBiasRow.lean ====
/-
  A bias vector as one row, and a row added to every row, for any sizes.

  A vector b of d entries becomes the one-row matrix whose entry (0, j) is b j either by a reshape ([d] viewed as [1, d])
  or by a broadcast in dimension along the second axis ([d] to [1, d] with dims = [1]): the same matrix. A one-row matrix
  broadcast in dimension to n rows (dims = [0, 1]) and added entry by entry to an n-row matrix is that row added to every
  row (`Cert.Spec.addRow`).
-/
import Idealize.ShloMosaic.Lib.ValueIdx
import Idealize.ShloMosaic.Lib.Pipeline.Value
import Idealize.ShloMosaic.PureOps.Ideal
import proofs.«155691_j72499047956494_1_alg».proof.Proof.LibMatOps

noncomputable section

namespace Cert.LibBiasRow

open Idealize.ShloMosaic Idealize.ShloMosaic.ValueIdx Cert.Spec

variable {α : Type} {n d : ℕ}

/-- A [d] vector viewed as [1, d] reads, at (u, j), the vector at j. -/
theorem shapeCast_d_1d_apply (x : (⟨1, ![d]⟩ : Shape).Idx → α) (h : (⟨1, ![d]⟩ : Shape).ShapeCasts ⟨2, ![1, d]⟩)
    (u : Fin 1) (j : Fin d) : shapeCast ⟨2, ![1, d]⟩ x h (ix2 u j) = x (ix1 j) :=
  shapeCast_apply x h _ _ (by
    have hu : u.val = 0 := by omega
    rw [Shape.rowMajor_val_two, Shape.rowMajor_val_one]
    show j.val = u.val * d + j.val
    rw [hu, Nat.zero_mul, Nat.zero_add])

/-- A [d] vector broadcast in dimension to [1, d] along the second axis reads, at (u, j), the vector at j. -/
theorem broadcastInDim_d_1d_apply (x : (⟨1, ![d]⟩ : Shape).Idx → α)
    (h : (⟨1, ![d]⟩ : Shape).BroadcastsInDim ⟨2, ![1, d]⟩ ![1]) (u : Fin 1) (j : Fin d) :
    broadcastInDim ⟨2, ![1, d]⟩ ![1] h x (ix2 u j) = x (ix1 j) := by
  refine broadcastInDim_apply _ h x (ix2 u j) (ix1 j) fun a => ?_
  match a with
  | ⟨0, _⟩ =>
    show j.val = if d = 1 then 0 else j.val
    split
    · have := j.isLt; omega
    · rfl

/-- The reshape and the broadcast in dimension give the same one-row matrix. -/
theorem shapeCast_eq_broadcastInDim (x : (⟨1, ![d]⟩ : Shape).Idx → α) (h : (⟨1, ![d]⟩ : Shape).ShapeCasts ⟨2, ![1, d]⟩)
    (hb : (⟨1, ![d]⟩ : Shape).BroadcastsInDim ⟨2, ![1, d]⟩ ![1]) :
    shapeCast ⟨2, ![1, d]⟩ x h = broadcastInDim ⟨2, ![1, d]⟩ ![1] hb x := by
  funext i
  obtain ⟨u, j, rfl⟩ : ∃ (u : Fin 1) (j : Fin d), i = ix2 u j := ⟨i 0, i 1, eq_ix2 i⟩
  rw [shapeCast_d_1d_apply, broadcastInDim_d_1d_apply]

/-- A one-row matrix broadcast in dimension to n rows reads, at (p, j), the row's entry j. -/
theorem broadcastInDim_1d_nd_apply (v : (⟨2, ![1, d]⟩ : Shape).Idx → α)
    (h : (⟨2, ![1, d]⟩ : Shape).BroadcastsInDim ⟨2, ![n, d]⟩ ![0, 1]) (p : Fin n) (j : Fin d) :
    broadcastInDim ⟨2, ![n, d]⟩ ![0, 1] h v (ix2 p j) = v (ix2 (0 : Fin 1) j) := by
  refine broadcastInDim_apply _ h v (ix2 p j) (ix2 (0 : Fin 1) j) fun a => ?_
  match a with
  | ⟨0, _⟩ =>
    show 0 = if 1 = 1 then 0 else p.val
    rfl
  | ⟨1, _⟩ =>
    show j.val = if d = 1 then 0 else j.val
    split
    · have := j.isLt; omega
    · rfl

/-- Adding the broadcast row entry by entry is adding the row to every row. -/
theorem addf_broadcastInDim_eq_addRow (X : FVec Ideal ⟨2, ![n, d]⟩ .f32) (Bv : FVec Ideal ⟨2, ![1, d]⟩ .f32)
    (h : (⟨2, ![1, d]⟩ : Shape).BroadcastsInDim ⟨2, ![n, d]⟩ ![0, 1]) :
    addf X (broadcastInDim ⟨2, ![n, d]⟩ ![0, 1] h Bv) = addRow X Bv := by
  funext i
  obtain ⟨p, j, rfl⟩ : ∃ (p : Fin n) (j : Fin d), i = ix2 p j := ⟨i 0, i 1, eq_ix2 i⟩
  show X (ix2 p j) + broadcastInDim ⟨2, ![n, d]⟩ ![0, 1] h Bv (ix2 p j) = _
  rw [broadcastInDim_1d_nd_apply, addRow_apply]

end Cert.LibBiasRow

end
-- ==== Proof.HostDense.lean ====
/-
  The host's spelling of one layer, and a layer computed over rows appended below.

  The host writes a layer as  max (((A · Wlᵀ) + bias row broadcast to every row) + X · Wrᵀ) 0 : two general matrix
  products under the plain dimension numbers (rows × inner times inner × columns), the bias vector made a one-row
  matrix and that row broadcast to all rows, the two sums, and (for the first layer) the maximum with a rank-0 zero
  broadcast to the whole shape.  Read over the extended reals each product is the matrix product, the broadcast row
  added entry by entry is the row added to every row, and the maximum with zero is the positive part: the host's term is
  `dense` of the same operands (`host_dense_act`, `host_dense_lin`).

  Row p of a layer reads row p of its two row operands only.  So if A' and X' have the rows of A and X as their
  first n rows (whatever lies below), the first n rows of the layer of A' and X' are the layer of A and X
  (`first_rows_dense`); and likewise for the row-wise inner product (`first_rows_rowDot`).
-/
import Idealize.ShloMosaic.Lib.ValueIdx
import Idealize.ShloMosaic.Lib.Pipeline.Value
import Idealize.ShloMosaic.PureOps.Ideal.Laws
import proofs.«155691_j72499047956494_1_alg».proof.Proof.SageSpec
import proofs.«155691_j72499047956494_1_alg».proof.Proof.LibGcn
import proofs.«155691_j72499047956494_1_alg».proof.Proof.LibBiasRow

noncomputable section

open scoped BigOperators

namespace Cert.Sage

open Idealize.ShloMosaic Idealize.ShloMosaic.ValueIdx Cert.Spec

variable {n n' k d : ℕ}

/-- The host's layer without the positive part. -/
theorem host_dense_lin (D : DotDims ⟨2, ![n, k]⟩ ⟨2, ![k, d]⟩ ⟨2, ![n, d]⟩) (hD : D = DotDims.plain n k d)
    (hb2 : (⟨2, ![1, d]⟩ : Shape).BroadcastsInDim ⟨2, ![n, d]⟩ ![0, 1])
    (A X : FVec Ideal ⟨2, ![n, k]⟩ .f32) (Wl Wr : FVec Ideal ⟨2, ![k, d]⟩ .f32) (B : FVec Ideal ⟨2, ![1, d]⟩ .f32) :
    addf (addf (Host.dotGeneral D none A Wl) (broadcastInDim ⟨2, ![n, d]⟩ ![0, 1] hb2 B)) (Host.dotGeneral D none X Wr)
      = dense false A X Wl Wr B := by
  rw [Cert.LibGcn.dotGeneral_eq_mm D hD, Cert.LibGcn.dotGeneral_eq_mm D hD, Cert.LibBiasRow.addf_broadcastInDim_eq_addRow]
  rfl

/-- The host's layer with the positive part. -/
theorem host_dense_act {s0 : Shape} (D : DotDims ⟨2, ![n, k]⟩ ⟨2, ![k, d]⟩ ⟨2, ![n, d]⟩) (hD : D = DotDims.plain n k d)
    (hb2 : (⟨2, ![1, d]⟩ : Shape).BroadcastsInDim ⟨2, ![n, d]⟩ ![0, 1])
    (dims : Fin s0.rank → Fin (⟨2, ![n, d]⟩ : Shape).rank) (hb0 : s0.BroadcastsInDim ⟨2, ![n, d]⟩ dims)
    (A X : FVec Ideal ⟨2, ![n, k]⟩ .f32) (Wl Wr : FVec Ideal ⟨2, ![k, d]⟩ .f32) (B : FVec Ideal ⟨2, ![1, d]⟩ .f32) :
    maximumf (addf (addf (Host.dotGeneral D none A Wl) (broadcastInDim ⟨2, ![n, d]⟩ ![0, 1] hb2 B)) (Host.dotGeneral D none X Wr))
        (broadcastInDim ⟨2, ![n, d]⟩ dims hb0 (constant (F := Ideal) s0 .f32 0x00000000#32))
      = dense true A X Wl Wr B := by
  rw [host_dense_lin D hD hb2, Cert.LibGcn.max_bcast_zero dims hb0]
  rfl

/-- The first n rows of a layer over operands whose first n rows are those of A and X. -/
theorem first_rows_dense (act : Bool) (hle : n ≤ n') (A X : Mat n k) (A' X' : Mat n' k) (Wl Wr : Mat k d) (B : Mat 1 d)
    (hA : ∀ (r : Fin n) (r' : Fin n') (q : Fin k), r'.val = r.val → A' (ix2 r' q) = A (ix2 r q))
    (hX : ∀ (r : Fin n) (r' : Fin n') (q : Fin k), r'.val = r.val → X' (ix2 r' q) = X (ix2 r q))
    (S : Mat n d) (hS : ∀ (r : Fin n) (r' : Fin n') (j : Fin d), r'.val = r.val → S (ix2 r j) = dense act A' X' Wl Wr B (ix2 r' j)) :
    S = dense act A X Wl Wr B := by
  funext i
  obtain ⟨r, j, rfl⟩ : ∃ (r : Fin n) (j : Fin d), i = ix2 r j := ⟨i 0, i 1, eq_ix2 i⟩
  have hr : r.val < n' := lt_of_lt_of_le r.isLt hle
  rw [hS r ⟨r.val, hr⟩ j rfl]
  exact dense_rows act A' X' A X Wl Wr B ⟨r.val, hr⟩ r j (fun q => hA r ⟨r.val, hr⟩ q rfl) (fun q => hX r ⟨r.val, hr⟩ q rfl)

/-- The first n entries of the row-wise inner product of arrays whose first n rows are those of P and T. -/
theorem first_rows_rowDot (hle : n ≤ n') (P T : Mat n k) (P' T' : Mat n' k)
    (hP : ∀ (r : Fin n) (r' : Fin n') (q : Fin k), r'.val = r.val → P' (ix2 r' q) = P (ix2 r q))
    (hT : ∀ (r : Fin n) (r' : Fin n') (q : Fin k), r'.val = r.val → T' (ix2 r' q) = T (ix2 r q))
    (S : Vec1 n) (hS : ∀ (r : Fin n) (r' : Fin n'), r'.val = r.val → S (ix1 r) = rowDot P' T' (ix1 r')) :
    S = rowDot P T := by
  funext i
  obtain ⟨r, rfl⟩ : ∃ r : Fin n, i = ix1 r := ⟨i 0, eq_ix1 i⟩
  have hr : r.val < n' := lt_of_lt_of_le r.isLt hle
  rw [hS r ⟨r.val, hr⟩ rfl]
  exact rowDot_rows P' T' P T ⟨r.val, hr⟩ r (fun q => hP r ⟨r.val, hr⟩ q rfl) (fun q => hT r ⟨r.val, hr⟩ q rfl)

end Cert.Sage

end
-- ==== Proof.RefLayers.lean ====
/-
  The reference program's four layers, each as the layer function of the stages before it.

  The reference computes each layer with two general matrix products against transposed weight matrices, the bias
  vector broadcast to every row, and (in the first layer) the maximum with zero.  Its stage functions — each buffer's
  value as a function of the program's arguments — therefore satisfy: the layer-one track features are
  `dense true` of (the mean of the playlist features over the edges, the track features); the layer-one playlist
  features `dense true` of (the mean of the track features, the playlist features); the layer-two features
  `dense false` of (the mean of the other side's layer-one features, the own layer-one features); every time with the
  transposed weights and the bias as one row.
-/
import proofs.«155691_j72499047956494_1_alg».proof.Proof.Gen.ReferenceIdeal.Read
import proofs.«155691_j72499047956494_1_alg».proof.Proof.HostDense

set_option maxRecDepth 16384

noncomputable section

namespace Cert.Sage.Ref

open Idealize.ShloMosaic
open Cert.ReferenceIdeal Cert.ReferenceIdeal.Gen Cert.ReferenceIdeal.Read

/-- Layer one, tracks. -/
theorem t1 (a0 : (⟨S100000, .i32⟩ : BufTy).Contents (Elt Ideal)) (a1 : (⟨S400000, .i32⟩ : BufTy).Contents (Elt Ideal)) (a2 : (⟨S100000x128, .f32⟩ : BufTy).Contents (Elt Ideal)) (a3 : (⟨S400000x128, .f32⟩ : BufTy).Contents (Elt Ideal)) (a4 : (⟨S2000000, .i32⟩ : BufTy).Contents (Elt Ideal)) (a5 : (⟨S2000000, .i32⟩ : BufTy).Contents (Elt Ideal)) (a8 : (⟨S128x128, .f32⟩ : BufTy).Contents (Elt Ideal)) (a9 : (⟨S128, .f32⟩ : BufTy).Contents (Elt Ideal)) (a10 : (⟨S128x128, .f32⟩ : BufTy).Contents (Elt Ideal)) :
    val_main_v41 (F := Ideal) a0 a1 a2 a3 a4 a5 a8 a9 a10 = Cert.Sage.dense true (val_main_v32 (F := Ideal) a0 a2 a4 a5) (val_main_v13 (F := Ideal) a1 a3) (transpose S128x128 [1, 0] a8 transposes_S128x128_S128x128_1_0) (transpose S128x128 [1, 0] a10 transposes_S128x128_S128x128_1_0)
        (broadcastInDim S1x128 ![1] bcast_S128_S1x128_1 a9) := by
  simp only [val_main_v41, val_main_v40, val_main_v37, val_main_v34, val_main_v33, val_main_v36, val_main_v35, val_main_v39, val_main_v38, val_main_call0_v0, val_main_call0_cst]
  exact Cert.Sage.host_dense_act (s0 := S_) dot_S400000x128_S128x128_S400000x128_1_0_0_1_n_n rfl bcast_S1x128_S400000x128_0_1 (fun a => a.elim0) bcast_S_S400000x128 _ _ _ _ _

/-- Layer one, playlists. -/
theorem p1 (a0 : (⟨S100000, .i32⟩ : BufTy).Contents (Elt Ideal)) (a1 : (⟨S400000, .i32⟩ : BufTy).Contents (Elt Ideal)) (a2 : (⟨S100000x128, .f32⟩ : BufTy).Contents (Elt Ideal)) (a3 : (⟨S400000x128, .f32⟩ : BufTy).Contents (Elt Ideal)) (a4 : (⟨S2000000, .i32⟩ : BufTy).Contents (Elt Ideal)) (a5 : (⟨S2000000, .i32⟩ : BufTy).Contents (Elt Ideal)) (a11 : (⟨S128x128, .f32⟩ : BufTy).Contents (Elt Ideal)) (a12 : (⟨S128, .f32⟩ : BufTy).Contents (Elt Ideal)) (a13 : (⟨S128x128, .f32⟩ : BufTy).Contents (Elt Ideal)) :
    val_main_v69 (F := Ideal) a0 a1 a2 a3 a4 a5 a11 a12 a13 = Cert.Sage.dense true (val_main_v60 (F := Ideal) a1 a3 a4 a5) (val_main_v6 (F := Ideal) a0 a2) (transpose S128x128 [1, 0] a11 transposes_S128x128_S128x128_1_0) (transpose S128x128 [1, 0] a13 transposes_S128x128_S128x128_1_0)
        (broadcastInDim S1x128 ![1] bcast_S128_S1x128_1 a12) := by
  simp only [val_main_v69, val_main_v68, val_main_v65, val_main_v62, val_main_v61, val_main_v64, val_main_v63, val_main_v67, val_main_v66, val_main_call1_v0, val_main_call1_cst]
  exact Cert.Sage.host_dense_act (s0 := S_) dot_S100000x128_S128x128_S100000x128_1_0_0_1_n_n rfl bcast_S1x128_S100000x128_0_1 (fun a => a.elim0) bcast_S_S100000x128 _ _ _ _ _

/-- Layer two, tracks. -/
theorem t2 (a0 : (⟨S100000, .i32⟩ : BufTy).Contents (Elt Ideal)) (a1 : (⟨S400000, .i32⟩ : BufTy).Contents (Elt Ideal)) (a2 : (⟨S100000x128, .f32⟩ : BufTy).Contents (Elt Ideal)) (a3 : (⟨S400000x128, .f32⟩ : BufTy).Contents (Elt Ideal)) (a4 : (⟨S2000000, .i32⟩ : BufTy).Contents (Elt Ideal)) (a5 : (⟨S2000000, .i32⟩ : BufTy).Contents (Elt Ideal)) (a8 : (⟨S128x128, .f32⟩ : BufTy).Contents (Elt Ideal)) (a9 : (⟨S128, .f32⟩ : BufTy).Contents (Elt Ideal)) (a10 : (⟨S128x128, .f32⟩ : BufTy).Contents (Elt Ideal)) (a11 : (⟨S128x128, .f32⟩ : BufTy).Contents (Elt Ideal)) (a12 : (⟨S128, .f32⟩ : BufTy).Contents (Elt Ideal)) (a13 : (⟨S128x128, .f32⟩ : BufTy).Contents (Elt Ideal)) (a14 : (⟨S128x128, .f32⟩ : BufTy).Contents (Elt Ideal)) (a15 : (⟨S128, .f32⟩ : BufTy).Contents (Elt Ideal)) (a16 : (⟨S128x128, .f32⟩ : BufTy).Contents (Elt Ideal)) :
    val_main_v96 (F := Ideal) a0 a1 a2 a3 a4 a5 a8 a9 a10 a11 a12 a13 a14 a15 a16 = Cert.Sage.dense false (val_main_v88 (F := Ideal) a0 a1 a2 a3 a4 a5 a11 a12 a13) (val_main_v41 (F := Ideal) a0 a1 a2 a3 a4 a5 a8 a9 a10) (transpose S128x128 [1, 0] a14 transposes_S128x128_S128x128_1_0) (transpose S128x128 [1, 0] a16 transposes_S128x128_S128x128_1_0)
        (broadcastInDim S1x128 ![1] bcast_S128_S1x128_1 a15) := by
  simp only [val_main_v96, val_main_v93, val_main_v90, val_main_v89, val_main_v92, val_main_v91, val_main_v95, val_main_v94]
  exact Cert.Sage.host_dense_lin dot_S400000x128_S128x128_S400000x128_1_0_0_1_n_n rfl bcast_S1x128_S400000x128_0_1 _ _ _ _ _

/-- Layer two, playlists. -/
theorem p2 (a0 : (⟨S100000, .i32⟩ : BufTy).Contents (Elt Ideal)) (a1 : (⟨S400000, .i32⟩ : BufTy).Contents (Elt Ideal)) (a2 : (⟨S100000x128, .f32⟩ : BufTy).Contents (Elt Ideal)) (a3 : (⟨S400000x128, .f32⟩ : BufTy).Contents (Elt Ideal)) (a4 : (⟨S2000000, .i32⟩ : BufTy).Contents (Elt Ideal)) (a5 : (⟨S2000000, .i32⟩ : BufTy).Contents (Elt Ideal)) (a8 : (⟨S128x128, .f32⟩ : BufTy).Contents (Elt Ideal)) (a9 : (⟨S128, .f32⟩ : BufTy).Contents (Elt Ideal)) (a10 : (⟨S128x128, .f32⟩ : BufTy).Contents (Elt Ideal)) (a11 : (⟨S128x128, .f32⟩ : BufTy).Contents (Elt Ideal)) (a12 : (⟨S128, .f32⟩ : BufTy).Contents (Elt Ideal)) (a13 : (⟨S128x128, .f32⟩ : BufTy).Contents (Elt Ideal)) (a17 : (⟨S128x128, .f32⟩ : BufTy).Contents (Elt Ideal)) (a18 : (⟨S128, .f32⟩ : BufTy).Contents (Elt Ideal)) (a19 : (⟨S128x128, .f32⟩ : BufTy).Contents (Elt Ideal)) :
    val_main_v123 (F := Ideal) a0 a1 a2 a3 a4 a5 a8 a9 a10 a11 a12 a13 a17 a18 a19 = Cert.Sage.dense false (val_main_v115 (F := Ideal) a0 a1 a2 a3 a4 a5 a8 a9 a10) (val_main_v69 (F := Ideal) a0 a1 a2 a3 a4 a5 a11 a12 a13) (transpose S128x128 [1, 0] a17 transposes_S128x128_S128x128_1_0) (transpose S128x128 [1, 0] a19 transposes_S128x128_S128x128_1_0)
        (broadcastInDim S1x128 ![1] bcast_S128_S1x128_1 a18) := by
  simp only [val_main_v123, val_main_v120, val_main_v117, val_main_v116, val_main_v119, val_main_v118, val_main_v122, val_main_v121]
  exact Cert.Sage.host_dense_lin dot_S100000x128_S128x128_S100000x128_1_0_0_1_n_n rfl bcast_S1x128_S100000x128_0_1 _ _ _ _ _

end Cert.Sage.Ref

end
-- ==== Proof.LibColumn.lean ====
/-
  Column vectors read at an index, for any sizes.

  A keepdims reduction leaves an `[a]` vector that is viewed as an `[a, 1]` column, a column is broadcast across `b`
  lanes, and a column is flattened back to `[a]`: each of these reads the operand at the row's one entry. A lane
  maximum of an `[a, b]` array from the word for -∞, at the extended reals, is the fold of `max` over the row's `b`
  entries from that word's value, and a lane sum from the zero word is the row's sum.
-/
import Idealize.ShloMosaic.Lib.Pipeline.Value
import Idealize.ShloMosaic.Lib.ValueIdx
import Idealize.ShloMosaic.Lib.ValueLayout
import Idealize.ShloMosaic.PureOps.Ideal.Laws

noncomputable section

namespace Idealize.ShloMosaic.LibColumn

open Idealize.ShloMosaic ValueIdx

variable {α : Type}

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector viewed as an `[a, 1]` column reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column flattened to `[a]` reads, at `p`, the column's entry of row `p`. -/
theorem shapeCast_a1_a_apply {a : ℕ} (x : (⟨2, ![a, 1]⟩ : Shape).Idx → α) (h : (⟨2, ![a, 1]⟩ : Shape).ShapeCasts ⟨1, ![a]⟩)
    (p : Fin a) : shapeCast ⟨1, ![a]⟩ x h (ix1 p) = x (ix2 p (0 : Fin 1)) :=
  shapeCast_apply x h _ _ (by
    rw [Shape.rowMajor_val_two, Shape.rowMajor_val_one]
    show p.val * 1 + 0 = p.val
    rw [Nat.mul_one, Nat.add_zero])

/-- Over result index `p`, the source index of a reduction of `[a, b]` along its lanes with lane coordinate `k` is `(p, k)`. -/
theorem lift_rows {a b : ℕ} (h : (⟨2, ![a, b]⟩ : Shape).Reduces [1] ⟨1, ![a]⟩) (p : Fin a) (k : Fin b) :
    h.lift (ix1 p) k = ix2 p k := by
  funext c
  apply Fin.ext
  show h.liftVal (ix1 p) k.val c = (ix2 p k c).val
  match c with
  | ⟨0, _⟩ => simp [Shape.Reduces.liftVal]
  | ⟨1, _⟩ => simp [Shape.Reduces.liftVal]

/-- A lane maximum of an f32 `[a, b]` array from the word of -∞, at the extended reals: the fold of `max` over the row. -/
theorem rowMax_f32 {a b : ℕ} (src : FVec Ideal ⟨2, ![a, b]⟩ .f32) (h : (⟨2, ![a, b]⟩ : Shape).Reduces [1] ⟨1, ![a]⟩)
    (hφ : FKind.Formats .f32) (hacc : (0xFF800000#32 : BitVec 32) = 0xFF800000#32) (p : Fin a) :
    multiReduction .maximumf [1] ⟨1, ![a]⟩ src 0xFF800000#32 h hφ hacc (ix1 p)
      = (Finset.univ : Finset (Fin b)).fold max (Ideal.ofBits .f32 0xFF800000#32) (fun k => src (ix2 p k)) := by
  refine (Ideal.multiReduction_maximumf_single src 0xFF800000#32 h hφ hacc (ix1 p)).trans ?_
  show (Finset.univ : Finset (Fin b)).fold max (Ideal.ofBits .f32 0xFF800000#32) (src ∘ h.lift (ix1 p)) = _
  refine Finset.fold_congr fun k _ => ?_
  exact congrArg src (lift_rows h p k)

/-- A lane sum of an f32 `[a, b]` array from the zero word, at the extended reals: the row's sum. -/
theorem rowSum_f32 {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  show ∑ k : Fin b, src (h.lift (ix1 p) k) = _
  exact Finset.sum_congr rfl fun k _ => congrArg src (lift_rows h p k)

end Idealize.ShloMosaic.LibColumn

end
-- ==== Proof.HostRowDot.lean ====
/-
  The host's row-wise inner product is the specification's.

  The reference ends with two operations: the entry-by-entry product of two arrays a and b of n rows and k columns, and
  the sum of that product along each row, started from the constant zero.  Over the extended reals the host's sum along
  one axis is the initial value plus the sum over that axis's coordinates; the source index of row p with coordinate q is
  (p, q); the zero word's value is 0 and 0 + s = s.  So entry p of the result is the sum over q of a (p, q) · b (p, q),
  which is `Cert.Sage.rowDot a b` at p.  No finiteness is needed: only 0 + s = s is used.

  Stated for any n and k, with the shape fact of the reduction and the non-emptiness of the constant's shape as
  arguments, so that it applies to the operation as printed over named literal shapes.
-/
import Idealize.ShloMosaic.Lib.ValueIdx
import Idealize.ShloMosaic.PureOps.Ideal.Laws
import proofs.«155691_j72499047956494_1_alg».proof.Proof.LibColumn
import proofs.«155691_j72499047956494_1_alg».proof.Proof.SageSpec

noncomputable section

open scoped BigOperators

namespace Cert.Sage.HostRowDot

open Idealize.ShloMosaic Idealize.ShloMosaic.ValueIdx Cert.Spec

/-- The host's sum along the rows of a product, from the constant zero, is the row-wise inner product. -/
theorem reduceAdd_mulf_eq_rowDot {n k : ℕ} (a b : FVec Ideal ⟨2, ![n, k]⟩ .f32) {u : Shape}
    (h' : (⟨2, ![n, k]⟩ : Shape).ReducesTo [1] ⟨1, ![n]⟩) (hu : 0 < u.numel) :
    Host.reduceAdd (F := Ideal) (mulf a b) (constant (F := Ideal) u .f32 0x00000000#32) h' hu = Cert.Sage.rowDot a b := by
  funext i
  obtain ⟨p, rfl⟩ : ∃ p : Fin n, i = ix1 p := ⟨i 0, eq_ix1 i⟩
  have hR : (⟨2, ![n, k]⟩ : Shape).Reduces [1] ⟨1, ![n]⟩ := ⟨h'.1, Nat.one_pos, h'.2⟩
  show Ideal.hostReduceAdd h' (mulf a b) (Ideal.ofBits .f32 0x00000000#32) (ix1 p) = _
  rw [Ideal.hostReduceAdd_single h' hR, Ideal.ofBits_zero_f32, zero_add, Cert.Sage.rowDot_apply]
  show ∑ q : Fin k, mulf a b (hR.lift (ix1 p) q) = _
  refine Finset.sum_congr rfl fun q _ => ?_
  rw [LibColumn.lift_rows hR p q]
  rfl

end Cert.Sage.HostRowDot

end
-- ==== Proof.RefOut.lean ====
/-
  The reference program's result as the row-wise inner product.

  The reference multiplies the label edges' playlist rows and track rows entry by entry and sums each row from zero: its
  result, as a function of the arguments, is the row-wise inner product of those two stages.
-/
import proofs.«155691_j72499047956494_1_alg».proof.Proof.Gen.ReferenceIdeal.Read
import proofs.«155691_j72499047956494_1_alg».proof.Proof.HostRowDot

set_option maxRecDepth 16384

noncomputable section

namespace Cert.Sage.Ref

open Idealize.ShloMosaic
open Cert.ReferenceIdeal Cert.ReferenceIdeal.Gen Cert.ReferenceIdeal.Read

theorem out (a0 : (⟨S100000, .i32⟩ : BufTy).Contents (Elt Ideal)) (a1 : (⟨S400000, .i32⟩ : BufTy).Contents (Elt Ideal)) (a2 : (⟨S100000x128, .f32⟩ : BufTy).Contents (Elt Ideal)) (a3 : (⟨S400000x128, .f32⟩ : BufTy).Contents (Elt Ideal)) (a4 : (⟨S2000000, .i32⟩ : BufTy).Contents (Elt Ideal)) (a5 : (⟨S2000000, .i32⟩ : BufTy).Contents (Elt Ideal)) (a6 : (⟨S500000, .i32⟩ : BufTy).Contents (Elt Ideal)) (a7 : (⟨S500000, .i32⟩ : BufTy).Contents (Elt Ideal)) (a8 : (⟨S128x128, .f32⟩ : BufTy).Contents (Elt Ideal)) (a9 : (⟨S128, .f32⟩ : BufTy).Contents (Elt Ideal)) (a10 : (⟨S128x128, .f32⟩ : BufTy).Contents (Elt Ideal)) (a11 : (⟨S128x128, .f32⟩ : BufTy).Contents (Elt Ideal)) (a12 : (⟨S128, .f32⟩ : BufTy).Contents (Elt Ideal)) (a13 : (⟨S128x128, .f32⟩ : BufTy).Contents (Elt Ideal)) (a14 : (⟨S128x128, .f32⟩ : BufTy).Contents (Elt Ideal)) (a15 : (⟨S128, .f32⟩ : BufTy).Contents (Elt Ideal)) (a16 : (⟨S128x128, .f32⟩ : BufTy).Contents (Elt Ideal)) (a17 : (⟨S128x128, .f32⟩ : BufTy).Contents (Elt Ideal)) (a18 : (⟨S128, .f32⟩ : BufTy).Contents (Elt Ideal)) (a19 : (⟨S128x128, .f32⟩ : BufTy).Contents (Elt Ideal)) :
    val_main_v139 (F := Ideal) a0 a1 a2 a3 a4 a5 a6 a7 a8 a9 a10 a11 a12 a13 a14 a15 a16 a17 a18 a19
      = Cert.Sage.rowDot (val_main_v130 (F := Ideal) a0 a1 a2 a3 a4 a5 a6 a8 a9 a10 a11 a12 a13 a17 a18 a19) (val_main_v137 (F := Ideal) a0 a1 a2 a3 a4 a5 a7 a8 a9 a10 a11 a12 a13 a14 a15 a16) := by
  simp only [val_main_v139, val_main_v138, val_main_cst_30]
  exact Cert.Sage.HostRowDot.reduceAdd_mulf_eq_rowDot _ _ reducesTo_S500000x128_S500000_d1 h_S_

end Cert.Sage.Ref

end
-- ==== Proof.LibPadSlice.lean ====
/-
  Zero rows appended below a matrix, and the first rows kept: both read at an index, for any sizes and any element type.

  (a) `pad_rows_apply`: a matrix x of n rows and d columns is padded to n' rows by appending rows below it (low padding
      [0, 0], high padding [e, 0], no interior padding: the padded shape's fact says n' = n + e).  Entry (r, j) of the
      padded matrix with r < n is x (r, j): the index lies inside the operand on both axes, so the padding value is
      never read.  The row is given twice, as r : Fin n' (a row of the padded matrix) and r' : Fin n (the same row of
      x), linked by r.val = r'.val.  `pad_rows_below_apply` reads the rows from n on: they hold the padding value.
  (b) `slice_rows_apply`: the first n rows of a matrix y of n' rows (a unit-stride slice from [0, 0]) read at (r, j)
      are y (r', j), r' the same row as a row of y.
  (c) `slice_vec_apply`: the first n entries of a vector y of n' entries (a unit-stride slice from [0]) read at r are
      y r'.
  (d) `slice_pad_rows`: rows appended and then cut off again give back the matrix — stated entry by entry through (a)
      and (b) for a padded matrix of any height between.

  Indices are built from their coordinates (`ix2`, `ix1`), the sizes are variables, and the shape facts of the padding
  and of the slice are hypotheses, so each lemma applies to an operation printed over named literal shapes.
-/
import Idealize.ShloMosaic.Lib.ValueLayout
import Idealize.ShloMosaic.Lib.KernelVsHost

namespace Cert.LibPadSlice

open Idealize.ShloMosaic Idealize.ShloMosaic.ValueIdx

variable {α : Type}

/-- Rows appended below a matrix: entry (r, j) of the padded matrix, r a row of the operand, is the operand's. -/
theorem pad_rows_apply {n n' d e : Nat} (x : (⟨2, ![n, d]⟩ : Shape).Idx → α) {u : Shape} (v : u.Idx → α)
    (h : (⟨2, ![n, d]⟩ : Shape).Pads (![0, 0] : Fin 2 → Nat) ![e, 0] ![0, 0] ⟨2, ![n', d]⟩) (hu : 0 < u.numel)
    (r : Fin n') (j : Fin d) (r' : Fin n) (hr : r.val = r'.val) :
    pad ⟨2, ![n', d]⟩ ![0, 0] ![e, 0] ![0, 0] x v h hu (ix2 r j) = x (ix2 r' j) :=
  pad_apply_of_inside _ _ _ x v h hu (ix2 r j) (ix2 r' j) (fun a => by
    match a with
    | ⟨0, _⟩ => show r.val = 0 + r'.val * (0 + 1); omega
    | ⟨1, _⟩ => show j.val = 0 + j.val * (0 + 1); omega)

/-- Rows appended below a matrix: an entry in an appended row is the padding value. -/
theorem pad_rows_below_apply {n n' d e : Nat} (x : (⟨2, ![n, d]⟩ : Shape).Idx → α) {u : Shape} (v : u.Idx → α)
    (h : (⟨2, ![n, d]⟩ : Shape).Pads (![0, 0] : Fin 2 → Nat) ![e, 0] ![0, 0] ⟨2, ![n', d]⟩) (hu : 0 < u.numel)
    (r : Fin n') (j : Fin d) (hr : n ≤ r.val) :
    pad ⟨2, ![n', d]⟩ ![0, 0] ![e, 0] ![0, 0] x v h hu (ix2 r j) = v (Shape.Idx.first hu) :=
  pad_apply_of_not_inside _ _ _ x v h hu (ix2 r j) (0 : Fin 2) (by
    show ¬(0 ≤ r.val ∧ (r.val - 0) % (0 + 1) = 0 ∧ (r.val - 0) / (0 + 1) < n)
    rw [Nat.sub_zero, Nat.div_one]
    exact fun hh => absurd hh.2.2 (Nat.not_lt.mpr hr))

/-- The first n rows of a matrix: entry (r, j) of the slice is the matrix's. -/
theorem slice_rows_apply {n n' d : Nat} (y : (⟨2, ![n', d]⟩ : Shape).Idx → α)
    (h : (⟨2, ![n', d]⟩ : Shape).Slices ![0, 0] ⟨2, ![n, d]⟩) (r : Fin n) (j : Fin d) (r' : Fin n') (hr : r'.val = r.val) :
    extractStridedSlice ⟨2, ![n, d]⟩ ![0, 0] y h (ix2 r j) = y (ix2 r' j) :=
  slice2_axis0_apply 0 y h r j r' (by omega)

/-- The first n entries of a vector: entry r of the slice is the vector's. -/
theorem slice_vec_apply {n n' : Nat} (y : (⟨1, ![n']⟩ : Shape).Idx → α)
    (h : (⟨1, ![n']⟩ : Shape).Slices ![0] ⟨1, ![n]⟩) (r : Fin n) (r' : Fin n') (hr : r'.val = r.val) :
    extractStridedSlice ⟨1, ![n]⟩ ![0] y h (ix1 r) = y (ix1 r') :=
  extractStridedSlice_apply _ _ _ _ _ (fun ax => by
    match ax with
    | ⟨0, _⟩ => show r'.val = 0 + r.val; omega)

/-- The bound that makes a row of the slice a row of the sliced matrix, read off the slice's own shape fact. -/
theorem slice_rows_le {n n' d : Nat} (h : (⟨2, ![n', d]⟩ : Shape).Slices ![0, 0] ⟨2, ![n, d]⟩) : n ≤ n' := by
  have := h.2 (0 : Fin 2)
  have e : (0 : Nat) + n ≤ n' := this
  omega

/-- The bound that makes an entry of the slice an entry of the sliced vector. -/
theorem slice_vec_le {n n' : Nat} (h : (⟨1, ![n']⟩ : Shape).Slices ![0] ⟨1, ![n]⟩) : n ≤ n' := by
  have := h.2 (0 : Fin 1)
  have e : (0 : Nat) + n ≤ n' := this
  omega

/-- Rows appended below a matrix and the first n rows kept again: the matrix itself. -/
theorem slice_pad_rows {n n' d e : Nat} (x : (⟨2, ![n, d]⟩ : Shape).Idx → α) {u : Shape} (v : u.Idx → α)
    (hp : (⟨2, ![n, d]⟩ : Shape).Pads (![0, 0] : Fin 2 → Nat) ![e, 0] ![0, 0] ⟨2, ![n', d]⟩) (hu : 0 < u.numel)
    (hs : (⟨2, ![n', d]⟩ : Shape).Slices ![0, 0] ⟨2, ![n, d]⟩) :
    extractStridedSlice ⟨2, ![n, d]⟩ ![0, 0] (pad ⟨2, ![n', d]⟩ ![0, 0] ![e, 0] ![0, 0] x v hp hu) hs = x := by
  funext i
  obtain ⟨r, j, rfl⟩ : ∃ (r : Fin n) (j : Fin d), i = ix2 r j := ⟨i 0, i 1, eq_ix2 i⟩
  have hle := slice_rows_le hs
  rw [slice_rows_apply _ hs r j ⟨r.val, by omega⟩ rfl]
  exact pad_rows_apply x v hp hu _ j r rfl

end Cert.LibPadSlice
-- ==== Proof.LayerBridge.lean ====
/-
  Padding below, a layer, and the first rows kept: the layer of the unpadded operands.

  The kernel program appends zero rows below the two row operands of a layer so that the rows fill whole blocks,
  computes the layer on the padded operands, and keeps the first n rows of the result.  Row p of a layer reads row p
  of each row operand only, and row p of a padded operand, p below n, is row p of the operand: so what is kept is the
  layer of the unpadded operands (`slice_dense_pad`), whatever value the appended rows hold.  The same holds for the
  row-wise inner product (`slice_rowDot_pad`).
-/
import proofs.«155691_j72499047956494_1_alg».proof.Proof.HostDense
import proofs.«155691_j72499047956494_1_alg».proof.Proof.LibPadSlice

noncomputable section

namespace Cert.Sage

open Idealize.ShloMosaic Idealize.ShloMosaic.ValueIdx Cert.Spec Cert.LibPadSlice

variable {n n' k d e : ℕ}

theorem slice_dense_pad (act : Bool) (A X : Mat n k) (Wl Wr : Mat k d) (B : Mat 1 d) {u u' : Shape} (v : u.Idx → EReal) (v' : u'.Idx → EReal)
    (hp : (⟨2, ![n, k]⟩ : Shape).Pads (![0, 0] : Fin 2 → Nat) ![e, 0] ![0, 0] ⟨2, ![n', k]⟩) (hu : 0 < u.numel) (hu' : 0 < u'.numel)
    (hs : (⟨2, ![n', d]⟩ : Shape).Slices ![0, 0] ⟨2, ![n, d]⟩) :
    extractStridedSlice ⟨2, ![n, d]⟩ ![0, 0]
        (dense act (pad ⟨2, ![n', k]⟩ ![0, 0] ![e, 0] ![0, 0] A v hp hu) (pad ⟨2, ![n', k]⟩ ![0, 0] ![e, 0] ![0, 0] X v' hp hu') Wl Wr B) hs
      = dense act A X Wl Wr B :=
  (first_rows_dense act (slice_rows_le hs) A X _ _ Wl Wr B
    (fun r r' q h => pad_rows_apply A v hp hu r' q r h) (fun r r' q h => pad_rows_apply X v' hp hu' r' q r h) _
    (fun r r' j h => slice_rows_apply _ hs r j r' h))

theorem slice_rowDot_pad (P T : Mat n k) {u u' : Shape} (v : u.Idx → EReal) (v' : u'.Idx → EReal)
    (hp : (⟨2, ![n, k]⟩ : Shape).Pads (![0, 0] : Fin 2 → Nat) ![e, 0] ![0, 0] ⟨2, ![n', k]⟩) (hu : 0 < u.numel) (hu' : 0 < u'.numel)
    (hs : (⟨1, ![n']⟩ : Shape).Slices ![0] ⟨1, ![n]⟩) :
    extractStridedSlice ⟨1, ![n]⟩ ![0]
        (rowDot (pad ⟨2, ![n', k]⟩ ![0, 0] ![e, 0] ![0, 0] P v hp hu) (pad ⟨2, ![n', k]⟩ ![0, 0] ![e, 0] ![0, 0] T v' hp hu')) hs
      = rowDot P T :=
  (first_rows_rowDot (slice_vec_le hs) P T _ _
    (fun r r' q h => pad_rows_apply P v hp hu r' q r h) (fun r r' q h => pad_rows_apply T v' hp hu' r' q r h) _
    (fun r r' h => slice_vec_apply _ hs r r' h))

end Cert.Sage

end
-- ==== Proof.DenseBody.lean ====
/-
  The body of one dense layer on a block of 4096 rows, read at the exact extended reals.

  The body loads a block A of 4096 rows of the neighbours' means, the block X of the same rows of the nodes' own
  features, the two 128 × 128 weight matrices and the bias vector, and stores
      ((A · Wlᵀ + b) + X · Wrᵀ),      followed in the first two layers by the maximum with zero.
  At the extended reals a change of float format is the identity, a reshape to the same shape is the identity, a
  matrix-unit product into the zero accumulator under the plain dimension numbers is the matrix product, the bias
  viewed as one row, repeated over the 4096 rows and added entry by entry, is that row added to every row, and the
  maximum with a splat of zero is the positive part.  So the stored block is the layer `Cert.Sage.dense` of the two
  blocks, with the transposed weight matrices kept as the printed transposes (they are never read here) and the bias
  kept as the printed one-row view.
-/
import Idealize.ShloMosaic.Lib.ValueIdx
import Idealize.ShloMosaic.Lib.ValueLayout
import Idealize.ShloMosaic.Lib.Pipeline.Value
import Idealize.ShloMosaic.PureOps.Ideal.Laws
import proofs.«155691_j72499047956494_1_alg».proof.Proof.Gen.KernelIdeal.Skeleton
import proofs.«155691_j72499047956494_1_alg».proof.Proof.LibGcn
import proofs.«155691_j72499047956494_1_alg».proof.Proof.SageSpec

noncomputable section

open scoped BigOperators

namespace Cert.Sage.DenseRegion

open Idealize.ShloMosaic Idealize.ShloMosaic.ValueIdx Cert.Spec Cert.Sage
open Cert.KernelIdeal Cert.KernelIdeal.Gen

/-- A one-row matrix repeated over n rows and added entry by entry is that row added to every row. -/
theorem addf_broadcastTo_eq_addRow {n d : ℕ} (X : FVec Ideal ⟨2, ![n, d]⟩ .f32) (Bv : FVec Ideal ⟨2, ![1, d]⟩ .f32)
    (h : (⟨2, ![1, d]⟩ : Shape).Broadcasts ⟨2, ![n, d]⟩) :
    addf X (broadcastTo ⟨2, ![n, d]⟩ Bv h) = addRow X Bv := by
  funext i
  obtain ⟨p, j, rfl⟩ : ∃ (p : Fin n) (j : Fin d), i = ix2 p j := ⟨i 0, i 1, eq_ix2 i⟩
  show X (ix2 p j) + broadcastTo ⟨2, ![n, d]⟩ Bv h (ix2 p j) = _
  rw [broadcastTo_1b_ab_apply, addRow_apply]

/-- The block the body of a layer without the positive part stores: (A · Wlᵀ + b) + X · Wrᵀ of its two row blocks. -/
theorem body_lin (x0 x1 : FVec Ideal S4096x128 .f32) (wl wr : FVec Ideal S128x128 .f32) (b : FVec Ideal S128 .f32) :
    addf (addf (matmul dot_S4096x128_S128x128_S4096x128_1_0_0_1_n_n none x0
            (transpose S128x128 [1, 0] wl transposes_S128x128_p1_0_S128x128) (constant (F := Ideal) S4096x128 .f32 0x00000000#32))
          (broadcastTo S4096x128 (shapeCast S1x128 b shapeCasts_S128_S1x128) broadcasts_S1x128_S4096x128))
        (matmul dot_S4096x128_S128x128_S4096x128_1_0_0_1_n_n none x1
            (transpose S128x128 [1, 0] wr transposes_S128x128_p1_0_S128x128) (constant (F := Ideal) S4096x128 .f32 0x00000000#32))
      = lin (n := 4096) (k := 128) (d := 128) x0 x1 (transpose S128x128 [1, 0] wl transposes_S128x128_p1_0_S128x128)
          (transpose S128x128 [1, 0] wr transposes_S128x128_p1_0_S128x128) (shapeCast S1x128 b shapeCasts_S128_S1x128) := by
  rw [Cert.LibGcn.matmul_zero_eq_mm (r := 4096) (n := 128) (h := 128) dot_S4096x128_S128x128_S4096x128_1_0_0_1_n_n rfl,
    Cert.LibGcn.matmul_zero_eq_mm (r := 4096) (n := 128) (h := 128) dot_S4096x128_S128x128_S4096x128_1_0_0_1_n_n rfl,
    addf_broadcastTo_eq_addRow]
  rfl

/-- The payload of regions 0 and 1 (the same text): the layer with the positive part, of the two row blocks. -/
theorem pay0_eq (x0 x1 : Vec Ideal S4096x128 .f32) (wl wr : Vec Ideal S128x128 .f32) (b : Vec Ideal S128 .f32) :
    k0_pay1 (F := Ideal) x0 x1 wl wr b
      = dense (n := 4096) (k := 128) (d := 128) true x0 x1 (transpose S128x128 [1, 0] wl transposes_S128x128_p1_0_S128x128)
          (transpose S128x128 [1, 0] wr transposes_S128x128_p1_0_S128x128) (shapeCast S1x128 b shapeCasts_S128_S1x128) := by
  rw [dense_true, ← body_lin, ← Cert.LibGcn.max_splat_zero]
  unfold k0_pay1
  simp only [shapeCast_self]
  rfl

theorem pay1_eq (x0 x1 : Vec Ideal S4096x128 .f32) (wl wr : Vec Ideal S128x128 .f32) (b : Vec Ideal S128 .f32) :
    k1_pay1 (F := Ideal) x0 x1 wl wr b
      = dense (n := 4096) (k := 128) (d := 128) true x0 x1 (transpose S128x128 [1, 0] wl transposes_S128x128_p1_0_S128x128)
          (transpose S128x128 [1, 0] wr transposes_S128x128_p1_0_S128x128) (shapeCast S1x128 b shapeCasts_S128_S1x128) := by
  rw [dense_true, ← body_lin, ← Cert.LibGcn.max_splat_zero]
  unfold k1_pay1
  simp only [shapeCast_self]
  rfl

/-- The payload of regions 2 and 3 (the same text): the layer without the positive part. -/
theorem pay2_eq (x0 x1 : Vec Ideal S4096x128 .f32) (wl wr : Vec Ideal S128x128 .f32) (b : Vec Ideal S128 .f32) :
    k2_pay1 (F := Ideal) x0 x1 wl wr b
      = dense (n := 4096) (k := 128) (d := 128) false x0 x1 (transpose S128x128 [1, 0] wl transposes_S128x128_p1_0_S128x128)
          (transpose S128x128 [1, 0] wr transposes_S128x128_p1_0_S128x128) (shapeCast S1x128 b shapeCasts_S128_S1x128) := by
  rw [dense_false, ← body_lin]
  unfold k2_pay1
  simp only [shapeCast_self]
  rfl

theorem pay3_eq (x0 x1 : Vec Ideal S4096x128 .f32) (wl wr : Vec Ideal S128x128 .f32) (b : Vec Ideal S128 .f32) :
    k3_pay1 (F := Ideal) x0 x1 wl wr b
      = dense (n := 4096) (k := 128) (d := 128) false x0 x1 (transpose S128x128 [1, 0] wl transposes_S128x128_p1_0_S128x128)
          (transpose S128x128 [1, 0] wr transposes_S128x128_p1_0_S128x128) (shapeCast S1x128 b shapeCasts_S128_S1x128) := by
  rw [dense_false, ← body_lin]
  unfold k3_pay1
  simp only [shapeCast_self]
  rfl

end Cert.Sage.DenseRegion

end
-- ==== Proof.DenseRegion0.lean ====
/-
  The array a dense layer's pipeline leaves, as one function of the arrays it finds (region 0).

  The 401408 rows are cut into 98 blocks of 4096 rows.  At point t of the grid the pipeline stages rows
  4096·t … 4096·t + 4095 of the neighbours' means and of the nodes' own features, and the two weight matrices and
  the bias whole (their block index is 0 at every point); the body stores the layer of the two row blocks, and that
  block is written back to rows 4096·t … 4096·t + 4095 of the result.  Row r of the layer of the whole arrays reads
  row r of the means and of the features only (`Cert.Sage.dense_rows`), so the block written back at point t is block
  t of the layer of the whole arrays; the point that covers row r is r / 4096, so the blocks cover the result, which
  therefore ends holding the layer of the whole arrays.
-/
import Idealize.ShloMosaic.Lib.Pipeline.Value
import Idealize.ShloMosaic.Lib.Tactic
import proofs.«155691_j72499047956494_1_alg».proof.Proof.Gen.KernelIdeal.Frame
import proofs.«155691_j72499047956494_1_alg».proof.Proof.DenseBody

set_option maxRecDepth 16384

noncomputable section

open Idealize.ShloMosaic Idealize.ShloMosaic.TcCoe Idealize.SL.Sem Idealize.ShloMosaic.ValueIdx
open Idealize.ShloMosaic.Pipeline (Dat)

namespace Cert.Sage.DenseRegion

open Cert.KernelIdeal Cert.KernelIdeal.Gen Cert.Spec Cert.Sage

variable (V : (c : Dev nD) → (b : Ref sig .tc) → Buf (Elt Ideal) ((c : Thread nD τ).loc b))

theorem hz2_0 : (![0, 0] : Fin 2 → Nat) = fun _ => 0 := funext fun a => by fin_cases a <;> rfl
theorem hz1_0 : (![0] : Fin 1 → Nat) = fun _ => 0 := funext fun a => by fin_cases a <;> rfl

/-- The layer of the whole arrays as region 0 finds them. -/
abbrev layer0 (c : Dev nD) : Mat 401408 128 :=
  dense (n := 401408) (k := 128) (d := 128) true (V c (Pipeline.arrRef spec0 0)) (V c (Pipeline.arrRef spec0 1))
    (transpose S128x128 [1, 0] (V c (Pipeline.arrRef spec0 2)) transposes_S128x128_p1_0_S128x128)
    (transpose S128x128 [1, 0] (V c (Pipeline.arrRef spec0 4)) transposes_S128x128_p1_0_S128x128)
    (shapeCast S1x128 (V c (Pipeline.arrRef spec0 3)) shapeCasts_S128_S1x128)

/-- The printed index maps, decided over the grid: the two row windows and the result's window are at block (t, 0)
    at point t, the weights' and the bias's windows at block 0. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row y of the means' block at point t is row 4096·t + y of the means. -/
theorem emb0_0 (t : Fin cfg0.N) (y : Fin 4096) (q : Fin 128) (r : Fin 401408) (hr : r.val = 4096 * t.val + y.val) :
    ((cfg0.win 0).blk t).view.emb (ix2 y q) = (ix2 r q : S401408x128.Idx) := by
  obtain ⟨e0, e1, -⟩ := idx0 t
  funext a; apply Fin.ext
  match a with
  | ⟨0, _⟩ => show win0_0.index t (0 : Fin 2) * 4096 + 1 * y.val = r.val; rw [e0, hr]; omega
  | ⟨1, _⟩ => show win0_0.index t (1 : Fin 2) * 128 + 1 * q.val = q.val; rw [e1]; omega

/-- The same for the features' block. -/
theorem emb0_1 (t : Fin cfg0.N) (y : Fin 4096) (q : Fin 128) (r : Fin 401408) (hr : r.val = 4096 * t.val + y.val) :
    ((cfg0.win 1).blk t).view.emb (ix2 y q) = (ix2 r q : S401408x128.Idx) := by
  obtain ⟨-, -, e0, e1, -⟩ := idx0 t
  funext a; apply Fin.ext
  match a with
  | ⟨0, _⟩ => show win0_1.index t (0 : Fin 2) * 4096 + 1 * y.val = r.val; rw [e0, hr]; omega
  | ⟨1, _⟩ => show win0_1.index t (1 : Fin 2) * 128 + 1 * q.val = q.val; rw [e1]; omega

/-- The same for the result's block. -/
theorem emb0_5 (t : Fin cfg0.N) (y : Fin 4096) (q : Fin 128) (r : Fin 401408) (hr : r.val = 4096 * t.val + y.val) :
    ((cfg0.win 5).blk t).view.emb (ix2 y q) = (ix2 r q : S401408x128.Idx) := by
  obtain ⟨-, -, -, -, -, -, -, -, -, e0, e1⟩ := idx0 t
  funext a; apply Fin.ext
  match a with
  | ⟨0, _⟩ => show win0_5.index t (0 : Fin 2) * 4096 + 1 * y.val = r.val; rw [e0, hr]; omega
  | ⟨1, _⟩ => show win0_5.index t (1 : Fin 2) * 128 + 1 * q.val = q.val; rw [e1]; omega

/-- The means' block at point t, row by row. -/
theorem blk0_0_apply (c : Dev nD) (t : Fin cfg0.N) (y : Fin 4096) (q : Fin 128) (r : Fin 401408)
    (hr : r.val = 4096 * t.val + y.val) :
    (iblk0 (F := Ideal) V c 0 t : Mat 4096 128) (ix2 y q) = (V c (Pipeline.arrRef spec0 0) : Mat 401408 128) (ix2 r q) := by
  unfold iblk0
  rw [View.read_apply, emb0_0 t y q r hr]
  rfl

/-- The features' block at point t, row by row. -/
theorem blk0_1_apply (c : Dev nD) (t : Fin cfg0.N) (y : Fin 4096) (q : Fin 128) (r : Fin 401408)
    (hr : r.val = 4096 * t.val + y.val) :
    (iblk0 (F := Ideal) V c 1 t : Mat 4096 128) (ix2 y q) = (V c (Pipeline.arrRef spec0 1) : Mat 401408 128) (ix2 r q) := by
  unfold iblk0
  rw [View.read_apply, emb0_1 t y q r hr]
  rfl

/-- The first weight matrix's block is the whole matrix at every point. -/
theorem whole0_2 (c : Dev nD) (t : Fin cfg0.N) :
    (iblk0 (F := Ideal) V c 2 t : Vec Ideal S128x128 .f32) = (V c (Pipeline.arrRef spec0 2) : Vec Ideal S128x128 .f32) := by
  obtain ⟨-, -, -, -, e0, e1, -⟩ := idx0 t
  funext j
  unfold iblk0
  rw [View.read_apply]
  have h : ((cfg0.win 2).blk t).view.emb j = (j : S128x128.Idx) := by
    funext a; apply Fin.ext
    match a with
    | ⟨0, _⟩ => show win0_2.index t (0 : Fin 2) * 128 + 1 * (j 0).val = (j 0).val; rw [e0]; omega
    | ⟨1, _⟩ => show win0_2.index t (1 : Fin 2) * 128 + 1 * (j 1).val = (j 1).val; rw [e1]; omega
  rw [h]
  rfl

/-- The bias's block is the whole vector at every point. -/
theorem whole0_3 (c : Dev nD) (t : Fin cfg0.N) :
    (iblk0 (F := Ideal) V c 3 t : Vec Ideal S128 .f32) = (V c (Pipeline.arrRef spec0 3) : Vec Ideal S128 .f32) := by
  obtain ⟨-, -, -, -, -, -, e0, -⟩ := idx0 t
  funext j
  unfold iblk0
  rw [View.read_apply]
  have h : ((cfg0.win 3).blk t).view.emb j = (j : S128.Idx) := by
    funext a; apply Fin.ext
    match a with
    | ⟨0, _⟩ => show win0_3.index t (0 : Fin 1) * 128 + 1 * (j 0).val = (j 0).val; rw [e0]; omega
  rw [h]
  rfl

/-- The second weight matrix's block is the whole matrix at every point. -/
theorem whole0_4 (c : Dev nD) (t : Fin cfg0.N) :
    (iblk0 (F := Ideal) V c 4 t : Vec Ideal S128x128 .f32) = (V c (Pipeline.arrRef spec0 4) : Vec Ideal S128x128 .f32) := by
  obtain ⟨-, -, -, -, -, -, -, e0, e1, -⟩ := idx0 t
  funext j
  unfold iblk0
  rw [View.read_apply]
  have h : ((cfg0.win 4).blk t).view.emb j = (j : S128x128.Idx) := by
    funext a; apply Fin.ext
    match a with
    | ⟨0, _⟩ => show win0_4.index t (0 : Fin 2) * 128 + 1 * (j 0).val = (j 0).val; rw [e0]; omega
    | ⟨1, _⟩ => show win0_4.index t (1 : Fin 2) * 128 + 1 * (j 1).val = (j 1).val; rw [e1]; omega
  rw [h]
  rfl

/-- What point t writes back is block t of the layer of the whole arrays. -/
theorem flushed0_eq (c : Dev nD) (t : Fin cfg0.N) :
    (dat0 (F := Ideal) V c).flushed 5 t = ((cfg0.win 5).blk t).view.read (Elt Ideal) (layer0 V c) := by
  show (cfg0.win 5).cut (grid0.coords t) ((dat0 (F := Ideal) V c).after 5 t) = _
  rw [after0_5]
  unfold out0_5
  rw [View.canon_unit_zero hz2_0]
  simp only [View.ld_unit_zero (S := S4096x128) hz2_0, View.ld_unit_zero (S := S128x128) hz2_0,
    View.ld_unit_zero (S := S128) hz1_0]
  rw [pay0_eq, whole0_2 V c t, whole0_3 V c t, whole0_4 V c t]
  funext j
  obtain ⟨y, q, rfl⟩ : ∃ (y : Fin 4096) (q : Fin 128), j = ix2 y q := ⟨j 0, j 1, eq_ix2 j⟩
  have hN : grid0.N = 98 := N_0
  have ht : t.val < 98 := hN ▸ t.isLt
  have hy : y.val < 4096 := y.isLt
  rw [View.read_apply, emb0_5 t y q ⟨4096 * t.val + y.val, by omega⟩ rfl]
  exact dense_rows true _ _ _ _ _ _ _ y ⟨4096 * t.val + y.val, by omega⟩ q
    (fun q' => blk0_0_apply V c t y q' _ rfl) (fun q' => blk0_1_apply V c t y q' _ rfl)

/-- An index of the result is in point t's block iff each coordinate is in the block's range on its axis. -/
theorem mem_blk0_5 (t : Fin cfg0.N) (i : S401408x128.Idx) :
    i ∈ ((cfg0.win 5).blk t).view.set ↔ ∀ a : Fin 2, win0_5.index t a * S4096x128.size a ≤ (i a).val
      ∧ (i a).val < win0_5.index t a * S4096x128.size a + S4096x128.size a := by
  show i ∈ ((View.whole main_v35).slice (win0_5.rect t)).set ↔ _
  rw [View.set_slice_whole, Rect.mem_set_unit]
  exact Iff.rfl

/-- Every index of the result is in the block of the point its row divided by 4096 names. -/
theorem cover0 (i : S401408x128.Idx) :
    ∃ t : Fin cfg0.N, (cfg0.win 5).flush t = true ∧ i ∈ ((cfg0.win 5).blk t).view.set := by
  have hi0 : (i 0).val < 401408 := (i 0).isLt
  have hi1 : (i 1).val < 128 := (i 1).isLt
  have hN : grid0.N = 98 := N_0
  have htlt : (i 0).val / 4096 < grid0.N := by rw [hN]; omega
  obtain ⟨-, -, -, -, -, -, -, -, -, e0, e1⟩ := idx0 ⟨(i 0).val / 4096, htlt⟩
  refine ⟨⟨(i 0).val / 4096, htlt⟩, flush0_5 _, ?_⟩
  rw [mem_blk0_5]
  intro a
  match a with
  | ⟨0, _⟩ =>
    show win0_5.index ⟨(i 0).val / 4096, htlt⟩ (0 : Fin 2) * 4096 ≤ (i 0).val
      ∧ (i 0).val < win0_5.index ⟨(i 0).val / 4096, htlt⟩ (0 : Fin 2) * 4096 + 4096
    rw [e0]; show (i 0).val / 4096 * 4096 ≤ (i 0).val ∧ (i 0).val < (i 0).val / 4096 * 4096 + 4096; omega
  | ⟨1, _⟩ =>
    show win0_5.index ⟨(i 0).val / 4096, htlt⟩ (1 : Fin 2) * 128 ≤ (i 1).val
      ∧ (i 1).val < win0_5.index ⟨(i 0).val / 4096, htlt⟩ (1 : Fin 2) * 128 + 128
    rw [e1]; omega

/-- THE ARRAY region 0 leaves: the layer of the whole arrays as the region finds them. -/
theorem region0_array (c : Dev nD) :
    (dat0 (F := Ideal) V c).arrAt 5 cfg0.N
      = dense (n := 401408) (k := 128) (d := 128) true (V c (Pipeline.arrRef spec0 0)) (V c (Pipeline.arrRef spec0 1))
          (transpose S128x128 [1, 0] (V c (Pipeline.arrRef spec0 2)) transposes_S128x128_p1_0_S128x128)
          (transpose S128x128 [1, 0] (V c (Pipeline.arrRef spec0 4)) transposes_S128x128_p1_0_S128x128)
          (shapeCast S1x128 (V c (Pipeline.arrRef spec0 3)) shapeCasts_S128_S1x128) :=
  (dat0 (F := Ideal) V c).arrAt_eq_of_cover 5 (layer0 V c) (fun t _ => flushed0_eq V c t) (cover0)

end Cert.Sage.DenseRegion

end
-- ==== Proof.DenseRegion1.lean ====
/-
  The array a dense layer's pipeline leaves, as one function of the arrays it finds (region 1).

  The 102400 rows are cut into 25 blocks of 4096 rows.  At point t of the grid the pipeline stages rows
  4096·t … 4096·t + 4095 of the neighbours' means and of the nodes' own features, and the two weight matrices and
  the bias whole (their block index is 0 at every point); the body stores the layer of the two row blocks, and that
  block is written back to rows 4096·t … 4096·t + 4095 of the result.  Row r of the layer of the whole arrays reads
  row r of the means and of the features only (`Cert.Sage.dense_rows`), so the block written back at point t is block
  t of the layer of the whole arrays; the point that covers row r is r / 4096, so the blocks cover the result, which
  therefore ends holding the layer of the whole arrays.
-/
import Idealize.ShloMosaic.Lib.Pipeline.Value
import Idealize.ShloMosaic.Lib.Tactic
import proofs.«155691_j72499047956494_1_alg».proof.Proof.Gen.KernelIdeal.Frame
import proofs.«155691_j72499047956494_1_alg».proof.Proof.DenseBody

set_option maxRecDepth 16384

noncomputable section

open Idealize.ShloMosaic Idealize.ShloMosaic.TcCoe Idealize.SL.Sem Idealize.ShloMosaic.ValueIdx
open Idealize.ShloMosaic.Pipeline (Dat)

namespace Cert.Sage.DenseRegion

open Cert.KernelIdeal Cert.KernelIdeal.Gen Cert.Spec Cert.Sage

variable (V : (c : Dev nD) → (b : Ref sig .tc) → Buf (Elt Ideal) ((c : Thread nD τ).loc b))

theorem hz2_1 : (![0, 0] : Fin 2 → Nat) = fun _ => 0 := funext fun a => by fin_cases a <;> rfl
theorem hz1_1 : (![0] : Fin 1 → Nat) = fun _ => 0 := funext fun a => by fin_cases a <;> rfl

/-- The layer of the whole arrays as region 1 finds them. -/
abbrev layer1 (c : Dev nD) : Mat 102400 128 :=
  dense (n := 102400) (k := 128) (d := 128) true (V c (Pipeline.arrRef spec1 0)) (V c (Pipeline.arrRef spec1 1))
    (transpose S128x128 [1, 0] (V c (Pipeline.arrRef spec1 2)) transposes_S128x128_p1_0_S128x128)
    (transpose S128x128 [1, 0] (V c (Pipeline.arrRef spec1 4)) transposes_S128x128_p1_0_S128x128)
    (shapeCast S1x128 (V c (Pipeline.arrRef spec1 3)) shapeCasts_S128_S1x128)

/-- The printed index maps, decided over the grid: the two row windows and the result's window are at block (t, 0)
    at point t, the weights' and the bias's windows at block 0. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row y of the means' block at point t is row 4096·t + y of the means. -/
theorem emb1_0 (t : Fin cfg1.N) (y : Fin 4096) (q : Fin 128) (r : Fin 102400) (hr : r.val = 4096 * t.val + y.val) :
    ((cfg1.win 0).blk t).view.emb (ix2 y q) = (ix2 r q : S102400x128.Idx) := by
  obtain ⟨e0, e1, -⟩ := idx1 t
  funext a; apply Fin.ext
  match a with
  | ⟨0, _⟩ => show win1_0.index t (0 : Fin 2) * 4096 + 1 * y.val = r.val; rw [e0, hr]; omega
  | ⟨1, _⟩ => show win1_0.index t (1 : Fin 2) * 128 + 1 * q.val = q.val; rw [e1]; omega

/-- The same for the features' block. -/
theorem emb1_1 (t : Fin cfg1.N) (y : Fin 4096) (q : Fin 128) (r : Fin 102400) (hr : r.val = 4096 * t.val + y.val) :
    ((cfg1.win 1).blk t).view.emb (ix2 y q) = (ix2 r q : S102400x128.Idx) := by
  obtain ⟨-, -, e0, e1, -⟩ := idx1 t
  funext a; apply Fin.ext
  match a with
  | ⟨0, _⟩ => show win1_1.index t (0 : Fin 2) * 4096 + 1 * y.val = r.val; rw [e0, hr]; omega
  | ⟨1, _⟩ => show win1_1.index t (1 : Fin 2) * 128 + 1 * q.val = q.val; rw [e1]; omega

/-- The same for the result's block. -/
theorem emb1_5 (t : Fin cfg1.N) (y : Fin 4096) (q : Fin 128) (r : Fin 102400) (hr : r.val = 4096 * t.val + y.val) :
    ((cfg1.win 5).blk t).view.emb (ix2 y q) = (ix2 r q : S102400x128.Idx) := by
  obtain ⟨-, -, -, -, -, -, -, -, -, e0, e1⟩ := idx1 t
  funext a; apply Fin.ext
  match a with
  | ⟨0, _⟩ => show win1_5.index t (0 : Fin 2) * 4096 + 1 * y.val = r.val; rw [e0, hr]; omega
  | ⟨1, _⟩ => show win1_5.index t (1 : Fin 2) * 128 + 1 * q.val = q.val; rw [e1]; omega

/-- The means' block at point t, row by row. -/
theorem blk1_0_apply (c : Dev nD) (t : Fin cfg1.N) (y : Fin 4096) (q : Fin 128) (r : Fin 102400)
    (hr : r.val = 4096 * t.val + y.val) :
    (iblk1 (F := Ideal) V c 0 t : Mat 4096 128) (ix2 y q) = (V c (Pipeline.arrRef spec1 0) : Mat 102400 128) (ix2 r q) := by
  unfold iblk1
  rw [View.read_apply, emb1_0 t y q r hr]
  rfl

/-- The features' block at point t, row by row. -/
theorem blk1_1_apply (c : Dev nD) (t : Fin cfg1.N) (y : Fin 4096) (q : Fin 128) (r : Fin 102400)
    (hr : r.val = 4096 * t.val + y.val) :
    (iblk1 (F := Ideal) V c 1 t : Mat 4096 128) (ix2 y q) = (V c (Pipeline.arrRef spec1 1) : Mat 102400 128) (ix2 r q) := by
  unfold iblk1
  rw [View.read_apply, emb1_1 t y q r hr]
  rfl

/-- The first weight matrix's block is the whole matrix at every point. -/
theorem whole1_2 (c : Dev nD) (t : Fin cfg1.N) :
    (iblk1 (F := Ideal) V c 2 t : Vec Ideal S128x128 .f32) = (V c (Pipeline.arrRef spec1 2) : Vec Ideal S128x128 .f32) := by
  obtain ⟨-, -, -, -, e0, e1, -⟩ := idx1 t
  funext j
  unfold iblk1
  rw [View.read_apply]
  have h : ((cfg1.win 2).blk t).view.emb j = (j : S128x128.Idx) := by
    funext a; apply Fin.ext
    match a with
    | ⟨0, _⟩ => show win1_2.index t (0 : Fin 2) * 128 + 1 * (j 0).val = (j 0).val; rw [e0]; omega
    | ⟨1, _⟩ => show win1_2.index t (1 : Fin 2) * 128 + 1 * (j 1).val = (j 1).val; rw [e1]; omega
  rw [h]
  rfl

/-- The bias's block is the whole vector at every point. -/
theorem whole1_3 (c : Dev nD) (t : Fin cfg1.N) :
    (iblk1 (F := Ideal) V c 3 t : Vec Ideal S128 .f32) = (V c (Pipeline.arrRef spec1 3) : Vec Ideal S128 .f32) := by
  obtain ⟨-, -, -, -, -, -, e0, -⟩ := idx1 t
  funext j
  unfold iblk1
  rw [View.read_apply]
  have h : ((cfg1.win 3).blk t).view.emb j = (j : S128.Idx) := by
    funext a; apply Fin.ext
    match a with
    | ⟨0, _⟩ => show win1_3.index t (0 : Fin 1) * 128 + 1 * (j 0).val = (j 0).val; rw [e0]; omega
  rw [h]
  rfl

/-- The second weight matrix's block is the whole matrix at every point. -/
theorem whole1_4 (c : Dev nD) (t : Fin cfg1.N) :
    (iblk1 (F := Ideal) V c 4 t : Vec Ideal S128x128 .f32) = (V c (Pipeline.arrRef spec1 4) : Vec Ideal S128x128 .f32) := by
  obtain ⟨-, -, -, -, -, -, -, e0, e1, -⟩ := idx1 t
  funext j
  unfold iblk1
  rw [View.read_apply]
  have h : ((cfg1.win 4).blk t).view.emb j = (j : S128x128.Idx) := by
    funext a; apply Fin.ext
    match a with
    | ⟨0, _⟩ => show win1_4.index t (0 : Fin 2) * 128 + 1 * (j 0).val = (j 0).val; rw [e0]; omega
    | ⟨1, _⟩ => show win1_4.index t (1 : Fin 2) * 128 + 1 * (j 1).val = (j 1).val; rw [e1]; omega
  rw [h]
  rfl

/-- What point t writes back is block t of the layer of the whole arrays. -/
theorem flushed1_eq (c : Dev nD) (t : Fin cfg1.N) :
    (dat1 (F := Ideal) V c).flushed 5 t = ((cfg1.win 5).blk t).view.read (Elt Ideal) (layer1 V c) := by
  show (cfg1.win 5).cut (grid1.coords t) ((dat1 (F := Ideal) V c).after 5 t) = _
  rw [after1_5]
  unfold out1_5
  rw [View.canon_unit_zero hz2_1]
  simp only [View.ld_unit_zero (S := S4096x128) hz2_1, View.ld_unit_zero (S := S128x128) hz2_1,
    View.ld_unit_zero (S := S128) hz1_1]
  rw [pay1_eq, whole1_2 V c t, whole1_3 V c t, whole1_4 V c t]
  funext j
  obtain ⟨y, q, rfl⟩ : ∃ (y : Fin 4096) (q : Fin 128), j = ix2 y q := ⟨j 0, j 1, eq_ix2 j⟩
  have hN : grid1.N = 25 := N_1
  have ht : t.val < 25 := hN ▸ t.isLt
  have hy : y.val < 4096 := y.isLt
  rw [View.read_apply, emb1_5 t y q ⟨4096 * t.val + y.val, by omega⟩ rfl]
  exact dense_rows true _ _ _ _ _ _ _ y ⟨4096 * t.val + y.val, by omega⟩ q
    (fun q' => blk1_0_apply V c t y q' _ rfl) (fun q' => blk1_1_apply V c t y q' _ rfl)

/-- An index of the result is in point t's block iff each coordinate is in the block's range on its axis. -/
theorem mem_blk1_5 (t : Fin cfg1.N) (i : S102400x128.Idx) :
    i ∈ ((cfg1.win 5).blk t).view.set ↔ ∀ a : Fin 2, win1_5.index t a * S4096x128.size a ≤ (i a).val
      ∧ (i a).val < win1_5.index t a * S4096x128.size a + S4096x128.size a := by
  show i ∈ ((View.whole main_v58).slice (win1_5.rect t)).set ↔ _
  rw [View.set_slice_whole, Rect.mem_set_unit]
  exact Iff.rfl

/-- Every index of the result is in the block of the point its row divided by 4096 names. -/
theorem cover1 (i : S102400x128.Idx) :
    ∃ t : Fin cfg1.N, (cfg1.win 5).flush t = true ∧ i ∈ ((cfg1.win 5).blk t).view.set := by
  have hi0 : (i 0).val < 102400 := (i 0).isLt
  have hi1 : (i 1).val < 128 := (i 1).isLt
  have hN : grid1.N = 25 := N_1
  have htlt : (i 0).val / 4096 < grid1.N := by rw [hN]; omega
  obtain ⟨-, -, -, -, -, -, -, -, -, e0, e1⟩ := idx1 ⟨(i 0).val / 4096, htlt⟩
  refine ⟨⟨(i 0).val / 4096, htlt⟩, flush1_5 _, ?_⟩
  rw [mem_blk1_5]
  intro a
  match a with
  | ⟨0, _⟩ =>
    show win1_5.index ⟨(i 0).val / 4096, htlt⟩ (0 : Fin 2) * 4096 ≤ (i 0).val
      ∧ (i 0).val < win1_5.index ⟨(i 0).val / 4096, htlt⟩ (0 : Fin 2) * 4096 + 4096
    rw [e0]; show (i 0).val / 4096 * 4096 ≤ (i 0).val ∧ (i 0).val < (i 0).val / 4096 * 4096 + 4096; omega
  | ⟨1, _⟩ =>
    show win1_5.index ⟨(i 0).val / 4096, htlt⟩ (1 : Fin 2) * 128 ≤ (i 1).val
      ∧ (i 1).val < win1_5.index ⟨(i 0).val / 4096, htlt⟩ (1 : Fin 2) * 128 + 128
    rw [e1]; omega

/-- THE ARRAY region 1 leaves: the layer of the whole arrays as the region finds them. -/
theorem region1_array (c : Dev nD) :
    (dat1 (F := Ideal) V c).arrAt 5 cfg1.N
      = dense (n := 102400) (k := 128) (d := 128) true (V c (Pipeline.arrRef spec1 0)) (V c (Pipeline.arrRef spec1 1))
          (transpose S128x128 [1, 0] (V c (Pipeline.arrRef spec1 2)) transposes_S128x128_p1_0_S128x128)
          (transpose S128x128 [1, 0] (V c (Pipeline.arrRef spec1 4)) transposes_S128x128_p1_0_S128x128)
          (shapeCast S1x128 (V c (Pipeline.arrRef spec1 3)) shapeCasts_S128_S1x128) :=
  (dat1 (F := Ideal) V c).arrAt_eq_of_cover 5 (layer1 V c) (fun t _ => flushed1_eq V c t) (cover1)

end Cert.Sage.DenseRegion

end
-- ==== Proof.DenseRegion2.lean ====
/-
  The array a dense layer's pipeline leaves, as one function of the arrays it finds (region 2).

  The 401408 rows are cut into 98 blocks of 4096 rows.  At point t of the grid the pipeline stages rows
  4096·t … 4096·t + 4095 of the neighbours' means and of the nodes' own features, and the two weight matrices and
  the bias whole (their block index is 0 at every point); the body stores the layer of the two row blocks, and that
  block is written back to rows 4096·t … 4096·t + 4095 of the result.  Row r of the layer of the whole arrays reads
  row r of the means and of the features only (`Cert.Sage.dense_rows`), so the block written back at point t is block
  t of the layer of the whole arrays; the point that covers row r is r / 4096, so the blocks cover the result, which
  therefore ends holding the layer of the whole arrays.
-/
import Idealize.ShloMosaic.Lib.Pipeline.Value
import Idealize.ShloMosaic.Lib.Tactic
import proofs.«155691_j72499047956494_1_alg».proof.Proof.Gen.KernelIdeal.Frame
import proofs.«155691_j72499047956494_1_alg».proof.Proof.DenseBody

set_option maxRecDepth 16384

noncomputable section

open Idealize.ShloMosaic Idealize.ShloMosaic.TcCoe Idealize.SL.Sem Idealize.ShloMosaic.ValueIdx
open Idealize.ShloMosaic.Pipeline (Dat)

namespace Cert.Sage.DenseRegion

open Cert.KernelIdeal Cert.KernelIdeal.Gen Cert.Spec Cert.Sage

variable (V : (c : Dev nD) → (b : Ref sig .tc) → Buf (Elt Ideal) ((c : Thread nD τ).loc b))

theorem hz2_2 : (![0, 0] : Fin 2 → Nat) = fun _ => 0 := funext fun a => by fin_cases a <;> rfl
theorem hz1_2 : (![0] : Fin 1 → Nat) = fun _ => 0 := funext fun a => by fin_cases a <;> rfl

/-- The layer of the whole arrays as region 2 finds them. -/
abbrev layer2 (c : Dev nD) : Mat 401408 128 :=
  dense (n := 401408) (k := 128) (d := 128) false (V c (Pipeline.arrRef spec2 0)) (V c (Pipeline.arrRef spec2 1))
    (transpose S128x128 [1, 0] (V c (Pipeline.arrRef spec2 2)) transposes_S128x128_p1_0_S128x128)
    (transpose S128x128 [1, 0] (V c (Pipeline.arrRef spec2 4)) transposes_S128x128_p1_0_S128x128)
    (shapeCast S1x128 (V c (Pipeline.arrRef spec2 3)) shapeCasts_S128_S1x128)

/-- The printed index maps, decided over the grid: the two row windows and the result's window are at block (t, 0)
    at point t, the weights' and the bias's windows at block 0. -/
theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row y of the means' block at point t is row 4096·t + y of the means. -/
theorem emb2_0 (t : Fin cfg2.N) (y : Fin 4096) (q : Fin 128) (r : Fin 401408) (hr : r.val = 4096 * t.val + y.val) :
    ((cfg2.win 0).blk t).view.emb (ix2 y q) = (ix2 r q : S401408x128.Idx) := by
  obtain ⟨e0, e1, -⟩ := idx2 t
  funext a; apply Fin.ext
  match a with
  | ⟨0, _⟩ => show win2_0.index t (0 : Fin 2) * 4096 + 1 * y.val = r.val; rw [e0, hr]; omega
  | ⟨1, _⟩ => show win2_0.index t (1 : Fin 2) * 128 + 1 * q.val = q.val; rw [e1]; omega

/-- The same for the features' block. -/
theorem emb2_1 (t : Fin cfg2.N) (y : Fin 4096) (q : Fin 128) (r : Fin 401408) (hr : r.val = 4096 * t.val + y.val) :
    ((cfg2.win 1).blk t).view.emb (ix2 y q) = (ix2 r q : S401408x128.Idx) := by
  obtain ⟨-, -, e0, e1, -⟩ := idx2 t
  funext a; apply Fin.ext
  match a with
  | ⟨0, _⟩ => show win2_1.index t (0 : Fin 2) * 4096 + 1 * y.val = r.val; rw [e0, hr]; omega
  | ⟨1, _⟩ => show win2_1.index t (1 : Fin 2) * 128 + 1 * q.val = q.val; rw [e1]; omega

/-- The same for the result's block. -/
theorem emb2_5 (t : Fin cfg2.N) (y : Fin 4096) (q : Fin 128) (r : Fin 401408) (hr : r.val = 4096 * t.val + y.val) :
    ((cfg2.win 5).blk t).view.emb (ix2 y q) = (ix2 r q : S401408x128.Idx) := by
  obtain ⟨-, -, -, -, -, -, -, -, -, e0, e1⟩ := idx2 t
  funext a; apply Fin.ext
  match a with
  | ⟨0, _⟩ => show win2_5.index t (0 : Fin 2) * 4096 + 1 * y.val = r.val; rw [e0, hr]; omega
  | ⟨1, _⟩ => show win2_5.index t (1 : Fin 2) * 128 + 1 * q.val = q.val; rw [e1]; omega

/-- The means' block at point t, row by row. -/
theorem blk2_0_apply (c : Dev nD) (t : Fin cfg2.N) (y : Fin 4096) (q : Fin 128) (r : Fin 401408)
    (hr : r.val = 4096 * t.val + y.val) :
    (iblk2 (F := Ideal) V c 0 t : Mat 4096 128) (ix2 y q) = (V c (Pipeline.arrRef spec2 0) : Mat 401408 128) (ix2 r q) := by
  unfold iblk2
  rw [View.read_apply, emb2_0 t y q r hr]
  rfl

/-- The features' block at point t, row by row. -/
theorem blk2_1_apply (c : Dev nD) (t : Fin cfg2.N) (y : Fin 4096) (q : Fin 128) (r : Fin 401408)
    (hr : r.val = 4096 * t.val + y.val) :
    (iblk2 (F := Ideal) V c 1 t : Mat 4096 128) (ix2 y q) = (V c (Pipeline.arrRef spec2 1) : Mat 401408 128) (ix2 r q) := by
  unfold iblk2
  rw [View.read_apply, emb2_1 t y q r hr]
  rfl

/-- The first weight matrix's block is the whole matrix at every point. -/
theorem whole2_2 (c : Dev nD) (t : Fin cfg2.N) :
    (iblk2 (F := Ideal) V c 2 t : Vec Ideal S128x128 .f32) = (V c (Pipeline.arrRef spec2 2) : Vec Ideal S128x128 .f32) := by
  obtain ⟨-, -, -, -, e0, e1, -⟩ := idx2 t
  funext j
  unfold iblk2
  rw [View.read_apply]
  have h : ((cfg2.win 2).blk t).view.emb j = (j : S128x128.Idx) := by
    funext a; apply Fin.ext
    match a with
    | ⟨0, _⟩ => show win2_2.index t (0 : Fin 2) * 128 + 1 * (j 0).val = (j 0).val; rw [e0]; omega
    | ⟨1, _⟩ => show win2_2.index t (1 : Fin 2) * 128 + 1 * (j 1).val = (j 1).val; rw [e1]; omega
  rw [h]
  rfl

/-- The bias's block is the whole vector at every point. -/
theorem whole2_3 (c : Dev nD) (t : Fin cfg2.N) :
    (iblk2 (F := Ideal) V c 3 t : Vec Ideal S128 .f32) = (V c (Pipeline.arrRef spec2 3) : Vec Ideal S128 .f32) := by
  obtain ⟨-, -, -, -, -, -, e0, -⟩ := idx2 t
  funext j
  unfold iblk2
  rw [View.read_apply]
  have h : ((cfg2.win 3).blk t).view.emb j = (j : S128.Idx) := by
    funext a; apply Fin.ext
    match a with
    | ⟨0, _⟩ => show win2_3.index t (0 : Fin 1) * 128 + 1 * (j 0).val = (j 0).val; rw [e0]; omega
  rw [h]
  rfl

/-- The second weight matrix's block is the whole matrix at every point. -/
theorem whole2_4 (c : Dev nD) (t : Fin cfg2.N) :
    (iblk2 (F := Ideal) V c 4 t : Vec Ideal S128x128 .f32) = (V c (Pipeline.arrRef spec2 4) : Vec Ideal S128x128 .f32) := by
  obtain ⟨-, -, -, -, -, -, -, e0, e1, -⟩ := idx2 t
  funext j
  unfold iblk2
  rw [View.read_apply]
  have h : ((cfg2.win 4).blk t).view.emb j = (j : S128x128.Idx) := by
    funext a; apply Fin.ext
    match a with
    | ⟨0, _⟩ => show win2_4.index t (0 : Fin 2) * 128 + 1 * (j 0).val = (j 0).val; rw [e0]; omega
    | ⟨1, _⟩ => show win2_4.index t (1 : Fin 2) * 128 + 1 * (j 1).val = (j 1).val; rw [e1]; omega
  rw [h]
  rfl

/-- What point t writes back is block t of the layer of the whole arrays. -/
theorem flushed2_eq (c : Dev nD) (t : Fin cfg2.N) :
    (dat2 (F := Ideal) V c).flushed 5 t = ((cfg2.win 5).blk t).view.read (Elt Ideal) (layer2 V c) := by
  show (cfg2.win 5).cut (grid2.coords t) ((dat2 (F := Ideal) V c).after 5 t) = _
  rw [after2_5]
  unfold out2_5
  rw [View.canon_unit_zero hz2_2]
  simp only [View.ld_unit_zero (S := S4096x128) hz2_2, View.ld_unit_zero (S := S128x128) hz2_2,
    View.ld_unit_zero (S := S128) hz1_2]
  rw [pay2_eq, whole2_2 V c t, whole2_3 V c t, whole2_4 V c t]
  funext j
  obtain ⟨y, q, rfl⟩ : ∃ (y : Fin 4096) (q : Fin 128), j = ix2 y q := ⟨j 0, j 1, eq_ix2 j⟩
  have hN : grid2.N = 98 := N_2
  have ht : t.val < 98 := hN ▸ t.isLt
  have hy : y.val < 4096 := y.isLt
  rw [View.read_apply, emb2_5 t y q ⟨4096 * t.val + y.val, by omega⟩ rfl]
  exact dense_rows false _ _ _ _ _ _ _ y ⟨4096 * t.val + y.val, by omega⟩ q
    (fun q' => blk2_0_apply V c t y q' _ rfl) (fun q' => blk2_1_apply V c t y q' _ rfl)

/-- An index of the result is in point t's block iff each coordinate is in the block's range on its axis. -/
theorem mem_blk2_5 (t : Fin cfg2.N) (i : S401408x128.Idx) :
    i ∈ ((cfg2.win 5).blk t).view.set ↔ ∀ a : Fin 2, win2_5.index t a * S4096x128.size a ≤ (i a).val
      ∧ (i a).val < win2_5.index t a * S4096x128.size a + S4096x128.size a := by
  show i ∈ ((View.whole main_v81).slice (win2_5.rect t)).set ↔ _
  rw [View.set_slice_whole, Rect.mem_set_unit]
  exact Iff.rfl

/-- Every index of the result is in the block of the point its row divided by 4096 names. -/
theorem cover2 (i : S401408x128.Idx) :
    ∃ t : Fin cfg2.N, (cfg2.win 5).flush t = true ∧ i ∈ ((cfg2.win 5).blk t).view.set := by
  have hi0 : (i 0).val < 401408 := (i 0).isLt
  have hi1 : (i 1).val < 128 := (i 1).isLt
  have hN : grid2.N = 98 := N_2
  have htlt : (i 0).val / 4096 < grid2.N := by rw [hN]; omega
  obtain ⟨-, -, -, -, -, -, -, -, -, e0, e1⟩ := idx2 ⟨(i 0).val / 4096, htlt⟩
  refine ⟨⟨(i 0).val / 4096, htlt⟩, flush2_5 _, ?_⟩
  rw [mem_blk2_5]
  intro a
  match a with
  | ⟨0, _⟩ =>
    show win2_5.index ⟨(i 0).val / 4096, htlt⟩ (0 : Fin 2) * 4096 ≤ (i 0).val
      ∧ (i 0).val < win2_5.index ⟨(i 0).val / 4096, htlt⟩ (0 : Fin 2) * 4096 + 4096
    rw [e0]; show (i 0).val / 4096 * 4096 ≤ (i 0).val ∧ (i 0).val < (i 0).val / 4096 * 4096 + 4096; omega
  | ⟨1, _⟩ =>
    show win2_5.index ⟨(i 0).val / 4096, htlt⟩ (1 : Fin 2) * 128 ≤ (i 1).val
      ∧ (i 1).val < win2_5.index ⟨(i 0).val / 4096, htlt⟩ (1 : Fin 2) * 128 + 128
    rw [e1]; omega

/-- THE ARRAY region 2 leaves: the layer of the whole arrays as the region finds them. -/
theorem region2_array (c : Dev nD) :
    (dat2 (F := Ideal) V c).arrAt 5 cfg2.N
      = dense (n := 401408) (k := 128) (d := 128) false (V c (Pipeline.arrRef spec2 0)) (V c (Pipeline.arrRef spec2 1))
          (transpose S128x128 [1, 0] (V c (Pipeline.arrRef spec2 2)) transposes_S128x128_p1_0_S128x128)
          (transpose S128x128 [1, 0] (V c (Pipeline.arrRef spec2 4)) transposes_S128x128_p1_0_S128x128)
          (shapeCast S1x128 (V c (Pipeline.arrRef spec2 3)) shapeCasts_S128_S1x128) :=
  (dat2 (F := Ideal) V c).arrAt_eq_of_cover 5 (layer2 V c) (fun t _ => flushed2_eq V c t) (cover2)

end Cert.Sage.DenseRegion

end
-- ==== Proof.DenseRegion3.lean ====
/-
  The array a dense layer's pipeline leaves, as one function of the arrays it finds (region 3).

  The 102400 rows are cut into 25 blocks of 4096 rows.  At point t of the grid the pipeline stages rows
  4096·t … 4096·t + 4095 of the neighbours' means and of the nodes' own features, and the two weight matrices and
  the bias whole (their block index is 0 at every point); the body stores the layer of the two row blocks, and that
  block is written back to rows 4096·t … 4096·t + 4095 of the result.  Row r of the layer of the whole arrays reads
  row r of the means and of the features only (`Cert.Sage.dense_rows`), so the block written back at point t is block
  t of the layer of the whole arrays; the point that covers row r is r / 4096, so the blocks cover the result, which
  therefore ends holding the layer of the whole arrays.
-/
import Idealize.ShloMosaic.Lib.Pipeline.Value
import Idealize.ShloMosaic.Lib.Tactic
import proofs.«155691_j72499047956494_1_alg».proof.Proof.Gen.KernelIdeal.Frame
import proofs.«155691_j72499047956494_1_alg».proof.Proof.DenseBody

set_option maxRecDepth 16384

noncomputable section

open Idealize.ShloMosaic Idealize.ShloMosaic.TcCoe Idealize.SL.Sem Idealize.ShloMosaic.ValueIdx
open Idealize.ShloMosaic.Pipeline (Dat)

namespace Cert.Sage.DenseRegion

open Cert.KernelIdeal Cert.KernelIdeal.Gen Cert.Spec Cert.Sage

variable (V : (c : Dev nD) → (b : Ref sig .tc) → Buf (Elt Ideal) ((c : Thread nD τ).loc b))

theorem hz2_3 : (![0, 0] : Fin 2 → Nat) = fun _ => 0 := funext fun a => by fin_cases a <;> rfl
theorem hz1_3 : (![0] : Fin 1 → Nat) = fun _ => 0 := funext fun a => by fin_cases a <;> rfl

/-- The layer of the whole arrays as region 3 finds them. -/
abbrev layer3 (c : Dev nD) : Mat 102400 128 :=
  dense (n := 102400) (k := 128) (d := 128) false (V c (Pipeline.arrRef spec3 0)) (V c (Pipeline.arrRef spec3 1))
    (transpose S128x128 [1, 0] (V c (Pipeline.arrRef spec3 2)) transposes_S128x128_p1_0_S128x128)
    (transpose S128x128 [1, 0] (V c (Pipeline.arrRef spec3 4)) transposes_S128x128_p1_0_S128x128)
    (shapeCast S1x128 (V c (Pipeline.arrRef spec3 3)) shapeCasts_S128_S1x128)

/-- The printed index maps, decided over the grid: the two row windows and the result's window are at block (t, 0)
    at point t, the weights' and the bias's windows at block 0. -/
theorem idx3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 1) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Row y of the means' block at point t is row 4096·t + y of the means. -/
theorem emb3_0 (t : Fin cfg3.N) (y : Fin 4096) (q : Fin 128) (r : Fin 102400) (hr : r.val = 4096 * t.val + y.val) :
    ((cfg3.win 0).blk t).view.emb (ix2 y q) = (ix2 r q : S102400x128.Idx) := by
  obtain ⟨e0, e1, -⟩ := idx3 t
  funext a; apply Fin.ext
  match a with
  | ⟨0, _⟩ => show win3_0.index t (0 : Fin 2) * 4096 + 1 * y.val = r.val; rw [e0, hr]; omega
  | ⟨1, _⟩ => show win3_0.index t (1 : Fin 2) * 128 + 1 * q.val = q.val; rw [e1]; omega

/-- The same for the features' block. -/
theorem emb3_1 (t : Fin cfg3.N) (y : Fin 4096) (q : Fin 128) (r : Fin 102400) (hr : r.val = 4096 * t.val + y.val) :
    ((cfg3.win 1).blk t).view.emb (ix2 y q) = (ix2 r q : S102400x128.Idx) := by
  obtain ⟨-, -, e0, e1, -⟩ := idx3 t
  funext a; apply Fin.ext
  match a with
  | ⟨0, _⟩ => show win3_1.index t (0 : Fin 2) * 4096 + 1 * y.val = r.val; rw [e0, hr]; omega
  | ⟨1, _⟩ => show win3_1.index t (1 : Fin 2) * 128 + 1 * q.val = q.val; rw [e1]; omega

/-- The same for the result's block. -/
theorem emb3_5 (t : Fin cfg3.N) (y : Fin 4096) (q : Fin 128) (r : Fin 102400) (hr : r.val = 4096 * t.val + y.val) :
    ((cfg3.win 5).blk t).view.emb (ix2 y q) = (ix2 r q : S102400x128.Idx) := by
  obtain ⟨-, -, -, -, -, -, -, -, -, e0, e1⟩ := idx3 t
  funext a; apply Fin.ext
  match a with
  | ⟨0, _⟩ => show win3_5.index t (0 : Fin 2) * 4096 + 1 * y.val = r.val; rw [e0, hr]; omega
  | ⟨1, _⟩ => show win3_5.index t (1 : Fin 2) * 128 + 1 * q.val = q.val; rw [e1]; omega

/-- The means' block at point t, row by row. -/
theorem blk3_0_apply (c : Dev nD) (t : Fin cfg3.N) (y : Fin 4096) (q : Fin 128) (r : Fin 102400)
    (hr : r.val = 4096 * t.val + y.val) :
    (iblk3 (F := Ideal) V c 0 t : Mat 4096 128) (ix2 y q) = (V c (Pipeline.arrRef spec3 0) : Mat 102400 128) (ix2 r q) := by
  unfold iblk3
  rw [View.read_apply, emb3_0 t y q r hr]
  rfl

/-- The features' block at point t, row by row. -/
theorem blk3_1_apply (c : Dev nD) (t : Fin cfg3.N) (y : Fin 4096) (q : Fin 128) (r : Fin 102400)
    (hr : r.val = 4096 * t.val + y.val) :
    (iblk3 (F := Ideal) V c 1 t : Mat 4096 128) (ix2 y q) = (V c (Pipeline.arrRef spec3 1) : Mat 102400 128) (ix2 r q) := by
  unfold iblk3
  rw [View.read_apply, emb3_1 t y q r hr]
  rfl

/-- The first weight matrix's block is the whole matrix at every point. -/
theorem whole3_2 (c : Dev nD) (t : Fin cfg3.N) :
    (iblk3 (F := Ideal) V c 2 t : Vec Ideal S128x128 .f32) = (V c (Pipeline.arrRef spec3 2) : Vec Ideal S128x128 .f32) := by
  obtain ⟨-, -, -, -, e0, e1, -⟩ := idx3 t
  funext j
  unfold iblk3
  rw [View.read_apply]
  have h : ((cfg3.win 2).blk t).view.emb j = (j : S128x128.Idx) := by
    funext a; apply Fin.ext
    match a with
    | ⟨0, _⟩ => show win3_2.index t (0 : Fin 2) * 128 + 1 * (j 0).val = (j 0).val; rw [e0]; omega
    | ⟨1, _⟩ => show win3_2.index t (1 : Fin 2) * 128 + 1 * (j 1).val = (j 1).val; rw [e1]; omega
  rw [h]
  rfl

/-- The bias's block is the whole vector at every point. -/
theorem whole3_3 (c : Dev nD) (t : Fin cfg3.N) :
    (iblk3 (F := Ideal) V c 3 t : Vec Ideal S128 .f32) = (V c (Pipeline.arrRef spec3 3) : Vec Ideal S128 .f32) := by
  obtain ⟨-, -, -, -, -, -, e0, -⟩ := idx3 t
  funext j
  unfold iblk3
  rw [View.read_apply]
  have h : ((cfg3.win 3).blk t).view.emb j = (j : S128.Idx) := by
    funext a; apply Fin.ext
    match a with
    | ⟨0, _⟩ => show win3_3.index t (0 : Fin 1) * 128 + 1 * (j 0).val = (j 0).val; rw [e0]; omega
  rw [h]
  rfl

/-- The second weight matrix's block is the whole matrix at every point. -/
theorem whole3_4 (c : Dev nD) (t : Fin cfg3.N) :
    (iblk3 (F := Ideal) V c 4 t : Vec Ideal S128x128 .f32) = (V c (Pipeline.arrRef spec3 4) : Vec Ideal S128x128 .f32) := by
  obtain ⟨-, -, -, -, -, -, -, e0, e1, -⟩ := idx3 t
  funext j
  unfold iblk3
  rw [View.read_apply]
  have h : ((cfg3.win 4).blk t).view.emb j = (j : S128x128.Idx) := by
    funext a; apply Fin.ext
    match a with
    | ⟨0, _⟩ => show win3_4.index t (0 : Fin 2) * 128 + 1 * (j 0).val = (j 0).val; rw [e0]; omega
    | ⟨1, _⟩ => show win3_4.index t (1 : Fin 2) * 128 + 1 * (j 1).val = (j 1).val; rw [e1]; omega
  rw [h]
  rfl

/-- What point t writes back is block t of the layer of the whole arrays. -/
theorem flushed3_eq (c : Dev nD) (t : Fin cfg3.N) :
    (dat3 (F := Ideal) V c).flushed 5 t = ((cfg3.win 5).blk t).view.read (Elt Ideal) (layer3 V c) := by
  show (cfg3.win 5).cut (grid3.coords t) ((dat3 (F := Ideal) V c).after 5 t) = _
  rw [after3_5]
  unfold out3_5
  rw [View.canon_unit_zero hz2_3]
  simp only [View.ld_unit_zero (S := S4096x128) hz2_3, View.ld_unit_zero (S := S128x128) hz2_3,
    View.ld_unit_zero (S := S128) hz1_3]
  rw [pay3_eq, whole3_2 V c t, whole3_3 V c t, whole3_4 V c t]
  funext j
  obtain ⟨y, q, rfl⟩ : ∃ (y : Fin 4096) (q : Fin 128), j = ix2 y q := ⟨j 0, j 1, eq_ix2 j⟩
  have hN : grid3.N = 25 := N_3
  have ht : t.val < 25 := hN ▸ t.isLt
  have hy : y.val < 4096 := y.isLt
  rw [View.read_apply, emb3_5 t y q ⟨4096 * t.val + y.val, by omega⟩ rfl]
  exact dense_rows false _ _ _ _ _ _ _ y ⟨4096 * t.val + y.val, by omega⟩ q
    (fun q' => blk3_0_apply V c t y q' _ rfl) (fun q' => blk3_1_apply V c t y q' _ rfl)

/-- An index of the result is in point t's block iff each coordinate is in the block's range on its axis. -/
theorem mem_blk3_5 (t : Fin cfg3.N) (i : S102400x128.Idx) :
    i ∈ ((cfg3.win 5).blk t).view.set ↔ ∀ a : Fin 2, win3_5.index t a * S4096x128.size a ≤ (i a).val
      ∧ (i a).val < win3_5.index t a * S4096x128.size a + S4096x128.size a := by
  show i ∈ ((View.whole main_v104).slice (win3_5.rect t)).set ↔ _
  rw [View.set_slice_whole, Rect.mem_set_unit]
  exact Iff.rfl

/-- Every index of the result is in the block of the point its row divided by 4096 names. -/
theorem cover3 (i : S102400x128.Idx) :
    ∃ t : Fin cfg3.N, (cfg3.win 5).flush t = true ∧ i ∈ ((cfg3.win 5).blk t).view.set := by
  have hi0 : (i 0).val < 102400 := (i 0).isLt
  have hi1 : (i 1).val < 128 := (i 1).isLt
  have hN : grid3.N = 25 := N_3
  have htlt : (i 0).val / 4096 < grid3.N := by rw [hN]; omega
  obtain ⟨-, -, -, -, -, -, -, -, -, e0, e1⟩ := idx3 ⟨(i 0).val / 4096, htlt⟩
  refine ⟨⟨(i 0).val / 4096, htlt⟩, flush3_5 _, ?_⟩
  rw [mem_blk3_5]
  intro a
  match a with
  | ⟨0, _⟩ =>
    show win3_5.index ⟨(i 0).val / 4096, htlt⟩ (0 : Fin 2) * 4096 ≤ (i 0).val
      ∧ (i 0).val < win3_5.index ⟨(i 0).val / 4096, htlt⟩ (0 : Fin 2) * 4096 + 4096
    rw [e0]; show (i 0).val / 4096 * 4096 ≤ (i 0).val ∧ (i 0).val < (i 0).val / 4096 * 4096 + 4096; omega
  | ⟨1, _⟩ =>
    show win3_5.index ⟨(i 0).val / 4096, htlt⟩ (1 : Fin 2) * 128 ≤ (i 1).val
      ∧ (i 1).val < win3_5.index ⟨(i 0).val / 4096, htlt⟩ (1 : Fin 2) * 128 + 128
    rw [e1]; omega

/-- THE ARRAY region 3 leaves: the layer of the whole arrays as the region finds them. -/
theorem region3_array (c : Dev nD) :
    (dat3 (F := Ideal) V c).arrAt 5 cfg3.N
      = dense (n := 102400) (k := 128) (d := 128) false (V c (Pipeline.arrRef spec3 0)) (V c (Pipeline.arrRef spec3 1))
          (transpose S128x128 [1, 0] (V c (Pipeline.arrRef spec3 2)) transposes_S128x128_p1_0_S128x128)
          (transpose S128x128 [1, 0] (V c (Pipeline.arrRef spec3 4)) transposes_S128x128_p1_0_S128x128)
          (shapeCast S1x128 (V c (Pipeline.arrRef spec3 3)) shapeCasts_S128_S1x128) :=
  (dat3 (F := Ideal) V c).arrAt_eq_of_cover 5 (layer3 V c) (fun t _ => flushed3_eq V c t) (cover3)

end Cert.Sage.DenseRegion

end
-- ==== Proof.DotRegion.lean ====
/-
  The classifier region: the array it leaves is the row-wise inner product of its two input arrays.

  The region runs over 62 points.  At point t its body loads block t of each input array a and b (rows 8192·t … 8192·t +
  8191, all 128 columns), multiplies the two blocks entry by entry, sums each row from the zero word, and stores the 8192
  sums as block t of the output vector (entries 8192·t … 8192·t + 8191).  Over the extended reals the row sum from the
  zero word is the sum over the row's 128 entries, so the stored block is the row-wise inner product of the two loaded
  blocks (`pay4_eq`).  Entry p of a block's inner product reads row p of each block only, and row p of block t of an
  array is row 8192·t + p of the array; so what point t writes back is block t of the row-wise inner product of the whole
  arrays (`flushed4_eq`).  The 62 blocks tile the 507904 entries (entry r lies in block r / 8192), hence the output array
  ends holding the row-wise inner product of the arrays as the region found them (`region4_array`).
-/
import Idealize.ShloMosaic.Lib.ValueIdx
import Idealize.ShloMosaic.Lib.Pipeline.Value
import Idealize.ShloMosaic.PureOps.Ideal.Laws
import proofs.«155691_j72499047956494_1_alg».proof.Proof.Gen.KernelIdeal.Frame
import proofs.«155691_j72499047956494_1_alg».proof.Proof.LibColumn
import proofs.«155691_j72499047956494_1_alg».proof.Proof.SageSpec

set_option maxRecDepth 16384

noncomputable section

open scoped BigOperators

namespace Cert.Sage.DotRegion

open Idealize.ShloMosaic Idealize.ShloMosaic.TcCoe Idealize.ShloMosaic.ValueIdx Cert.Spec Cert.Sage
open Idealize.ShloMosaic.Pipeline (Dat)
open Cert.KernelIdeal Cert.KernelIdeal.Gen

/-- The block the body stores: the row-wise inner product of the two loaded blocks. -/
theorem pay4_eq (x0 x1 : Vec Ideal S8192x128 .f32) :
    k4_pay1 (F := Ideal) x0 x1 = rowDot (n := 8192) (k := 128) x0 x1 := by
  funext i
  obtain ⟨p, rfl⟩ : ∃ p : Fin 8192, i = ix1 p := ⟨i 0, eq_ix1 i⟩
  unfold k4_pay1
  simp only [shapeCast_self]
  refine (LibColumn.rowSum_f32 (a := 8192) (b := 128) _ reduces_S8192x128_S8192 (.inl rfl) rfl p).trans ?_
  rfl

variable (V : (c : Dev nD) → (b : Ref sig .tc) → Buf (Elt Ideal) ((c : Thread nD τ).loc b))

theorem hz1 : (![0] : Fin 1 → Nat) = fun _ => 0 := funext fun a => by fin_cases a; rfl
theorem hz2 : (![0, 0] : Fin 2 → Nat) = fun _ => 0 := funext fun a => by fin_cases a <;> rfl

/-- The printed index maps, decided over the grid: at point t every window is at block t (and column block 0). -/
theorem idx_facts4 : ∀ t : Fin cfg4.N, win4_0.index t (0 : Fin 2) = t.val ∧ win4_0.index t (1 : Fin 2) = 0
    ∧ win4_1.index t (0 : Fin 2) = t.val ∧ win4_1.index t (1 : Fin 2) = 0 ∧ win4_2.index t (0 : Fin 1) = t.val :=
  (by decide +kernel : ∀ t : Fin grid4.N, _)

/-- The whole output array the region leaves, as a function of the arrays it finds. -/
abbrev G4 (c : Dev nD) : Vec1 507904 :=
  rowDot (n := 507904) (k := 128) (V c (Pipeline.arrRef spec4 0)) (V c (Pipeline.arrRef spec4 1))

theorem flushed4_eq (c : Dev nD) (t : Fin cfg4.N) :
    (dat4 (F := Ideal) V c).flushed 2 t = ((cfg4.win 2).blk t).view.read (Elt Ideal) (G4 V c) := by
  show (cfg4.win 2).cut (grid4.coords t) ((dat4 V c).after 2 t) = _
  rw [after4_2]
  unfold out4_2
  rw [View.canon_unit_zero hz1]
  simp only [View.ld_unit_zero (S := S8192x128) hz2]
  rw [pay4_eq]
  obtain ⟨e00, e01, e10, e11, e2⟩ := idx_facts4 t
  have ht : t.val < 62 := lt_of_lt_of_eq t.isLt (show cfg4.N = 62 from N_4)
  funext j
  obtain ⟨p, rfl⟩ : ∃ p : Fin 8192, j = ix1 p := ⟨j 0, eq_ix1 j⟩
  have hp : p.val < 8192 := p.isLt
  show rowDot (iblk4 V c 0 t) (iblk4 V c 1 t) (ix1 p) = G4 V c (((cfg4.win 2).blk t).view.emb (ix1 p))
  have hemb : ((cfg4.win 2).blk t).view.emb (ix1 p) = ix1 (⟨8192 * t.val + p.val, by omega⟩ : Fin 507904) := by
    funext a; apply Fin.ext
    match a with
    | ⟨0, _⟩ => show win4_2.index t (0 : Fin 1) * 8192 + 1 * p.val = 8192 * t.val + p.val; rw [e2]; omega
  rw [hemb]
  refine rowDot_rows _ _ _ _ p _ (fun q => ?_) (fun q => ?_)
  · show V c (Pipeline.arrRef spec4 0) (((cfg4.win 0).blk t).view.emb (ix2 p q)) = _
    refine congrArg _ (funext fun a => Fin.ext ?_)
    match a with
    | ⟨0, _⟩ => show win4_0.index t (0 : Fin 2) * 8192 + 1 * p.val = 8192 * t.val + p.val; rw [e00]; omega
    | ⟨1, _⟩ => show win4_0.index t (1 : Fin 2) * 128 + 1 * q.val = q.val; rw [e01]; omega
  · show V c (Pipeline.arrRef spec4 1) (((cfg4.win 1).blk t).view.emb (ix2 p q)) = _
    refine congrArg _ (funext fun a => Fin.ext ?_)
    match a with
    | ⟨0, _⟩ => show win4_1.index t (0 : Fin 2) * 8192 + 1 * p.val = 8192 * t.val + p.val; rw [e10]; omega
    | ⟨1, _⟩ => show win4_1.index t (1 : Fin 2) * 128 + 1 * q.val = q.val; rw [e11]; omega

/-- An entry of the output array is in point t's block iff it lies in the block's range. -/
theorem mem_blk4 (t : Fin cfg4.N) (i : S507904.Idx) :
    i ∈ ((cfg4.win 2).blk t).view.set ↔ ∀ a : Fin 1, win4_2.index t a * S8192.size a ≤ (i a).val ∧ (i a).val < win4_2.index t a * S8192.size a + S8192.size a := by
  show i ∈ ((View.whole main_v122).slice (win4_2.rect t)).set ↔ _
  rw [View.set_slice_whole, Rect.mem_set_unit]
  exact Iff.rfl

/-- Every entry of the output array is in some point's block: entry r in block r / 8192. -/
theorem cover4 (i : S507904.Idx) : ∃ t : Fin cfg4.N, (cfg4.win 2).flush t = true ∧ i ∈ ((cfg4.win 2).blk t).view.set := by
  have hi : (i 0).val < 507904 := (i 0).isLt
  have hN : cfg4.N = 62 := N_4
  obtain ⟨t, ht⟩ : ∃ t : Fin cfg4.N, t.val = (i 0).val / 8192 := ⟨⟨(i 0).val / 8192, by rw [hN]; omega⟩, rfl⟩
  obtain ⟨_, _, _, _, e2⟩ := idx_facts4 t
  refine ⟨t, flush4_2 t, ?_⟩
  rw [mem_blk4]
  intro a
  match a with
  | ⟨0, _⟩ =>
    show win4_2.index t (0 : Fin 1) * 8192 ≤ (i 0).val ∧ (i 0).val < win4_2.index t (0 : Fin 1) * 8192 + 8192
    rw [e2, ht]; omega

/-- THE ARRAY the classifier region leaves: the row-wise inner product of the two arrays it finds. -/
theorem region4_array (c : Dev nD) :
    (dat4 (F := Ideal) V c).arrAt 2 cfg4.N
      = Cert.Sage.rowDot (V c (Pipeline.arrRef spec4 0)) (V c (Pipeline.arrRef spec4 1)) :=
  (dat4 (F := Ideal) V c).arrAt_eq_of_cover 2 (G4 V c) (fun t _ => flushed4_eq V c t) cover4

end Cert.Sage.DotRegion

end
-- ==== Proof.Chain.lean ====
/-
  The idealized kernel program's result, read off its chain of valuations, is the reference's result.

  The kernel program alternates stretches of host operations with five kernel regions.  Walking the chain of buffer
  contents from the launch memory: each host stretch is read buffer by buffer as the reference's value of the same
  quantity (the two programs apply the same pure operations to the same arguments); each dense region's result array is
  the layer function of the padded operands, and the first rows kept after it are the layer of the unpadded operands,
  which is the reference's layer; the last region's array is the row-wise inner product of the padded label rows, and
  the first 500000 entries kept are the reference's result.  Buffers are carried across a region by the fact that a
  region changes its own arrays only, and across a stretch by the fact that a stretch changes its operations' results
  only.  The values are named by the reference's stage functions of the arguments' launch contents.
-/
import proofs.«155691_j72499047956494_1_alg».proof.Proof.Stretch0
import proofs.«155691_j72499047956494_1_alg».proof.Proof.Stretch1
import proofs.«155691_j72499047956494_1_alg».proof.Proof.Stretch2
import proofs.«155691_j72499047956494_1_alg».proof.Proof.Stretch3
import proofs.«155691_j72499047956494_1_alg».proof.Proof.Stretch4
import proofs.«155691_j72499047956494_1_alg».proof.Proof.Pads
import proofs.«155691_j72499047956494_1_alg».proof.Proof.RefLayers
import proofs.«155691_j72499047956494_1_alg».proof.Proof.RefOut
import proofs.«155691_j72499047956494_1_alg».proof.Proof.LayerBridge
import proofs.«155691_j72499047956494_1_alg».proof.Proof.LibBiasRow
import proofs.«155691_j72499047956494_1_alg».proof.Proof.DenseRegion0
import proofs.«155691_j72499047956494_1_alg».proof.Proof.DenseRegion1
import proofs.«155691_j72499047956494_1_alg».proof.Proof.DenseRegion2
import proofs.«155691_j72499047956494_1_alg».proof.Proof.DenseRegion3
import proofs.«155691_j72499047956494_1_alg».proof.Proof.DotRegion

set_option maxRecDepth 16384

noncomputable section

namespace Cert.Sage.Chain

open Idealize.ShloMosaic Idealize.ShloMosaic.TcCoe Idealize.ShloMosaic.StableHlo Idealize.SL.Sem
open Cert.KernelIdeal Cert.KernelIdeal.Gen Cert.Sage.Stretch

variable (m : (ℓ : Loc nD τ sig) → Buf (Elt Ideal) ℓ) (ρ : Dev nD → PrngReg) (c : Dev nD)

/-- An argument array's launch contents on core c. -/
abbrev arg (b : Ref sig .tc) : Buf (Elt Ideal) ((c : Thread nD τ).loc b) := m ((c : Thread nD τ).loc b)

/-- The padding value: the integer zero converted to a float. -/
abbrev zeroPad : (⟨S_, .f32⟩ : BufTy).Contents (Elt Ideal) := sitofp (F := Ideal) .f32 (constantI S_ 32 0#32)
/-- 1408 rows appended below 400000. -/
abbrev padT (x : (⟨S400000x128, .f32⟩ : BufTy).Contents (Elt Ideal)) : (⟨S401408x128, .f32⟩ : BufTy).Contents (Elt Ideal) :=
  pad S401408x128 ![0, 0] ![1408, 0] ![0, 0] x zeroPad pads_S400000x128_S401408x128_014080_000 h_S_
/-- 2400 rows appended below 100000. -/
abbrev padP (x : (⟨S100000x128, .f32⟩ : BufTy).Contents (Elt Ideal)) : (⟨S102400x128, .f32⟩ : BufTy).Contents (Elt Ideal) :=
  pad S102400x128 ![0, 0] ![2400, 0] ![0, 0] x zeroPad pads_S100000x128_S102400x128_024000_000 h_S_
/-- 7904 rows appended below 500000. -/
abbrev padL (x : (⟨S500000x128, .f32⟩ : BufTy).Contents (Elt Ideal)) : (⟨S507904x128, .f32⟩ : BufTy).Contents (Elt Ideal) :=
  pad S507904x128 ![0, 0] ![7904, 0] ![0, 0] x zeroPad pads_S500000x128_S507904x128_079040_000 h_S_
/-- The first 400000 rows of 401408. -/
abbrev sliceT (y : (⟨S401408x128, .f32⟩ : BufTy).Contents (Elt Ideal)) : (⟨S400000x128, .f32⟩ : BufTy).Contents (Elt Ideal) :=
  extractStridedSlice S400000x128 ![0, 0] y slices_S401408x128_S400000x128_0_0
/-- The first 100000 rows of 102400. -/
abbrev sliceP (y : (⟨S102400x128, .f32⟩ : BufTy).Contents (Elt Ideal)) : (⟨S100000x128, .f32⟩ : BufTy).Contents (Elt Ideal) :=
  extractStridedSlice S100000x128 ![0, 0] y slices_S102400x128_S100000x128_0_0

/-! ## Stretch 0, from the launch memory -/

theorem j0_v6 : W4 m ρ c (Proc.devRef .tc main_v6) = (Cert.ReferenceIdeal.Read.val_main_v6 (F := Ideal) (arg m c main_arg0) (arg m c main_arg2)) := s0_v6 (W0 m ρ c) _ _ rfl rfl
theorem j0_v13 : W4 m ρ c (Proc.devRef .tc main_v13) = (Cert.ReferenceIdeal.Read.val_main_v13 (F := Ideal) (arg m c main_arg1) (arg m c main_arg3)) := s0_v13 (W0 m ρ c) _ _ rfl rfl
theorem j0_v32 : W4 m ρ c (Proc.devRef .tc main_v32) = (Cert.ReferenceIdeal.Read.val_main_v32 (F := Ideal) (arg m c main_arg0) (arg m c main_arg2) (arg m c main_arg4) (arg m c main_arg5)) := s0_v32 (W0 m ρ c) _ _ _ _ rfl rfl rfl rfl
theorem j0_v33 : W4 m ρ c (Proc.devRef .tc main_v33) = padT (Cert.ReferenceIdeal.Read.val_main_v32 (F := Ideal) (arg m c main_arg0) (arg m c main_arg2) (arg m c main_arg4) (arg m c main_arg5)) := (Cert.Sage.Pads.q0_a (W1 m ρ c) (Cert.Sage.Pads.c0 (W0 m ρ c))).trans (congrArg padT (((Cert.Sage.Pads.k0_a (W1 m ρ c)).symm).trans (j0_v32 m ρ c)))
theorem j0_v34 : W4 m ρ c (Proc.devRef .tc main_v34) = padT (Cert.ReferenceIdeal.Read.val_main_v13 (F := Ideal) (arg m c main_arg1) (arg m c main_arg3)) := (Cert.Sage.Pads.q0_b (W1 m ρ c)).trans (congrArg padT (((Cert.Sage.Pads.k0_b (W1 m ρ c)).symm).trans (j0_v13 m ρ c)))
theorem w4_arg4 : W4 m ρ c (Proc.devRef .tc main_arg4) = (arg m c main_arg4) := (s0_arg4 (W0 m ρ c)).trans rfl
theorem w4_arg5 : W4 m ρ c (Proc.devRef .tc main_arg5) = (arg m c main_arg5) := (s0_arg5 (W0 m ρ c)).trans rfl
theorem w4_arg6 : W4 m ρ c (Proc.devRef .tc main_arg6) = (arg m c main_arg6) := (s0_arg6 (W0 m ρ c)).trans rfl
theorem w4_arg7 : W4 m ρ c (Proc.devRef .tc main_arg7) = (arg m c main_arg7) := (s0_arg7 (W0 m ρ c)).trans rfl
theorem w4_arg8 : W4 m ρ c (Proc.devRef .tc main_arg8) = (arg m c main_arg8) := (s0_arg8 (W0 m ρ c)).trans rfl
theorem w4_arg9 : W4 m ρ c (Proc.devRef .tc main_arg9) = (arg m c main_arg9) := (s0_arg9 (W0 m ρ c)).trans rfl
theorem w4_arg10 : W4 m ρ c (Proc.devRef .tc main_arg10) = (arg m c main_arg10) := (s0_arg10 (W0 m ρ c)).trans rfl
theorem w4_arg11 : W4 m ρ c (Proc.devRef .tc main_arg11) = (arg m c main_arg11) := (s0_arg11 (W0 m ρ c)).trans rfl
theorem w4_arg12 : W4 m ρ c (Proc.devRef .tc main_arg12) = (arg m c main_arg12) := (s0_arg12 (W0 m ρ c)).trans rfl
theorem w4_arg13 : W4 m ρ c (Proc.devRef .tc main_arg13) = (arg m c main_arg13) := (s0_arg13 (W0 m ρ c)).trans rfl
theorem w4_arg14 : W4 m ρ c (Proc.devRef .tc main_arg14) = (arg m c main_arg14) := (s0_arg14 (W0 m ρ c)).trans rfl
theorem w4_arg15 : W4 m ρ c (Proc.devRef .tc main_arg15) = (arg m c main_arg15) := (s0_arg15 (W0 m ρ c)).trans rfl
theorem w4_arg16 : W4 m ρ c (Proc.devRef .tc main_arg16) = (arg m c main_arg16) := (s0_arg16 (W0 m ρ c)).trans rfl
theorem w4_arg17 : W4 m ρ c (Proc.devRef .tc main_arg17) = (arg m c main_arg17) := (s0_arg17 (W0 m ρ c)).trans rfl
theorem w4_arg18 : W4 m ρ c (Proc.devRef .tc main_arg18) = (arg m c main_arg18) := (s0_arg18 (W0 m ρ c)).trans rfl
theorem w4_arg19 : W4 m ρ c (Proc.devRef .tc main_arg19) = (arg m c main_arg19) := (s0_arg19 (W0 m ρ c)).trans rfl

/-! ## Region 0 and layer one, tracks -/

/-- Region 0's result array: the layer of the padded operands. -/
theorem r0 : W5 m ρ c (Proc.devRef .tc main_v35) = Cert.Sage.dense true (padT (Cert.ReferenceIdeal.Read.val_main_v32 (F := Ideal) (arg m c main_arg0) (arg m c main_arg2) (arg m c main_arg4) (arg m c main_arg5))) (padT (Cert.ReferenceIdeal.Read.val_main_v13 (F := Ideal) (arg m c main_arg1) (arg m c main_arg3))) (transpose S128x128 [1, 0] (arg m c main_arg8) transposes_S128x128_p1_0_S128x128) (transpose S128x128 [1, 0] (arg m c main_arg10) transposes_S128x128_p1_0_S128x128) (shapeCast S1x128 (arg m c main_arg9) shapeCasts_S128_S1x128) := by
  have h := (W5_arr m ρ c 5).trans (Cert.Sage.DenseRegion.region0_array (V4 m ρ) c)
  have e0 : V4 m ρ c (Pipeline.arrRef spec0 0) = padT (Cert.ReferenceIdeal.Read.val_main_v32 (F := Ideal) (arg m c main_arg0) (arg m c main_arg2) (arg m c main_arg4) (arg m c main_arg5)) := j0_v33 m ρ c
  have e1 : V4 m ρ c (Pipeline.arrRef spec0 1) = padT (Cert.ReferenceIdeal.Read.val_main_v13 (F := Ideal) (arg m c main_arg1) (arg m c main_arg3)) := j0_v34 m ρ c
  have e2 : V4 m ρ c (Pipeline.arrRef spec0 2) = (arg m c main_arg8) := w4_arg8 m ρ c
  have e3 : V4 m ρ c (Pipeline.arrRef spec0 3) = (arg m c main_arg9) := w4_arg9 m ρ c
  have e4 : V4 m ρ c (Pipeline.arrRef spec0 4) = (arg m c main_arg10) := w4_arg10 m ρ c
  rw [e0, e1, e2, e3, e4] at h
  exact h

theorem t1S : sliceT (W5 m ρ c (Proc.devRef .tc main_v35)) = (Cert.ReferenceIdeal.Read.val_main_v41 (F := Ideal) (arg m c main_arg0) (arg m c main_arg1) (arg m c main_arg2) (arg m c main_arg3) (arg m c main_arg4) (arg m c main_arg5) (arg m c main_arg8) (arg m c main_arg9) (arg m c main_arg10)) := by
  rw [r0 m ρ c, Cert.Sage.Ref.t1]
  refine (Cert.Sage.slice_dense_pad true (Cert.ReferenceIdeal.Read.val_main_v32 (F := Ideal) (arg m c main_arg0) (arg m c main_arg2) (arg m c main_arg4) (arg m c main_arg5)) (Cert.ReferenceIdeal.Read.val_main_v13 (F := Ideal) (arg m c main_arg1) (arg m c main_arg3)) _ _ _ zeroPad zeroPad pads_S400000x128_S401408x128_014080_000 h_S_ h_S_ slices_S401408x128_S400000x128_0_0).trans ?_
  rw [Cert.LibBiasRow.shapeCast_eq_broadcastInDim (arg m c main_arg9) shapeCasts_S128_S1x128 Cert.ReferenceIdeal.Gen.bcast_S128_S1x128_1]
theorem w5_v6 : W5 m ρ c (Proc.devRef .tc main_v6) = (Cert.ReferenceIdeal.Read.val_main_v6 (F := Ideal) (arg m c main_arg0) (arg m c main_arg2)) := (W5_of_ne m ρ c main_v6 (by decide)).trans (j0_v6 m ρ c)
theorem w5_v13 : W5 m ρ c (Proc.devRef .tc main_v13) = (Cert.ReferenceIdeal.Read.val_main_v13 (F := Ideal) (arg m c main_arg1) (arg m c main_arg3)) := (W5_of_ne m ρ c main_v13 (by decide)).trans (j0_v13 m ρ c)
theorem w5_arg4 : W5 m ρ c (Proc.devRef .tc main_arg4) = (arg m c main_arg4) := (W5_of_ne m ρ c main_arg4 (by decide)).trans (w4_arg4 m ρ c)
theorem w5_arg5 : W5 m ρ c (Proc.devRef .tc main_arg5) = (arg m c main_arg5) := (W5_of_ne m ρ c main_arg5 (by decide)).trans (w4_arg5 m ρ c)
theorem w5_arg6 : W5 m ρ c (Proc.devRef .tc main_arg6) = (arg m c main_arg6) := (W5_of_ne m ρ c main_arg6 (by decide)).trans (w4_arg6 m ρ c)
theorem w5_arg7 : W5 m ρ c (Proc.devRef .tc main_arg7) = (arg m c main_arg7) := (W5_of_ne m ρ c main_arg7 (by decide)).trans (w4_arg7 m ρ c)
theorem w5_arg11 : W5 m ρ c (Proc.devRef .tc main_arg11) = (arg m c main_arg11) := (W5_of_ne m ρ c main_arg11 (by decide)).trans (w4_arg11 m ρ c)
theorem w5_arg12 : W5 m ρ c (Proc.devRef .tc main_arg12) = (arg m c main_arg12) := (W5_of_ne m ρ c main_arg12 (by decide)).trans (w4_arg12 m ρ c)
theorem w5_arg13 : W5 m ρ c (Proc.devRef .tc main_arg13) = (arg m c main_arg13) := (W5_of_ne m ρ c main_arg13 (by decide)).trans (w4_arg13 m ρ c)
theorem w5_arg14 : W5 m ρ c (Proc.devRef .tc main_arg14) = (arg m c main_arg14) := (W5_of_ne m ρ c main_arg14 (by decide)).trans (w4_arg14 m ρ c)
theorem w5_arg15 : W5 m ρ c (Proc.devRef .tc main_arg15) = (arg m c main_arg15) := (W5_of_ne m ρ c main_arg15 (by decide)).trans (w4_arg15 m ρ c)
theorem w5_arg16 : W5 m ρ c (Proc.devRef .tc main_arg16) = (arg m c main_arg16) := (W5_of_ne m ρ c main_arg16 (by decide)).trans (w4_arg16 m ρ c)
theorem w5_arg17 : W5 m ρ c (Proc.devRef .tc main_arg17) = (arg m c main_arg17) := (W5_of_ne m ρ c main_arg17 (by decide)).trans (w4_arg17 m ρ c)
theorem w5_arg18 : W5 m ρ c (Proc.devRef .tc main_arg18) = (arg m c main_arg18) := (W5_of_ne m ρ c main_arg18 (by decide)).trans (w4_arg18 m ρ c)
theorem w5_arg19 : W5 m ρ c (Proc.devRef .tc main_arg19) = (arg m c main_arg19) := (W5_of_ne m ρ c main_arg19 (by decide)).trans (w4_arg19 m ρ c)

/-! ## Stretch 1 -/

theorem t1K : W9 m ρ c (Proc.devRef .tc main_v36) = (Cert.ReferenceIdeal.Read.val_main_v41 (F := Ideal) (arg m c main_arg0) (arg m c main_arg1) (arg m c main_arg2) (arg m c main_arg3) (arg m c main_arg4) (arg m c main_arg5) (arg m c main_arg8) (arg m c main_arg9) (arg m c main_arg10)) := (s1_v36 (W5 m ρ c)).trans (t1S m ρ c)
theorem j1_v55 : W9 m ρ c (Proc.devRef .tc main_v55) = (Cert.ReferenceIdeal.Read.val_main_v60 (F := Ideal) (arg m c main_arg1) (arg m c main_arg3) (arg m c main_arg4) (arg m c main_arg5)) := s1_v55 (W5 m ρ c) _ _ _ _ (w5_v13 m ρ c) (w5_arg4 m ρ c) (w5_arg5 m ρ c)
theorem w9_v6 : W9 m ρ c (Proc.devRef .tc main_v6) = (Cert.ReferenceIdeal.Read.val_main_v6 (F := Ideal) (arg m c main_arg0) (arg m c main_arg2)) := (s1_v6 (W5 m ρ c)).trans (w5_v6 m ρ c)
theorem j1_v56 : W9 m ρ c (Proc.devRef .tc main_v56) = padP (Cert.ReferenceIdeal.Read.val_main_v60 (F := Ideal) (arg m c main_arg1) (arg m c main_arg3) (arg m c main_arg4) (arg m c main_arg5)) := (Cert.Sage.Pads.q1_a (W6 m ρ c) (Cert.Sage.Pads.c1 (W5 m ρ c))).trans (congrArg padP (((Cert.Sage.Pads.k1_a (W6 m ρ c)).symm).trans (j1_v55 m ρ c)))
theorem j1_v57 : W9 m ρ c (Proc.devRef .tc main_v57) = padP (Cert.ReferenceIdeal.Read.val_main_v6 (F := Ideal) (arg m c main_arg0) (arg m c main_arg2)) := (Cert.Sage.Pads.q1_b (W6 m ρ c)).trans (congrArg padP (((Cert.Sage.Pads.k1_b (W6 m ρ c)).symm).trans (w9_v6 m ρ c)))
theorem w9_arg4 : W9 m ρ c (Proc.devRef .tc main_arg4) = (arg m c main_arg4) := (s1_arg4 (W5 m ρ c)).trans (w5_arg4 m ρ c)
theorem w9_arg5 : W9 m ρ c (Proc.devRef .tc main_arg5) = (arg m c main_arg5) := (s1_arg5 (W5 m ρ c)).trans (w5_arg5 m ρ c)
theorem w9_arg6 : W9 m ρ c (Proc.devRef .tc main_arg6) = (arg m c main_arg6) := (s1_arg6 (W5 m ρ c)).trans (w5_arg6 m ρ c)
theorem w9_arg7 : W9 m ρ c (Proc.devRef .tc main_arg7) = (arg m c main_arg7) := (s1_arg7 (W5 m ρ c)).trans (w5_arg7 m ρ c)
theorem w9_arg11 : W9 m ρ c (Proc.devRef .tc main_arg11) = (arg m c main_arg11) := (s1_arg11 (W5 m ρ c)).trans (w5_arg11 m ρ c)
theorem w9_arg12 : W9 m ρ c (Proc.devRef .tc main_arg12) = (arg m c main_arg12) := (s1_arg12 (W5 m ρ c)).trans (w5_arg12 m ρ c)
theorem w9_arg13 : W9 m ρ c (Proc.devRef .tc main_arg13) = (arg m c main_arg13) := (s1_arg13 (W5 m ρ c)).trans (w5_arg13 m ρ c)
theorem w9_arg14 : W9 m ρ c (Proc.devRef .tc main_arg14) = (arg m c main_arg14) := (s1_arg14 (W5 m ρ c)).trans (w5_arg14 m ρ c)
theorem w9_arg15 : W9 m ρ c (Proc.devRef .tc main_arg15) = (arg m c main_arg15) := (s1_arg15 (W5 m ρ c)).trans (w5_arg15 m ρ c)
theorem w9_arg16 : W9 m ρ c (Proc.devRef .tc main_arg16) = (arg m c main_arg16) := (s1_arg16 (W5 m ρ c)).trans (w5_arg16 m ρ c)
theorem w9_arg17 : W9 m ρ c (Proc.devRef .tc main_arg17) = (arg m c main_arg17) := (s1_arg17 (W5 m ρ c)).trans (w5_arg17 m ρ c)
theorem w9_arg18 : W9 m ρ c (Proc.devRef .tc main_arg18) = (arg m c main_arg18) := (s1_arg18 (W5 m ρ c)).trans (w5_arg18 m ρ c)
theorem w9_arg19 : W9 m ρ c (Proc.devRef .tc main_arg19) = (arg m c main_arg19) := (s1_arg19 (W5 m ρ c)).trans (w5_arg19 m ρ c)

/-! ## Region 1 and layer one, playlists -/

/-- Region 1's result array: the layer of the padded operands. -/
theorem r1 : W10 m ρ c (Proc.devRef .tc main_v58) = Cert.Sage.dense true (padP (Cert.ReferenceIdeal.Read.val_main_v60 (F := Ideal) (arg m c main_arg1) (arg m c main_arg3) (arg m c main_arg4) (arg m c main_arg5))) (padP (Cert.ReferenceIdeal.Read.val_main_v6 (F := Ideal) (arg m c main_arg0) (arg m c main_arg2))) (transpose S128x128 [1, 0] (arg m c main_arg11) transposes_S128x128_p1_0_S128x128) (transpose S128x128 [1, 0] (arg m c main_arg13) transposes_S128x128_p1_0_S128x128) (shapeCast S1x128 (arg m c main_arg12) shapeCasts_S128_S1x128) := by
  have h := (W10_arr m ρ c 5).trans (Cert.Sage.DenseRegion.region1_array (V9 m ρ) c)
  have e0 : V9 m ρ c (Pipeline.arrRef spec1 0) = padP (Cert.ReferenceIdeal.Read.val_main_v60 (F := Ideal) (arg m c main_arg1) (arg m c main_arg3) (arg m c main_arg4) (arg m c main_arg5)) := j1_v56 m ρ c
  have e1 : V9 m ρ c (Pipeline.arrRef spec1 1) = padP (Cert.ReferenceIdeal.Read.val_main_v6 (F := Ideal) (arg m c main_arg0) (arg m c main_arg2)) := j1_v57 m ρ c
  have e2 : V9 m ρ c (Pipeline.arrRef spec1 2) = (arg m c main_arg11) := w9_arg11 m ρ c
  have e3 : V9 m ρ c (Pipeline.arrRef spec1 3) = (arg m c main_arg12) := w9_arg12 m ρ c
  have e4 : V9 m ρ c (Pipeline.arrRef spec1 4) = (arg m c main_arg13) := w9_arg13 m ρ c
  rw [e0, e1, e2, e3, e4] at h
  exact h

theorem p1S : sliceP (W10 m ρ c (Proc.devRef .tc main_v58)) = (Cert.ReferenceIdeal.Read.val_main_v69 (F := Ideal) (arg m c main_arg0) (arg m c main_arg1) (arg m c main_arg2) (arg m c main_arg3) (arg m c main_arg4) (arg m c main_arg5) (arg m c main_arg11) (arg m c main_arg12) (arg m c main_arg13)) := by
  rw [r1 m ρ c, Cert.Sage.Ref.p1]
  refine (Cert.Sage.slice_dense_pad true (Cert.ReferenceIdeal.Read.val_main_v60 (F := Ideal) (arg m c main_arg1) (arg m c main_arg3) (arg m c main_arg4) (arg m c main_arg5)) (Cert.ReferenceIdeal.Read.val_main_v6 (F := Ideal) (arg m c main_arg0) (arg m c main_arg2)) _ _ _ zeroPad zeroPad pads_S100000x128_S102400x128_024000_000 h_S_ h_S_ slices_S102400x128_S100000x128_0_0).trans ?_
  rw [Cert.LibBiasRow.shapeCast_eq_broadcastInDim (arg m c main_arg12) shapeCasts_S128_S1x128 Cert.ReferenceIdeal.Gen.bcast_S128_S1x128_1]
theorem w10_v36 : W10 m ρ c (Proc.devRef .tc main_v36) = (Cert.ReferenceIdeal.Read.val_main_v41 (F := Ideal) (arg m c main_arg0) (arg m c main_arg1) (arg m c main_arg2) (arg m c main_arg3) (arg m c main_arg4) (arg m c main_arg5) (arg m c main_arg8) (arg m c main_arg9) (arg m c main_arg10)) := (W10_of_ne m ρ c main_v36 (by decide)).trans (t1K m ρ c)
theorem w10_arg4 : W10 m ρ c (Proc.devRef .tc main_arg4) = (arg m c main_arg4) := (W10_of_ne m ρ c main_arg4 (by decide)).trans (w9_arg4 m ρ c)
theorem w10_arg5 : W10 m ρ c (Proc.devRef .tc main_arg5) = (arg m c main_arg5) := (W10_of_ne m ρ c main_arg5 (by decide)).trans (w9_arg5 m ρ c)
theorem w10_arg6 : W10 m ρ c (Proc.devRef .tc main_arg6) = (arg m c main_arg6) := (W10_of_ne m ρ c main_arg6 (by decide)).trans (w9_arg6 m ρ c)
theorem w10_arg7 : W10 m ρ c (Proc.devRef .tc main_arg7) = (arg m c main_arg7) := (W10_of_ne m ρ c main_arg7 (by decide)).trans (w9_arg7 m ρ c)
theorem w10_arg14 : W10 m ρ c (Proc.devRef .tc main_arg14) = (arg m c main_arg14) := (W10_of_ne m ρ c main_arg14 (by decide)).trans (w9_arg14 m ρ c)
theorem w10_arg15 : W10 m ρ c (Proc.devRef .tc main_arg15) = (arg m c main_arg15) := (W10_of_ne m ρ c main_arg15 (by decide)).trans (w9_arg15 m ρ c)
theorem w10_arg16 : W10 m ρ c (Proc.devRef .tc main_arg16) = (arg m c main_arg16) := (W10_of_ne m ρ c main_arg16 (by decide)).trans (w9_arg16 m ρ c)
theorem w10_arg17 : W10 m ρ c (Proc.devRef .tc main_arg17) = (arg m c main_arg17) := (W10_of_ne m ρ c main_arg17 (by decide)).trans (w9_arg17 m ρ c)
theorem w10_arg18 : W10 m ρ c (Proc.devRef .tc main_arg18) = (arg m c main_arg18) := (W10_of_ne m ρ c main_arg18 (by decide)).trans (w9_arg18 m ρ c)
theorem w10_arg19 : W10 m ρ c (Proc.devRef .tc main_arg19) = (arg m c main_arg19) := (W10_of_ne m ρ c main_arg19 (by decide)).trans (w9_arg19 m ρ c)

/-! ## Stretch 2 -/

theorem j2_v59 : W14 m ρ c (Proc.devRef .tc main_v59) = (Cert.ReferenceIdeal.Read.val_main_v69 (F := Ideal) (arg m c main_arg0) (arg m c main_arg1) (arg m c main_arg2) (arg m c main_arg3) (arg m c main_arg4) (arg m c main_arg5) (arg m c main_arg11) (arg m c main_arg12) (arg m c main_arg13)) := (s2_v59 (W10 m ρ c)).trans (p1S m ρ c)
theorem j2_v78 : W14 m ρ c (Proc.devRef .tc main_v78) = (Cert.ReferenceIdeal.Read.val_main_v88 (F := Ideal) (arg m c main_arg0) (arg m c main_arg1) (arg m c main_arg2) (arg m c main_arg3) (arg m c main_arg4) (arg m c main_arg5) (arg m c main_arg11) (arg m c main_arg12) (arg m c main_arg13)) := s2_v78 (W10 m ρ c) _ _ _ _ _ _ _ _ _ (p1S m ρ c) (w10_arg4 m ρ c) (w10_arg5 m ρ c)
theorem j2_v79 : W14 m ρ c (Proc.devRef .tc main_v79) = padT (Cert.ReferenceIdeal.Read.val_main_v88 (F := Ideal) (arg m c main_arg0) (arg m c main_arg1) (arg m c main_arg2) (arg m c main_arg3) (arg m c main_arg4) (arg m c main_arg5) (arg m c main_arg11) (arg m c main_arg12) (arg m c main_arg13)) := (Cert.Sage.Pads.q2_a (W11 m ρ c) (Cert.Sage.Pads.c2 (W10 m ρ c))).trans (congrArg padT (((Cert.Sage.Pads.k2_a (W11 m ρ c)).symm).trans (j2_v78 m ρ c)))
theorem w14_v36 : W14 m ρ c (Proc.devRef .tc main_v36) = (Cert.ReferenceIdeal.Read.val_main_v41 (F := Ideal) (arg m c main_arg0) (arg m c main_arg1) (arg m c main_arg2) (arg m c main_arg3) (arg m c main_arg4) (arg m c main_arg5) (arg m c main_arg8) (arg m c main_arg9) (arg m c main_arg10)) := (s2_v36 (W10 m ρ c)).trans (w10_v36 m ρ c)
theorem j2_v80 : W14 m ρ c (Proc.devRef .tc main_v80) = padT (Cert.ReferenceIdeal.Read.val_main_v41 (F := Ideal) (arg m c main_arg0) (arg m c main_arg1) (arg m c main_arg2) (arg m c main_arg3) (arg m c main_arg4) (arg m c main_arg5) (arg m c main_arg8) (arg m c main_arg9) (arg m c main_arg10)) := (Cert.Sage.Pads.q2_b (W11 m ρ c)).trans (congrArg padT (((Cert.Sage.Pads.k2_b (W11 m ρ c)).symm).trans (w14_v36 m ρ c)))
theorem w14_arg4 : W14 m ρ c (Proc.devRef .tc main_arg4) = (arg m c main_arg4) := (s2_arg4 (W10 m ρ c)).trans (w10_arg4 m ρ c)
theorem w14_arg5 : W14 m ρ c (Proc.devRef .tc main_arg5) = (arg m c main_arg5) := (s2_arg5 (W10 m ρ c)).trans (w10_arg5 m ρ c)
theorem w14_arg6 : W14 m ρ c (Proc.devRef .tc main_arg6) = (arg m c main_arg6) := (s2_arg6 (W10 m ρ c)).trans (w10_arg6 m ρ c)
theorem w14_arg7 : W14 m ρ c (Proc.devRef .tc main_arg7) = (arg m c main_arg7) := (s2_arg7 (W10 m ρ c)).trans (w10_arg7 m ρ c)
theorem w14_arg14 : W14 m ρ c (Proc.devRef .tc main_arg14) = (arg m c main_arg14) := (s2_arg14 (W10 m ρ c)).trans (w10_arg14 m ρ c)
theorem w14_arg15 : W14 m ρ c (Proc.devRef .tc main_arg15) = (arg m c main_arg15) := (s2_arg15 (W10 m ρ c)).trans (w10_arg15 m ρ c)
theorem w14_arg16 : W14 m ρ c (Proc.devRef .tc main_arg16) = (arg m c main_arg16) := (s2_arg16 (W10 m ρ c)).trans (w10_arg16 m ρ c)
theorem w14_arg17 : W14 m ρ c (Proc.devRef .tc main_arg17) = (arg m c main_arg17) := (s2_arg17 (W10 m ρ c)).trans (w10_arg17 m ρ c)
theorem w14_arg18 : W14 m ρ c (Proc.devRef .tc main_arg18) = (arg m c main_arg18) := (s2_arg18 (W10 m ρ c)).trans (w10_arg18 m ρ c)
theorem w14_arg19 : W14 m ρ c (Proc.devRef .tc main_arg19) = (arg m c main_arg19) := (s2_arg19 (W10 m ρ c)).trans (w10_arg19 m ρ c)

/-! ## Region 2 and layer two, tracks -/

/-- Region 2's result array: the layer of the padded operands. -/
theorem r2 : W15 m ρ c (Proc.devRef .tc main_v81) = Cert.Sage.dense false (padT (Cert.ReferenceIdeal.Read.val_main_v88 (F := Ideal) (arg m c main_arg0) (arg m c main_arg1) (arg m c main_arg2) (arg m c main_arg3) (arg m c main_arg4) (arg m c main_arg5) (arg m c main_arg11) (arg m c main_arg12) (arg m c main_arg13))) (padT (Cert.ReferenceIdeal.Read.val_main_v41 (F := Ideal) (arg m c main_arg0) (arg m c main_arg1) (arg m c main_arg2) (arg m c main_arg3) (arg m c main_arg4) (arg m c main_arg5) (arg m c main_arg8) (arg m c main_arg9) (arg m c main_arg10))) (transpose S128x128 [1, 0] (arg m c main_arg14) transposes_S128x128_p1_0_S128x128) (transpose S128x128 [1, 0] (arg m c main_arg16) transposes_S128x128_p1_0_S128x128) (shapeCast S1x128 (arg m c main_arg15) shapeCasts_S128_S1x128) := by
  have h := (W15_arr m ρ c 5).trans (Cert.Sage.DenseRegion.region2_array (V14 m ρ) c)
  have e0 : V14 m ρ c (Pipeline.arrRef spec2 0) = padT (Cert.ReferenceIdeal.Read.val_main_v88 (F := Ideal) (arg m c main_arg0) (arg m c main_arg1) (arg m c main_arg2) (arg m c main_arg3) (arg m c main_arg4) (arg m c main_arg5) (arg m c main_arg11) (arg m c main_arg12) (arg m c main_arg13)) := j2_v79 m ρ c
  have e1 : V14 m ρ c (Pipeline.arrRef spec2 1) = padT (Cert.ReferenceIdeal.Read.val_main_v41 (F := Ideal) (arg m c main_arg0) (arg m c main_arg1) (arg m c main_arg2) (arg m c main_arg3) (arg m c main_arg4) (arg m c main_arg5) (arg m c main_arg8) (arg m c main_arg9) (arg m c main_arg10)) := j2_v80 m ρ c
  have e2 : V14 m ρ c (Pipeline.arrRef spec2 2) = (arg m c main_arg14) := w14_arg14 m ρ c
  have e3 : V14 m ρ c (Pipeline.arrRef spec2 3) = (arg m c main_arg15) := w14_arg15 m ρ c
  have e4 : V14 m ρ c (Pipeline.arrRef spec2 4) = (arg m c main_arg16) := w14_arg16 m ρ c
  rw [e0, e1, e2, e3, e4] at h
  exact h

theorem t2S : sliceT (W15 m ρ c (Proc.devRef .tc main_v81)) = (Cert.ReferenceIdeal.Read.val_main_v96 (F := Ideal) (arg m c main_arg0) (arg m c main_arg1) (arg m c main_arg2) (arg m c main_arg3) (arg m c main_arg4) (arg m c main_arg5) (arg m c main_arg8) (arg m c main_arg9) (arg m c main_arg10) (arg m c main_arg11) (arg m c main_arg12) (arg m c main_arg13) (arg m c main_arg14) (arg m c main_arg15) (arg m c main_arg16)) := by
  rw [r2 m ρ c, Cert.Sage.Ref.t2]
  refine (Cert.Sage.slice_dense_pad false (Cert.ReferenceIdeal.Read.val_main_v88 (F := Ideal) (arg m c main_arg0) (arg m c main_arg1) (arg m c main_arg2) (arg m c main_arg3) (arg m c main_arg4) (arg m c main_arg5) (arg m c main_arg11) (arg m c main_arg12) (arg m c main_arg13)) (Cert.ReferenceIdeal.Read.val_main_v41 (F := Ideal) (arg m c main_arg0) (arg m c main_arg1) (arg m c main_arg2) (arg m c main_arg3) (arg m c main_arg4) (arg m c main_arg5) (arg m c main_arg8) (arg m c main_arg9) (arg m c main_arg10)) _ _ _ zeroPad zeroPad pads_S400000x128_S401408x128_014080_000 h_S_ h_S_ slices_S401408x128_S400000x128_0_0).trans ?_
  rw [Cert.LibBiasRow.shapeCast_eq_broadcastInDim (arg m c main_arg15) shapeCasts_S128_S1x128 Cert.ReferenceIdeal.Gen.bcast_S128_S1x128_1]
theorem w15_v36 : W15 m ρ c (Proc.devRef .tc main_v36) = (Cert.ReferenceIdeal.Read.val_main_v41 (F := Ideal) (arg m c main_arg0) (arg m c main_arg1) (arg m c main_arg2) (arg m c main_arg3) (arg m c main_arg4) (arg m c main_arg5) (arg m c main_arg8) (arg m c main_arg9) (arg m c main_arg10)) := (W15_of_ne m ρ c main_v36 (by decide)).trans (w14_v36 m ρ c)
theorem w15_v59 : W15 m ρ c (Proc.devRef .tc main_v59) = (Cert.ReferenceIdeal.Read.val_main_v69 (F := Ideal) (arg m c main_arg0) (arg m c main_arg1) (arg m c main_arg2) (arg m c main_arg3) (arg m c main_arg4) (arg m c main_arg5) (arg m c main_arg11) (arg m c main_arg12) (arg m c main_arg13)) := (W15_of_ne m ρ c main_v59 (by decide)).trans (j2_v59 m ρ c)
theorem w15_arg4 : W15 m ρ c (Proc.devRef .tc main_arg4) = (arg m c main_arg4) := (W15_of_ne m ρ c main_arg4 (by decide)).trans (w14_arg4 m ρ c)
theorem w15_arg5 : W15 m ρ c (Proc.devRef .tc main_arg5) = (arg m c main_arg5) := (W15_of_ne m ρ c main_arg5 (by decide)).trans (w14_arg5 m ρ c)
theorem w15_arg6 : W15 m ρ c (Proc.devRef .tc main_arg6) = (arg m c main_arg6) := (W15_of_ne m ρ c main_arg6 (by decide)).trans (w14_arg6 m ρ c)
theorem w15_arg7 : W15 m ρ c (Proc.devRef .tc main_arg7) = (arg m c main_arg7) := (W15_of_ne m ρ c main_arg7 (by decide)).trans (w14_arg7 m ρ c)
theorem w15_arg17 : W15 m ρ c (Proc.devRef .tc main_arg17) = (arg m c main_arg17) := (W15_of_ne m ρ c main_arg17 (by decide)).trans (w14_arg17 m ρ c)
theorem w15_arg18 : W15 m ρ c (Proc.devRef .tc main_arg18) = (arg m c main_arg18) := (W15_of_ne m ρ c main_arg18 (by decide)).trans (w14_arg18 m ρ c)
theorem w15_arg19 : W15 m ρ c (Proc.devRef .tc main_arg19) = (arg m c main_arg19) := (W15_of_ne m ρ c main_arg19 (by decide)).trans (w14_arg19 m ρ c)

/-! ## Stretch 3 -/

theorem j3_v82 : W19 m ρ c (Proc.devRef .tc main_v82) = (Cert.ReferenceIdeal.Read.val_main_v96 (F := Ideal) (arg m c main_arg0) (arg m c main_arg1) (arg m c main_arg2) (arg m c main_arg3) (arg m c main_arg4) (arg m c main_arg5) (arg m c main_arg8) (arg m c main_arg9) (arg m c main_arg10) (arg m c main_arg11) (arg m c main_arg12) (arg m c main_arg13) (arg m c main_arg14) (arg m c main_arg15) (arg m c main_arg16)) := (s3_v82 (W15 m ρ c)).trans (t2S m ρ c)
theorem j3_v101 : W19 m ρ c (Proc.devRef .tc main_v101) = (Cert.ReferenceIdeal.Read.val_main_v115 (F := Ideal) (arg m c main_arg0) (arg m c main_arg1) (arg m c main_arg2) (arg m c main_arg3) (arg m c main_arg4) (arg m c main_arg5) (arg m c main_arg8) (arg m c main_arg9) (arg m c main_arg10)) := s3_v101 (W15 m ρ c) _ _ _ _ _ _ _ _ _ (w15_v36 m ρ c) (w15_arg4 m ρ c) (w15_arg5 m ρ c)
theorem w19_v59 : W19 m ρ c (Proc.devRef .tc main_v59) = (Cert.ReferenceIdeal.Read.val_main_v69 (F := Ideal) (arg m c main_arg0) (arg m c main_arg1) (arg m c main_arg2) (arg m c main_arg3) (arg m c main_arg4) (arg m c main_arg5) (arg m c main_arg11) (arg m c main_arg12) (arg m c main_arg13)) := (s3_v59 (W15 m ρ c)).trans (w15_v59 m ρ c)
theorem j3_v102 : W19 m ρ c (Proc.devRef .tc main_v102) = padP (Cert.ReferenceIdeal.Read.val_main_v115 (F := Ideal) (arg m c main_arg0) (arg m c main_arg1) (arg m c main_arg2) (arg m c main_arg3) (arg m c main_arg4) (arg m c main_arg5) (arg m c main_arg8) (arg m c main_arg9) (arg m c main_arg10)) := (Cert.Sage.Pads.q3_a (W16 m ρ c) (Cert.Sage.Pads.c3 (W15 m ρ c))).trans (congrArg padP (((Cert.Sage.Pads.k3_a (W16 m ρ c)).symm).trans (j3_v101 m ρ c)))
theorem j3_v103 : W19 m ρ c (Proc.devRef .tc main_v103) = padP (Cert.ReferenceIdeal.Read.val_main_v69 (F := Ideal) (arg m c main_arg0) (arg m c main_arg1) (arg m c main_arg2) (arg m c main_arg3) (arg m c main_arg4) (arg m c main_arg5) (arg m c main_arg11) (arg m c main_arg12) (arg m c main_arg13)) := (Cert.Sage.Pads.q3_b (W16 m ρ c)).trans (congrArg padP (((Cert.Sage.Pads.k3_b (W16 m ρ c)).symm).trans (w19_v59 m ρ c)))
theorem w19_arg6 : W19 m ρ c (Proc.devRef .tc main_arg6) = (arg m c main_arg6) := (s3_arg6 (W15 m ρ c)).trans (w15_arg6 m ρ c)
theorem w19_arg7 : W19 m ρ c (Proc.devRef .tc main_arg7) = (arg m c main_arg7) := (s3_arg7 (W15 m ρ c)).trans (w15_arg7 m ρ c)
theorem w19_arg17 : W19 m ρ c (Proc.devRef .tc main_arg17) = (arg m c main_arg17) := (s3_arg17 (W15 m ρ c)).trans (w15_arg17 m ρ c)
theorem w19_arg18 : W19 m ρ c (Proc.devRef .tc main_arg18) = (arg m c main_arg18) := (s3_arg18 (W15 m ρ c)).trans (w15_arg18 m ρ c)
theorem w19_arg19 : W19 m ρ c (Proc.devRef .tc main_arg19) = (arg m c main_arg19) := (s3_arg19 (W15 m ρ c)).trans (w15_arg19 m ρ c)

/-! ## Region 3 and layer two, playlists -/

/-- Region 3's result array: the layer of the padded operands. -/
theorem r3 : W20 m ρ c (Proc.devRef .tc main_v104) = Cert.Sage.dense false (padP (Cert.ReferenceIdeal.Read.val_main_v115 (F := Ideal) (arg m c main_arg0) (arg m c main_arg1) (arg m c main_arg2) (arg m c main_arg3) (arg m c main_arg4) (arg m c main_arg5) (arg m c main_arg8) (arg m c main_arg9) (arg m c main_arg10))) (padP (Cert.ReferenceIdeal.Read.val_main_v69 (F := Ideal) (arg m c main_arg0) (arg m c main_arg1) (arg m c main_arg2) (arg m c main_arg3) (arg m c main_arg4) (arg m c main_arg5) (arg m c main_arg11) (arg m c main_arg12) (arg m c main_arg13))) (transpose S128x128 [1, 0] (arg m c main_arg17) transposes_S128x128_p1_0_S128x128) (transpose S128x128 [1, 0] (arg m c main_arg19) transposes_S128x128_p1_0_S128x128) (shapeCast S1x128 (arg m c main_arg18) shapeCasts_S128_S1x128) := by
  have h := (W20_arr m ρ c 5).trans (Cert.Sage.DenseRegion.region3_array (V19 m ρ) c)
  have e0 : V19 m ρ c (Pipeline.arrRef spec3 0) = padP (Cert.ReferenceIdeal.Read.val_main_v115 (F := Ideal) (arg m c main_arg0) (arg m c main_arg1) (arg m c main_arg2) (arg m c main_arg3) (arg m c main_arg4) (arg m c main_arg5) (arg m c main_arg8) (arg m c main_arg9) (arg m c main_arg10)) := j3_v102 m ρ c
  have e1 : V19 m ρ c (Pipeline.arrRef spec3 1) = padP (Cert.ReferenceIdeal.Read.val_main_v69 (F := Ideal) (arg m c main_arg0) (arg m c main_arg1) (arg m c main_arg2) (arg m c main_arg3) (arg m c main_arg4) (arg m c main_arg5) (arg m c main_arg11) (arg m c main_arg12) (arg m c main_arg13)) := j3_v103 m ρ c
  have e2 : V19 m ρ c (Pipeline.arrRef spec3 2) = (arg m c main_arg17) := w19_arg17 m ρ c
  have e3 : V19 m ρ c (Pipeline.arrRef spec3 3) = (arg m c main_arg18) := w19_arg18 m ρ c
  have e4 : V19 m ρ c (Pipeline.arrRef spec3 4) = (arg m c main_arg19) := w19_arg19 m ρ c
  rw [e0, e1, e2, e3, e4] at h
  exact h

theorem p2S : sliceP (W20 m ρ c (Proc.devRef .tc main_v104)) = (Cert.ReferenceIdeal.Read.val_main_v123 (F := Ideal) (arg m c main_arg0) (arg m c main_arg1) (arg m c main_arg2) (arg m c main_arg3) (arg m c main_arg4) (arg m c main_arg5) (arg m c main_arg8) (arg m c main_arg9) (arg m c main_arg10) (arg m c main_arg11) (arg m c main_arg12) (arg m c main_arg13) (arg m c main_arg17) (arg m c main_arg18) (arg m c main_arg19)) := by
  rw [r3 m ρ c, Cert.Sage.Ref.p2]
  refine (Cert.Sage.slice_dense_pad false (Cert.ReferenceIdeal.Read.val_main_v115 (F := Ideal) (arg m c main_arg0) (arg m c main_arg1) (arg m c main_arg2) (arg m c main_arg3) (arg m c main_arg4) (arg m c main_arg5) (arg m c main_arg8) (arg m c main_arg9) (arg m c main_arg10)) (Cert.ReferenceIdeal.Read.val_main_v69 (F := Ideal) (arg m c main_arg0) (arg m c main_arg1) (arg m c main_arg2) (arg m c main_arg3) (arg m c main_arg4) (arg m c main_arg5) (arg m c main_arg11) (arg m c main_arg12) (arg m c main_arg13)) _ _ _ zeroPad zeroPad pads_S100000x128_S102400x128_024000_000 h_S_ h_S_ slices_S102400x128_S100000x128_0_0).trans ?_
  rw [Cert.LibBiasRow.shapeCast_eq_broadcastInDim (arg m c main_arg18) shapeCasts_S128_S1x128 Cert.ReferenceIdeal.Gen.bcast_S128_S1x128_1]
theorem w20_v82 : W20 m ρ c (Proc.devRef .tc main_v82) = (Cert.ReferenceIdeal.Read.val_main_v96 (F := Ideal) (arg m c main_arg0) (arg m c main_arg1) (arg m c main_arg2) (arg m c main_arg3) (arg m c main_arg4) (arg m c main_arg5) (arg m c main_arg8) (arg m c main_arg9) (arg m c main_arg10) (arg m c main_arg11) (arg m c main_arg12) (arg m c main_arg13) (arg m c main_arg14) (arg m c main_arg15) (arg m c main_arg16)) := (W20_of_ne m ρ c main_v82 (by decide)).trans (j3_v82 m ρ c)
theorem w20_arg6 : W20 m ρ c (Proc.devRef .tc main_arg6) = (arg m c main_arg6) := (W20_of_ne m ρ c main_arg6 (by decide)).trans (w19_arg6 m ρ c)
theorem w20_arg7 : W20 m ρ c (Proc.devRef .tc main_arg7) = (arg m c main_arg7) := (W20_of_ne m ρ c main_arg7 (by decide)).trans (w19_arg7 m ρ c)

/-! ## Stretch 4, region 4 and the result -/

theorem j4_v112 : W24 m ρ c (Proc.devRef .tc main_v112) = (Cert.ReferenceIdeal.Read.val_main_v130 (F := Ideal) (arg m c main_arg0) (arg m c main_arg1) (arg m c main_arg2) (arg m c main_arg3) (arg m c main_arg4) (arg m c main_arg5) (arg m c main_arg6) (arg m c main_arg8) (arg m c main_arg9) (arg m c main_arg10) (arg m c main_arg11) (arg m c main_arg12) (arg m c main_arg13) (arg m c main_arg17) (arg m c main_arg18) (arg m c main_arg19)) := s4_v112 (W20 m ρ c) _ _ _ _ _ _ _ _ _ _ _ _ _ _ _ _ (p2S m ρ c) (w20_arg6 m ρ c)
theorem j4_v119 : W24 m ρ c (Proc.devRef .tc main_v119) = (Cert.ReferenceIdeal.Read.val_main_v137 (F := Ideal) (arg m c main_arg0) (arg m c main_arg1) (arg m c main_arg2) (arg m c main_arg3) (arg m c main_arg4) (arg m c main_arg5) (arg m c main_arg7) (arg m c main_arg8) (arg m c main_arg9) (arg m c main_arg10) (arg m c main_arg11) (arg m c main_arg12) (arg m c main_arg13) (arg m c main_arg14) (arg m c main_arg15) (arg m c main_arg16)) := s4_v119 (W20 m ρ c) _ _ _ _ _ _ _ _ _ _ _ _ _ _ _ _ (w20_v82 m ρ c) (w20_arg7 m ρ c)
theorem j4_v120 : W24 m ρ c (Proc.devRef .tc main_v120) = padL (Cert.ReferenceIdeal.Read.val_main_v130 (F := Ideal) (arg m c main_arg0) (arg m c main_arg1) (arg m c main_arg2) (arg m c main_arg3) (arg m c main_arg4) (arg m c main_arg5) (arg m c main_arg6) (arg m c main_arg8) (arg m c main_arg9) (arg m c main_arg10) (arg m c main_arg11) (arg m c main_arg12) (arg m c main_arg13) (arg m c main_arg17) (arg m c main_arg18) (arg m c main_arg19)) := (Cert.Sage.Pads.q4_a (W21 m ρ c) (Cert.Sage.Pads.c4 (W20 m ρ c))).trans (congrArg padL (((Cert.Sage.Pads.k4_a (W21 m ρ c)).symm).trans (j4_v112 m ρ c)))
theorem j4_v121 : W24 m ρ c (Proc.devRef .tc main_v121) = padL (Cert.ReferenceIdeal.Read.val_main_v137 (F := Ideal) (arg m c main_arg0) (arg m c main_arg1) (arg m c main_arg2) (arg m c main_arg3) (arg m c main_arg4) (arg m c main_arg5) (arg m c main_arg7) (arg m c main_arg8) (arg m c main_arg9) (arg m c main_arg10) (arg m c main_arg11) (arg m c main_arg12) (arg m c main_arg13) (arg m c main_arg14) (arg m c main_arg15) (arg m c main_arg16)) := (Cert.Sage.Pads.q4_b (W21 m ρ c)).trans (congrArg padL (((Cert.Sage.Pads.k4_b (W21 m ρ c)).symm).trans (j4_v119 m ρ c)))

/-- The last region's result array: the row-wise inner product of the padded label rows. -/
theorem r4 : W25 m ρ c (Proc.devRef .tc main_v122) = Cert.Sage.rowDot (padL (Cert.ReferenceIdeal.Read.val_main_v130 (F := Ideal) (arg m c main_arg0) (arg m c main_arg1) (arg m c main_arg2) (arg m c main_arg3) (arg m c main_arg4) (arg m c main_arg5) (arg m c main_arg6) (arg m c main_arg8) (arg m c main_arg9) (arg m c main_arg10) (arg m c main_arg11) (arg m c main_arg12) (arg m c main_arg13) (arg m c main_arg17) (arg m c main_arg18) (arg m c main_arg19))) (padL (Cert.ReferenceIdeal.Read.val_main_v137 (F := Ideal) (arg m c main_arg0) (arg m c main_arg1) (arg m c main_arg2) (arg m c main_arg3) (arg m c main_arg4) (arg m c main_arg5) (arg m c main_arg7) (arg m c main_arg8) (arg m c main_arg9) (arg m c main_arg10) (arg m c main_arg11) (arg m c main_arg12) (arg m c main_arg13) (arg m c main_arg14) (arg m c main_arg15) (arg m c main_arg16))) := by
  have h := (W25_arr m ρ c 2).trans (Cert.Sage.DotRegion.region4_array (V24 m ρ) c)
  have e0 : V24 m ρ c (Pipeline.arrRef spec4 0) = padL (Cert.ReferenceIdeal.Read.val_main_v130 (F := Ideal) (arg m c main_arg0) (arg m c main_arg1) (arg m c main_arg2) (arg m c main_arg3) (arg m c main_arg4) (arg m c main_arg5) (arg m c main_arg6) (arg m c main_arg8) (arg m c main_arg9) (arg m c main_arg10) (arg m c main_arg11) (arg m c main_arg12) (arg m c main_arg13) (arg m c main_arg17) (arg m c main_arg18) (arg m c main_arg19)) := j4_v120 m ρ c
  have e1 : V24 m ρ c (Pipeline.arrRef spec4 1) = padL (Cert.ReferenceIdeal.Read.val_main_v137 (F := Ideal) (arg m c main_arg0) (arg m c main_arg1) (arg m c main_arg2) (arg m c main_arg3) (arg m c main_arg4) (arg m c main_arg5) (arg m c main_arg7) (arg m c main_arg8) (arg m c main_arg9) (arg m c main_arg10) (arg m c main_arg11) (arg m c main_arg12) (arg m c main_arg13) (arg m c main_arg14) (arg m c main_arg15) (arg m c main_arg16)) := j4_v121 m ρ c
  rw [e0, e1] at h
  exact h

/-- The kernel program's result buffer at the end is the reference's result as a function of the arguments. -/
theorem result : W26 m ρ c (Proc.devRef .tc main_v123) = (Cert.ReferenceIdeal.Read.val_main_v139 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16) (arg m c main_arg17) (arg m c main_arg18) (arg m c main_arg19)) := by
  refine (s5_v123 (W25 m ρ c)).trans ?_
  rw [r4 m ρ c, Cert.Sage.Ref.out]
  exact Cert.Sage.slice_rowDot_pad (Cert.ReferenceIdeal.Read.val_main_v130 (F := Ideal) (arg m c main_arg0) (arg m c main_arg1) (arg m c main_arg2) (arg m c main_arg3) (arg m c main_arg4) (arg m c main_arg5) (arg m c main_arg6) (arg m c main_arg8) (arg m c main_arg9) (arg m c main_arg10) (arg m c main_arg11) (arg m c main_arg12) (arg m c main_arg13) (arg m c main_arg17) (arg m c main_arg18) (arg m c main_arg19)) (Cert.ReferenceIdeal.Read.val_main_v137 (F := Ideal) (arg m c main_arg0) (arg m c main_arg1) (arg m c main_arg2) (arg m c main_arg3) (arg m c main_arg4) (arg m c main_arg5) (arg m c main_arg7) (arg m c main_arg8) (arg m c main_arg9) (arg m c main_arg10) (arg m c main_arg11) (arg m c main_arg12) (arg m c main_arg13) (arg m c main_arg14) (arg m c main_arg15) (arg m c main_arg16)) zeroPad zeroPad pads_S500000x128_S507904x128_079040_000 h_S_ h_S_ slices_S507904_S500000_0

end Cert.Sage.Chain

end
-- ==== Proof.Assembly.lean ====
/-
  The five claims of the certificate.

  The three frames: the two kernel programs' are the generated frame certificates; the reference has no kernel, and its
  frame is its generated run with the result forgotten.  The idealization rewrote nothing, so that claim is trivial.
  The algebraic claim: at the exact extended reals the idealized kernel program ends with its result buffer at the
  last valuation of its chain, which is the reference's result as a function of the arguments' launch contents
  (`Cert.Sage.Chain.result`); the reference ends with its result at the same function of ITS arguments' launch
  contents; and the two memories agree on the arguments.
-/
import proofs.«155691_j72499047956494_1_alg».proof.Defs
import proofs.«155691_j72499047956494_1_alg».proof.Proof.Gen.Kernel.Frame
import proofs.«155691_j72499047956494_1_alg».proof.Proof.Gen.KernelIdeal.Frame
import proofs.«155691_j72499047956494_1_alg».proof.Proof.Gen.ReferenceIdeal.Run
import proofs.«155691_j72499047956494_1_alg».proof.Proof.Gen.ReferenceIdeal.Read
import proofs.«155691_j72499047956494_1_alg».proof.Proof.Gen.Pre_finite_inputs
import proofs.«155691_j72499047956494_1_alg».proof.Proof.KernelRun
import proofs.«155691_j72499047956494_1_alg».proof.Proof.Chain

set_option maxRecDepth 16384

noncomputable section

namespace Cert.Proof.Claims

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

theorem algebraic : Cert.algebraic_KernelIdeal_ReferenceIdeal := by
  intro m ρ m' ρ' _ hagree
  refine ⟨fun c => Cert.ReferenceIdeal.Read.val_main_v139 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)), ?_, ?_⟩
  · refine (θ_run Cert.KernelIdeal.defs _ _).mono (fun r h c => ?_) (Cert.Sage.KernelRun.run_all (F := Ideal) m ρ)
    exact ⟨(h c _ (Cert.KernelIdeal.Gen.mem_uc Cert.KernelIdeal.main_v123 (by decide))).trans (Cert.Sage.Chain.result m ρ c),
      (h c _ (Cert.KernelIdeal.Gen.mem_uc Cert.KernelIdeal.main_arg0 (by decide))).trans (Cert.KernelIdeal.Gen.W26_main_arg0 m ρ c),
      (h c _ (Cert.KernelIdeal.Gen.mem_uc Cert.KernelIdeal.main_arg1 (by decide))).trans (Cert.KernelIdeal.Gen.W26_main_arg1 m ρ c),
      (h c _ (Cert.KernelIdeal.Gen.mem_uc Cert.KernelIdeal.main_arg2 (by decide))).trans (Cert.KernelIdeal.Gen.W26_main_arg2 m ρ c),
      (h c _ (Cert.KernelIdeal.Gen.mem_uc Cert.KernelIdeal.main_arg3 (by decide))).trans (Cert.KernelIdeal.Gen.W26_main_arg3 m ρ c),
      (h c _ (Cert.KernelIdeal.Gen.mem_uc Cert.KernelIdeal.main_arg4 (by decide))).trans (Cert.KernelIdeal.Gen.W26_main_arg4 m ρ c),
      (h c _ (Cert.KernelIdeal.Gen.mem_uc Cert.KernelIdeal.main_arg5 (by decide))).trans (Cert.KernelIdeal.Gen.W26_main_arg5 m ρ c),
      (h c _ (Cert.KernelIdeal.Gen.mem_uc Cert.KernelIdeal.main_arg6 (by decide))).trans (Cert.KernelIdeal.Gen.W26_main_arg6 m ρ c),
      (h c _ (Cert.KernelIdeal.Gen.mem_uc Cert.KernelIdeal.main_arg7 (by decide))).trans (Cert.KernelIdeal.Gen.W26_main_arg7 m ρ c),
      (h c _ (Cert.KernelIdeal.Gen.mem_uc Cert.KernelIdeal.main_arg8 (by decide))).trans (Cert.KernelIdeal.Gen.W26_main_arg8 m ρ c),
      (h c _ (Cert.KernelIdeal.Gen.mem_uc Cert.KernelIdeal.main_arg9 (by decide))).trans (Cert.KernelIdeal.Gen.W26_main_arg9 m ρ c),
      (h c _ (Cert.KernelIdeal.Gen.mem_uc Cert.KernelIdeal.main_arg10 (by decide))).trans (Cert.KernelIdeal.Gen.W26_main_arg10 m ρ c),
      (h c _ (Cert.KernelIdeal.Gen.mem_uc Cert.KernelIdeal.main_arg11 (by decide))).trans (Cert.KernelIdeal.Gen.W26_main_arg11 m ρ c),
      (h c _ (Cert.KernelIdeal.Gen.mem_uc Cert.KernelIdeal.main_arg12 (by decide))).trans (Cert.KernelIdeal.Gen.W26_main_arg12 m ρ c),
      (h c _ (Cert.KernelIdeal.Gen.mem_uc Cert.KernelIdeal.main_arg13 (by decide))).trans (Cert.KernelIdeal.Gen.W26_main_arg13 m ρ c),
      (h c _ (Cert.KernelIdeal.Gen.mem_uc Cert.KernelIdeal.main_arg14 (by decide))).trans (Cert.KernelIdeal.Gen.W26_main_arg14 m ρ c),
      (h c _ (Cert.KernelIdeal.Gen.mem_uc Cert.KernelIdeal.main_arg15 (by decide))).trans (Cert.KernelIdeal.Gen.W26_main_arg15 m ρ c),
      (h c _ (Cert.KernelIdeal.Gen.mem_uc Cert.KernelIdeal.main_arg16 (by decide))).trans (Cert.KernelIdeal.Gen.W26_main_arg16 m ρ c),
      (h c _ (Cert.KernelIdeal.Gen.mem_uc Cert.KernelIdeal.main_arg17 (by decide))).trans (Cert.KernelIdeal.Gen.W26_main_arg17 m ρ c),
      (h c _ (Cert.KernelIdeal.Gen.mem_uc Cert.KernelIdeal.main_arg18 (by decide))).trans (Cert.KernelIdeal.Gen.W26_main_arg18 m ρ c),
      (h c _ (Cert.KernelIdeal.Gen.mem_uc Cert.KernelIdeal.main_arg19 (by decide))).trans (Cert.KernelIdeal.Gen.W26_main_arg19 m ρ c)⟩
  · refine (θ_run Cert.ReferenceIdeal.defs _ _).mono (fun r h c => ⟨(h c).1.trans ?_, (h c).2⟩) (Cert.ReferenceIdeal.Value.run (F := Ideal) m' ρ')
    obtain ⟨h0, h1, h2, h3, h4, h5, h6, h7, h8, h9, h10, h11, h12, h13, h14, h15, h16, h17, h18, h19⟩ := hagree c
    rw [Cert.ReferenceIdeal.Read.val_main_v139_eq, h0, h1, h2, h3, h4, h5, h6, h7, h8, h9, h10, h11, h12, h13, h14, h15, h16, h17, h18, h19]

end Cert.Proof.Claims

end
-- ==== Proof.lean ====
/-
  The certificate: a two-layer neighbourhood-averaging network whose dense layers and final row-wise inner product run
  as row-tiled kernel regions over zero-padded rows, against the plain formulation of the same network.

  Both programs look the node features up, average the neighbours' features along the edges, and apply the layers
  mean · Wlᵀ + b + x · Wrᵀ (the first layer followed by the positive part), then take the inner product of the label
  edges' playlist and track rows.  The kernel program computes each layer and the final inner product block of rows by
  block of rows, on operands padded below with zero rows, and keeps the first rows of each result.  Read at the exact
  extended reals a change of float format is the identity, a matrix-unit product into zero and a general matrix product
  are the same sums, and a row of a layer depends on the same row of its operands only: so the blocks and the padding
  change nothing, and the two programs end with equal results, entry by entry.  No finiteness of the inputs is used.

  Proof/SageSpec.lean states the layer and the inner product; Proof/DenseBody.lean and Proof/DenseRegion0–3.lean, Proof/DotRegion.lean
  read each kernel region's result array as that function of the region's operands; Proof/Stretch0–4.lean and
  Proof/Pads.lean read the host operations between the regions; Proof/RefLayers.lean and Proof/RefOut.lean read the
  reference's layers; Proof/Chain.lean walks the kernel program's buffer contents from the launch to the result;
  Proof/Assembly.lean states the five claims.
-/
import proofs.«155691_j72499047956494_1_alg».proof.Defs
import proofs.«155691_j72499047956494_1_alg».proof.Proof.Gen.Kernel
import proofs.«155691_j72499047956494_1_alg».proof.Proof.Gen.Kernel.Skeleton
import proofs.«155691_j72499047956494_1_alg».proof.Proof.Gen.Kernel.Launch
import proofs.«155691_j72499047956494_1_alg».proof.Proof.Gen.Kernel.Points
import proofs.«155691_j72499047956494_1_alg».proof.Proof.Gen.Kernel.Frame
import proofs.«155691_j72499047956494_1_alg».proof.Proof.Gen.KernelIdeal
import proofs.«155691_j72499047956494_1_alg».proof.Proof.Gen.KernelIdeal.Skeleton
import proofs.«155691_j72499047956494_1_alg».proof.Proof.Gen.KernelIdeal.Launch
import proofs.«155691_j72499047956494_1_alg».proof.Proof.Gen.KernelIdeal.Points
import proofs.«155691_j72499047956494_1_alg».proof.Proof.Gen.KernelIdeal.Frame
import proofs.«155691_j72499047956494_1_alg».proof.Proof.Gen.ReferenceIdeal
import proofs.«155691_j72499047956494_1_alg».proof.Proof.Gen.Pre_finite_inputs
import proofs.«155691_j72499047956494_1_alg».proof.Proof.Gen.ReferenceIdeal.Run
import proofs.«155691_j72499047956494_1_alg».proof.Proof.Gen.ReferenceIdeal.Read
import proofs.«155691_j72499047956494_1_alg».proof.Proof.Assembly
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
